-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x64 : Shape := ⟨3, ![2, 50000, 64]⟩
abbrev S400000 : Shape := ⟨1, ![400000]⟩
abbrev S2x50000 : Shape := ⟨2, ![2, 50000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S2x50000x64 : S_.BroadcastsInDim S2x50000x64 (![] : Fin 0 → Fin S2x50000x64.rank)
  reducesTo_S2x50000x64_S_d0_1_2 : S2x50000x64.ReducesTo [0, 1, 2] S_
  h_S_ : 0 < S_.numel
  bcast_S_S400000 : S_.BroadcastsInDim S400000 (![] : Fin 0 → Fin S400000.rank)
  reducesTo_S400000_S_d0 : S400000.ReducesTo [0] S_
  bcast_S_S50000 : S_.BroadcastsInDim S50000 (![] : Fin 0 → Fin S50000.rank)
  reducesTo_S50000_S_d0 : S50000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg10 : FVec F S64x128 .f32) (main_arg11 : FVec F S128 .f32) (main_arg12 : FVec F S128x128 .f32) (main_arg13 : FVec F S128x128 .f32) (main_arg14 : FVec F S128 .f32) (main_v33 : IVec S_ 1) : IVec S_ 1 :=
  let main_v34 : FVec F S64x128 .f32 := Host.absf main_arg10
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_v48 main_v49 main_v50

def fn_part1 {F : FTy → Type} [FloatOps F] (main_arg7 : FVec F S64x128 .f32) (main_arg8 : FVec F S128 .f32) (main_arg9 : FVec F S64x128 .f32) (main_arg10 : FVec F S64x128 .f32) (main_arg11 : FVec F S128 .f32) (main_arg12 : FVec F S128x128 .f32) (main_arg13 : FVec F S128x128 .f32) (main_arg14 : FVec F S128 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S64x128 .f32 := Host.absf main_arg7
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg9
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S2x50000x64 .f32) (main_arg1 : FVec F S400000 .f32) (main_arg2 : FVec F S400000 .f32) (main_arg3 : IVec S400000 32) (main_arg4 : IVec S400000 32) (main_arg5 : IVec S2x50000 32) (main_arg6 : FVec F S50000 .f32) (main_arg7 : FVec F S64x128 .f32) (main_arg8 : FVec F S128 .f32) (main_arg9 : FVec F S64x128 .f32) (main_arg10 : FVec F S64x128 .f32) (main_arg11 : FVec F S128 .f32) (main_arg12 : FVec F S128x128 .f32) (main_arg13 : FVec F S128x128 .f32) (main_arg14 : FVec F S128 .f32) : IVec S_ 1 :=
  let main_v0 : FVec F S2x50000x64 .f32 := Host.absf main_arg0
  let main_cst : FVec F S_ .f32 := constant S_ .f32 0x7F800000#32
  let main_v1 : FVec F S2x50000x64 .f32 := broadcastInDim S2x50000x64 ![] bcast_S_S2x50000x64 main_cst
  let main_v2 : IVec S2x50000x64 1 := cmpf .olt main_v0 main_v1
  let main_c : IVec S_ 1 := constantI S_ 1 1#1
  let main_v3 : IVec S_ 1 := (fun x v => Host.reduce IntOp.andi x v reducesTo_S2x50000x64_S_d0_1_2 h_S_) main_v2 main_c
  let main_v4 : FVec F S400000 .f32 := Host.absf main_arg1
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S400000 .f32 := Host.absf main_arg2
  let main_cst_2 : FVec F S_ .f32 := constant S_ .f32 0x7F800000#32
  let main_v10 : FVec F S400000 .f32 := broadcastInDim S400000 ![] bcast_S_S400000 main_cst_2
  let main_v11 : IVec S400000 1 := cmpf .olt main_v9 main_v10
  let main_c_3 : IVec S_ 1 := constantI S_ 1 1#1
  let main_v12 : IVec S_ 1 := (fun x v => Host.reduce IntOp.andi x v reducesTo_S400000_S_d0 h_S_) main_v11 main_c_3
  let main_v13 : IVec S_ 1 := andi main_v8 main_v12
  let main_v14 : FVec F S50000 .f32 := Host.absf main_arg6
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg7 main_arg8 main_arg9 main_arg10 main_arg11 main_arg12 main_arg13 main_arg14 main_v13 main_v16
-- ==== Kernel.lean ====
abbrev S2x50000x64 : Shape := ⟨3, ![2, 50000, 64]⟩
abbrev S400000 : Shape := ⟨1, ![400000]⟩
abbrev S2x50000 : Shape := ⟨2, ![2, 50000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S_ : Shape := ⟨0, ![]⟩
abbrev S400000x1 : Shape := ⟨2, ![400000, 1]⟩
abbrev S100000x64 : Shape := ⟨2, ![100000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S2x50000x128 : Shape := ⟨3, ![2, 50000, 128]⟩
abbrev S50000x2x128 : Shape := ⟨3, ![50000, 2, 128]⟩
abbrev S50000x256 : Shape := ⟨2, ![50000, 256]⟩
abbrev S1x50000 : Shape := ⟨2, ![1, 50000]⟩
abbrev S50000x1 : Shape := ⟨2, ![50000, 1]⟩
abbrev S12500x256 : Shape := ⟨2, ![12500, 256]⟩
abbrev S12500x2x128 : Shape := ⟨3, ![12500, 2, 128]⟩
abbrev S2x12500x128 : Shape := ⟨3, ![2, 12500, 128]⟩
abbrev S256 : Shape := ⟨1, ![256]⟩
abbrev S64x256 : Shape := ⟨2, ![64, 256]⟩
abbrev S1x256 : Shape := ⟨2, ![1, 256]⟩
abbrev S100000x256 : Shape := ⟨2, ![100000, 256]⟩
abbrev S5000x256 : Shape := ⟨2, ![5000, 256]⟩
abbrev S400000x256 : Shape := ⟨2, ![400000, 256]⟩
abbrev S128x256 : Shape := ⟨2, ![128, 256]⟩
abbrev S25000x128 : Shape := ⟨2, ![25000, 128]⟩

abbrev nBuf : Space → Nat
  | .hbm => 148
  | .vmem => 38
  | .smem => 0
  | _ => 0

abbrev hbmTy0_0 (i : Nat) : BufTy := match i % 128 with
  | 0 => ⟨S2x50000x64, .f32⟩
  | 1 => ⟨S400000, .f32⟩
  | 2 => ⟨S400000, .f32⟩
  | 3 => ⟨S400000, .i32⟩
  | 4 => ⟨S400000, .i32⟩
  | 5 => ⟨S2x50000, .i32⟩
  | 6 => ⟨S50000, .f32⟩
  | 7 => ⟨S64x128, .f32⟩
  | 8 => ⟨S128, .f32⟩
  | 9 => ⟨S64x128, .f32⟩
  | 10 => ⟨S64x128, .f32⟩
  | 11 => ⟨S128, .f32⟩
  | 12 => ⟨S128x128, .f32⟩
  | 13 => ⟨S128x128, .f32⟩
  | 14 => ⟨S128, .f32⟩
  | 15 => ⟨S_, .f32⟩
  | 16 => ⟨S50000, .f32⟩
  | 17 => ⟨S400000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S100000x64, .f32⟩
  | 26 => ⟨S1x128, .f32⟩
  | 27 => ⟨S100000x128, .f32⟩
  | 28 => ⟨S2x50000x128, .f32⟩
  | 29 => ⟨S50000x2x128, .f32⟩
  | 30 => ⟨S50000x256, .f32⟩
  | 31 => ⟨S1x50000, .i32⟩
  | 32 => ⟨S50000, .i32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000x256, .f32⟩
  | 42 => ⟨S50000x1, .f32⟩
  | 43 => ⟨S50000x256, .f32⟩
  | 44 => ⟨S50000x256, .f32⟩
  | 45 => ⟨S1x50000, .i32⟩
  | 46 => ⟨S50000, .i32⟩
  | 47 => ⟨S_, .f32⟩
  | 48 => ⟨S12500x256, .f32⟩
  | 49 => ⟨S50000x1, .i32⟩
  | 50 => ⟨S12500x256, .f32⟩
  | 51 => ⟨S12500x2x128, .f32⟩
  | 52 => ⟨S2x12500x128, .f32⟩
  | 53 => ⟨S_, .f32⟩
  | 54 => ⟨S256, .f32⟩
  | 55 => ⟨S64x256, .f32⟩
  | 56 => ⟨S1x256, .f32⟩
  | 57 => ⟨S100000x256, .f32⟩
  | 58 => ⟨S100000x128, .f32⟩
  | 59 => ⟨S100000x128, .f32⟩
  | 60 => ⟨S2x50000x128, .f32⟩
  | 61 => ⟨S50000x2x128, .f32⟩
  | 62 => ⟨S50000x256, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S400000x256, .f32⟩
  | 72 => ⟨S400000x1, .f32⟩
  | 73 => ⟨S400000x256, .f32⟩
  | 74 => ⟨S400000x256, .f32⟩
  | 75 => ⟨S_, .f32⟩
  | 76 => ⟨S50000x256, .f32⟩
  | 77 => ⟨S400000x1, .i32⟩
  | 78 => ⟨S50000x256, .f32⟩
  | 79 => ⟨S50000x1, .f32⟩
  | 80 => ⟨S50000x256, .f32⟩
  | 81 => ⟨S50000x256, .f32⟩
  | 82 => ⟨S50000x2x128, .f32⟩
  | 83 => ⟨S2x50000x128, .f32⟩
  | 84 => ⟨S100000x128, .f32⟩
  | 85 => ⟨S1x128, .f32⟩
  | 86 => ⟨S100000x128, .f32⟩
  | 87 => ⟨S128x256, .f32⟩
  | 88 => ⟨S1x256, .f32⟩
  | 89 => ⟨S100000x256, .f32⟩
  | 90 => ⟨S100000x128, .f32⟩
  | 91 => ⟨S100000x128, .f32⟩
  | 92 => ⟨S2x50000x128, .f32⟩
  | 93 => ⟨S50000x2x128, .f32⟩
  | 94 => ⟨S50000x256, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000x256, .f32⟩
  | 104 => ⟨S400000x1, .f32⟩
  | 105 => ⟨S400000x256, .f32⟩
  | 106 => ⟨S400000x256, .f32⟩
  | 107 => ⟨S_, .f32⟩
  | 108 => ⟨S50000x256, .f32⟩
  | 109 => ⟨S400000x1, .i32⟩
  | 110 => ⟨S50000x256, .f32⟩
  | 111 => ⟨S50000x1, .f32⟩
  | 112 => ⟨S50000x256, .f32⟩
  | 113 => ⟨S50000x256, .f32⟩
  | 114 => ⟨S50000x2x128, .f32⟩
  | 115 => ⟨S2x50000x128, .f32⟩
  | 116 => ⟨S100000x128, .f32⟩
  | 117 => ⟨S1x128, .f32⟩
  | 118 => ⟨S100000x128, .f32⟩
  | 119 => ⟨S2x50000x128, .f32⟩
  | 120 => ⟨S50000x2x128, .f32⟩
  | 121 => ⟨S50000x256, .f32⟩
  | 122 => ⟨S1x50000, .i32⟩
  | 123 => ⟨S50000, .i32⟩
  | 124 => ⟨S_, .i32⟩
  | 125 => ⟨S50000, .i32⟩
  | 126 => ⟨S50000, .i1⟩
  | 127 => ⟨S_, .i32⟩
  | _ => ⟨S2x50000x64, .f32⟩

abbrev hbmTy0_1 (i : Nat) : BufTy := match i % 128 with
  | 0 => ⟨S50000, .i32⟩
  | 1 => ⟨S50000, .i32⟩
  | 2 => ⟨S50000, .i32⟩
  | 3 => ⟨S50000x1, .i32⟩
  | 4 => ⟨S50000x256, .f32⟩
  | 5 => ⟨S50000x1, .f32⟩
  | 6 => ⟨S50000x256, .f32⟩
  | 7 => ⟨S50000x256, .f32⟩
  | 8 => ⟨S1x50000, .i32⟩
  | 9 => ⟨S50000, .i32⟩
  | 10 => ⟨S_, .f32⟩
  | 11 => ⟨S12500x256, .f32⟩
  | 12 => ⟨S50000x1, .i32⟩
  | 13 => ⟨S12500x256, .f32⟩
  | 14 => ⟨S12500x2x128, .f32⟩
  | 15 => ⟨S2x12500x128, .f32⟩
  | 16 => ⟨S25000x128, .f32⟩
  | 17 => ⟨S25000x128, .f32⟩
  | 18 => ⟨S25000x128, .f32⟩
  | 19 => ⟨S2x12500x128, .f32⟩
  | _ => ⟨S2x50000x64, .f32⟩

abbrev hbmTy (i : Nat) : BufTy := match i / 128 with
  | 0 => hbmTy0_0 i
  | 1 => hbmTy0_1 i
  | _ => ⟨S2x50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x64, .f32⟩
  | .local _ .vmem, ⟨7, _⟩ => ⟨S5000x64, .f32⟩
  | .local _ .vmem, ⟨8, _⟩ => ⟨S64x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x256, .f32⟩
  | .local _ .vmem, ⟨22, _⟩ => ⟨S1x256, .f32⟩
  | .local _ .vmem, ⟨23, _⟩ => ⟨S5000x256, .f32⟩
  | .local _ .vmem, ⟨24, _⟩ => ⟨S5000x256, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | _, _ => ⟨S2x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_5 : Ref sig .tc := ⟨.hbm, 63, rfl⟩
abbrev main_v41 : Ref sig .tc := ⟨.hbm, 64, rfl⟩
abbrev main_v42 : Ref sig .tc := ⟨.hbm, 65, rfl⟩
abbrev main_c_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_8 : Ref sig .tc := ⟨.hbm, 95, rfl⟩
abbrev main_v70 : Ref sig .tc := ⟨.hbm, 96, rfl⟩
abbrev main_v71 : Ref sig .tc := ⟨.hbm, 97, rfl⟩
abbrev main_c_9 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_10 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_c_11 : Ref sig .tc := ⟨.hbm, 124, rfl⟩
abbrev main_v96 : Ref sig .tc := ⟨.hbm, 125, rfl⟩
abbrev main_v97 : Ref sig .tc := ⟨.hbm, 126, rfl⟩
abbrev main_c_12 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_13 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S_S50000 : S_.BroadcastsInDim S50000 (![] : Fin 0 → Fin S50000.rank)
  bcast_S400000_S400000x1_0 : S400000.BroadcastsInDim S400000x1 (![0] : Fin 1 → Fin S400000x1.rank)
  shapeCasts_S2x50000x64_S100000x64 : S2x50000x64.ShapeCasts S100000x64
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S100000x128_S2x50000x128 : S100000x128.ShapeCasts S2x50000x128
  transposes_S2x50000x128_S50000x2x128_1_0_2 : S2x50000x128.Transposes [1, 0, 2] S50000x2x128
  shapeCasts_S50000x2x128_S50000x256 : S50000x2x128.ShapeCasts S50000x256
  slices_S2x50000_S1x50000_1_0 : S2x50000.Slices ![1, 0] S1x50000
  shapeCasts_S1x50000_S50000 : S1x50000.ShapeCasts S50000
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S2x50000_S1x50000_0_0 : S2x50000.Slices ![0, 0] S1x50000
  bcast_S_S12500x256 : S_.BroadcastsInDim S12500x256 (![] : Fin 0 → Fin S12500x256.rank)
  shapeCasts_S12500x256_S12500x2x128 : S12500x256.ShapeCasts S12500x2x128
  transposes_S12500x2x128_S2x12500x128_1_0_2 : S12500x2x128.Transposes [1, 0, 2] S2x12500x128
  bcast_S_S256 : S_.BroadcastsInDim S256 (![] : Fin 0 → Fin S256.rank)
  concatenates_S64x128_S64x128_S64x256_d1 : Shape.Concatenates [S64x128, S64x128] S64x256 1
  shapeCasts_S256_S1x256 : S256.ShapeCasts S1x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  slices_S100000x256_S100000x128_0_0 : S100000x256.Slices ![0, 0] S100000x128
  slices_S100000x256_S100000x128_0_128 : S100000x256.Slices ![0, 128] S100000x128
  bcast_S_S400000 : S_.BroadcastsInDim S400000 (![] : Fin 0 → Fin S400000.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  shapeCasts_S50000x256_S50000x2x128 : S50000x256.ShapeCasts S50000x2x128
  transposes_S50000x2x128_S2x50000x128_1_0_2 : S50000x2x128.Transposes [1, 0, 2] S2x50000x128
  shapeCasts_S2x50000x128_S100000x128 : S2x50000x128.ShapeCasts S100000x128
  shapeCasts_S5000x128_S5000x128 : S5000x128.ShapeCasts S5000x128
  concatenates_S128x128_S128x128_S128x256_d1 : Shape.Concatenates [S128x128, S128x128] S128x256 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S2x12500x128_S25000x128 : S2x12500x128.ShapeCasts S25000x128
  shapeCasts_S25000x128_S2x12500x128 : S25000x128.ShapeCasts S2x12500x128
  scatter_S50000_S400000x1_S400000_n_0_0_1_wf : ScatterDims.WF S50000 S400000x1 S400000 [] [0] [0] 1
  dot_S5000x64_S64x128_S5000x128_1_0_0_1_n_n_wf : DotDims.WF S5000x64 S64x128 S5000x128 [1] [0] [0] [1] [] []
  gather_S50000x256_S50000x1_S50000x256_1_0_n_n_0_1_1256_wf : GatherDims.WF S50000x256 S50000x1 S50000x256 [1] [0] [] [0] [] 1 ![1, 256]
  scatter_S12500x256_S50000x1_S50000x256_1_0_0_1_wf : ScatterDims.WF S12500x256 S50000x1 S50000x256 [1] [0] [0] 1
  dot_S5000x64_S64x256_S5000x256_1_0_0_1_n_n_wf : DotDims.WF S5000x64 S64x256 S5000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S100000x256.size a
  hwx1_3 : ∀ i : grid1.Coords, EltTy.bits .f32 = 32 ∨ (Rect.block (s := S100000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x256.size a ≤ S100000x256.size a
  hwx3_3 : ∀ i : grid3.Coords, EltTy.bits .f32 = 32 ∨ (Rect.block (s := S100000x256) S5000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S25000x128.size a
  hwx5_0 : ∀ i : grid5.Coords, EltTy.bits .f32 = 32 ∨ (Rect.block (s := S25000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S25000x128.size a
  hwx5_1 : ∀ i : grid5.Coords, EltTy.bits .f32 = 32 ∨ (Rect.block (s := S25000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S25000x128.size a
  hwx5_2 : ∀ i : grid5.Coords, EltTy.bits .f32 = 32 ∨ (Rect.block (s := S25000x128) S5000x128.size (cc5_transform_2 i) (hinb5_2 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x256_S50000x1_S50000x256_1_0_n_n_0_1_1256 : GatherDims S50000x256 S50000x1 S50000x256 where
  offsetDims := [1]
  collapsedSliceDims := [0]
  operandBatchingDims := []
  startIndicesBatchingDims := []
  startIndexMap := [0]
  indexVectorDim := 1
  sliceSizes := ![1, 256]
  wf := gather_S50000x256_S50000x1_S50000x256_1_0_n_n_0_1_1256_wf
def scatter_S12500x256_S50000x1_S50000x256_1_0_0_1 : ScatterDims S12500x256 S50000x1 S50000x256 where
  updateWindowDims := [1]
  insertedWindowDims := [0]
  scatterDimsToOperandDims := [0]
  indexVectorDim := 1
  wf := scatter_S12500x256_S50000x1_S50000x256_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v7) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S5000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v90) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v113) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v114) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v115) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S2x50000x64 : Shape := ⟨3, ![2, 50000, 64]⟩
abbrev S400000 : Shape := ⟨1, ![400000]⟩
abbrev S2x50000 : Shape := ⟨2, ![2, 50000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S_ : Shape := ⟨0, ![]⟩
abbrev S400000x1 : Shape := ⟨2, ![400000, 1]⟩
abbrev S2x50000x128 : Shape := ⟨3, ![2, 50000, 128]⟩
abbrev S1x1x128 : Shape := ⟨3, ![1, 1, 128]⟩
abbrev S50000x2x128 : Shape := ⟨3, ![50000, 2, 128]⟩
abbrev S50000x256 : Shape := ⟨2, ![50000, 256]⟩
abbrev S1x50000 : Shape := ⟨2, ![1, 50000]⟩
abbrev S50000x1 : Shape := ⟨2, ![50000, 1]⟩
abbrev S12500x256 : Shape := ⟨2, ![12500, 256]⟩
abbrev S12500x2x128 : Shape := ⟨3, ![12500, 2, 128]⟩
abbrev S2x12500x128 : Shape := ⟨3, ![2, 12500, 128]⟩
abbrev S400000x256 : Shape := ⟨2, ![400000, 256]⟩

abbrev nBuf : Space → Nat
  | .hbm => 143
  | .vmem => 0
  | .smem => 0
  | _ => 0

abbrev hbmTy0_0 (i : Nat) : BufTy := match i % 128 with
  | 0 => ⟨S2x50000x64, .f32⟩
  | 1 => ⟨S400000, .f32⟩
  | 2 => ⟨S400000, .f32⟩
  | 3 => ⟨S400000, .i32⟩
  | 4 => ⟨S400000, .i32⟩
  | 5 => ⟨S2x50000, .i32⟩
  | 6 => ⟨S50000, .f32⟩
  | 7 => ⟨S64x128, .f32⟩
  | 8 => ⟨S128, .f32⟩
  | 9 => ⟨S64x128, .f32⟩
  | 10 => ⟨S64x128, .f32⟩
  | 11 => ⟨S128, .f32⟩
  | 12 => ⟨S128x128, .f32⟩
  | 13 => ⟨S128x128, .f32⟩
  | 14 => ⟨S128, .f32⟩
  | 15 => ⟨S_, .f32⟩
  | 16 => ⟨S50000, .f32⟩
  | 17 => ⟨S400000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S2x50000x128, .f32⟩
  | 26 => ⟨S1x1x128, .f32⟩
  | 27 => ⟨S2x50000x128, .f32⟩
  | 28 => ⟨S2x50000x128, .f32⟩
  | 29 => ⟨S50000x2x128, .f32⟩
  | 30 => ⟨S50000x256, .f32⟩
  | 31 => ⟨S1x50000, .i32⟩
  | 32 => ⟨S50000, .i32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000x256, .f32⟩
  | 42 => ⟨S50000x1, .f32⟩
  | 43 => ⟨S50000x256, .f32⟩
  | 44 => ⟨S50000x256, .f32⟩
  | 45 => ⟨S1x50000, .i32⟩
  | 46 => ⟨S50000, .i32⟩
  | 47 => ⟨S_, .f32⟩
  | 48 => ⟨S12500x256, .f32⟩
  | 49 => ⟨S50000x1, .i32⟩
  | 50 => ⟨S12500x256, .f32⟩
  | 51 => ⟨S12500x2x128, .f32⟩
  | 52 => ⟨S2x12500x128, .f32⟩
  | 53 => ⟨S2x50000x128, .f32⟩
  | 54 => ⟨S50000x2x128, .f32⟩
  | 55 => ⟨S50000x256, .f32⟩
  | 56 => ⟨S_, .i32⟩
  | 57 => ⟨S400000, .i32⟩
  | 58 => ⟨S400000, .i1⟩
  | 59 => ⟨S_, .i32⟩
  | 60 => ⟨S400000, .i32⟩
  | 61 => ⟨S400000, .i32⟩
  | 62 => ⟨S400000, .i32⟩
  | 63 => ⟨S400000x1, .i32⟩
  | 64 => ⟨S400000x256, .f32⟩
  | 65 => ⟨S400000x1, .f32⟩
  | 66 => ⟨S400000x256, .f32⟩
  | 67 => ⟨S400000x256, .f32⟩
  | 68 => ⟨S_, .f32⟩
  | 69 => ⟨S50000x256, .f32⟩
  | 70 => ⟨S400000x1, .i32⟩
  | 71 => ⟨S50000x256, .f32⟩
  | 72 => ⟨S50000x1, .f32⟩
  | 73 => ⟨S50000x256, .f32⟩
  | 74 => ⟨S50000x256, .f32⟩
  | 75 => ⟨S50000x2x128, .f32⟩
  | 76 => ⟨S2x50000x128, .f32⟩
  | 77 => ⟨S2x50000x128, .f32⟩
  | 78 => ⟨S2x50000x128, .f32⟩
  | 79 => ⟨S1x1x128, .f32⟩
  | 80 => ⟨S2x50000x128, .f32⟩
  | 81 => ⟨S2x50000x128, .f32⟩
  | 82 => ⟨S_, .f32⟩
  | 83 => ⟨S2x50000x128, .f32⟩
  | 84 => ⟨S2x50000x128, .i1⟩
  | 85 => ⟨S_, .f32⟩
  | 86 => ⟨S2x50000x128, .f32⟩
  | 87 => ⟨S2x50000x128, .f32⟩
  | 88 => ⟨S2x50000x128, .f32⟩
  | 89 => ⟨S2x50000x128, .f32⟩
  | 90 => ⟨S50000x2x128, .f32⟩
  | 91 => ⟨S50000x256, .f32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S400000x256, .f32⟩
  | 101 => ⟨S400000x1, .f32⟩
  | 102 => ⟨S400000x256, .f32⟩
  | 103 => ⟨S400000x256, .f32⟩
  | 104 => ⟨S_, .f32⟩
  | 105 => ⟨S50000x256, .f32⟩
  | 106 => ⟨S400000x1, .i32⟩
  | 107 => ⟨S50000x256, .f32⟩
  | 108 => ⟨S50000x1, .f32⟩
  | 109 => ⟨S50000x256, .f32⟩
  | 110 => ⟨S50000x256, .f32⟩
  | 111 => ⟨S50000x2x128, .f32⟩
  | 112 => ⟨S2x50000x128, .f32⟩
  | 113 => ⟨S2x50000x128, .f32⟩
  | 114 => ⟨S2x50000x128, .f32⟩
  | 115 => ⟨S1x1x128, .f32⟩
  | 116 => ⟨S2x50000x128, .f32⟩
  | 117 => ⟨S2x50000x128, .f32⟩
  | 118 => ⟨S50000x2x128, .f32⟩
  | 119 => ⟨S50000x256, .f32⟩
  | 120 => ⟨S1x50000, .i32⟩
  | 121 => ⟨S50000, .i32⟩
  | 122 => ⟨S_, .i32⟩
  | 123 => ⟨S50000, .i32⟩
  | 124 => ⟨S50000, .i1⟩
  | 125 => ⟨S_, .i32⟩
  | 126 => ⟨S50000, .i32⟩
  | 127 => ⟨S50000, .i32⟩
  | _ => ⟨S2x50000x64, .f32⟩

abbrev hbmTy0_1 (i : Nat) : BufTy := match i % 128 with
  | 0 => ⟨S50000, .i32⟩
  | 1 => ⟨S50000x1, .i32⟩
  | 2 => ⟨S50000x256, .f32⟩
  | 3 => ⟨S50000x1, .f32⟩
  | 4 => ⟨S50000x256, .f32⟩
  | 5 => ⟨S50000x256, .f32⟩
  | 6 => ⟨S1x50000, .i32⟩
  | 7 => ⟨S50000, .i32⟩
  | 8 => ⟨S_, .f32⟩
  | 9 => ⟨S12500x256, .f32⟩
  | 10 => ⟨S50000x1, .i32⟩
  | 11 => ⟨S12500x256, .f32⟩
  | 12 => ⟨S12500x2x128, .f32⟩
  | 13 => ⟨S2x12500x128, .f32⟩
  | 14 => ⟨S2x12500x128, .f32⟩
  | _ => ⟨S2x50000x64, .f32⟩

abbrev hbmTy (i : Nat) : BufTy := match i / 128 with
  | 0 => hbmTy0_0 i
  | 1 => hbmTy0_1 i
  | _ => ⟨S2x50000x64, .f32⟩

abbrev bufTy : (tb : Table) → Fin (tcTables nBuf tb) → BufTy
  | .hbm, ⟨i, _⟩ => hbmTy i
  | _, _ => ⟨S2x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_c_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_7 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_9 : Ref sig .tc := ⟨.hbm, 92, rfl⟩
abbrev main_v66 : Ref sig .tc := ⟨.hbm, 93, rfl⟩
abbrev main_v67 : Ref sig .tc := ⟨.hbm, 94, rfl⟩
abbrev main_c_10 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_11 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_c_12 : Ref sig .tc := ⟨.hbm, 122, rfl⟩
abbrev main_v93 : Ref sig .tc := ⟨.hbm, 123, rfl⟩
abbrev main_v94 : Ref sig .tc := ⟨.hbm, 124, rfl⟩
abbrev main_c_13 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_14 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S400000_S400000x1_0 : S400000.BroadcastsInDim S400000x1 (![0] : Fin 1 → Fin S400000x1.rank)
  bcast_S128_S1x1x128_2 : S128.BroadcastsInDim S1x1x128 (![2] : Fin 1 → Fin S1x1x128.rank)
  bcast_S1x1x128_S2x50000x128_0_1_2 : S1x1x128.BroadcastsInDim S2x50000x128 (![0, 1, 2] : Fin 3 → Fin S2x50000x128.rank)
  transposes_S2x50000x128_S50000x2x128_1_0_2 : S2x50000x128.Transposes [1, 0, 2] S50000x2x128
  shapeCasts_S50000x2x128_S50000x256 : S50000x2x128.ShapeCasts S50000x256
  slices_S2x50000_S1x50000_1_0 : S2x50000.Slices ![1, 0] S1x50000
  shapeCasts_S1x50000_S50000 : S1x50000.ShapeCasts S50000
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S2x50000_S1x50000_0_0 : S2x50000.Slices ![0, 0] S1x50000
  bcast_S_S12500x256 : S_.BroadcastsInDim S12500x256 (![] : Fin 0 → Fin S12500x256.rank)
  shapeCasts_S12500x256_S12500x2x128 : S12500x256.ShapeCasts S12500x2x128
  transposes_S12500x2x128_S2x12500x128_1_0_2 : S12500x2x128.Transposes [1, 0, 2] S2x12500x128
  bcast_S_S400000 : S_.BroadcastsInDim S400000 (![] : Fin 0 → Fin S400000.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  shapeCasts_S50000x256_S50000x2x128 : S50000x256.ShapeCasts S50000x2x128
  transposes_S50000x2x128_S2x50000x128_1_0_2 : S50000x2x128.Transposes [1, 0, 2] S2x50000x128
  bcast_S_S2x50000x128 : S_.BroadcastsInDim S2x50000x128 (![] : Fin 0 → Fin S2x50000x128.rank)
  scatter_S50000_S400000x1_S400000_n_0_0_1_wf : ScatterDims.WF S50000 S400000x1 S400000 [] [0] [0] 1
  dot_S2x50000x64_S64x128_S2x50000x128_2_0_01_1_n_n_wf : DotDims.WF S2x50000x64 S64x128 S2x50000x128 [2] [0] [0, 1] [1] [] []
  gather_S50000x256_S50000x1_S50000x256_1_0_n_n_0_1_1256_wf : GatherDims.WF S50000x256 S50000x1 S50000x256 [1] [0] [] [0] [] 1 ![1, 256]
  scatter_S12500x256_S50000x1_S50000x256_1_0_0_1_wf : ScatterDims.WF S12500x256 S50000x1 S50000x256 [1] [0] [0] 1
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S2x50000x128_S128x128_S2x50000x128_2_0_01_1_n_n_wf : DotDims.WF S2x50000x128 S128x128 S2x50000x128 [2] [0] [0, 1] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S2x50000x64_S64x128_S2x50000x128_2_0_01_1_n_n : DotDims S2x50000x64 S64x128 S2x50000x128 where
  lhsContracting := [2]
  rhsContracting := [0]
  lhsNonContracting := [0, 1]
  rhsNonContracting := [1]
  lhsBatch := []
  rhsBatch := []
  wf := dot_S2x50000x64_S64x128_S2x50000x128_2_0_01_1_n_n_wf
def gather_S50000x256_S50000x1_S50000x256_1_0_n_n_0_1_1256 : GatherDims S50000x256 S50000x1 S50000x256 where
  offsetDims := [1]
  collapsedSliceDims := [0]
  operandBatchingDims := []
  startIndicesBatchingDims := []
  startIndexMap := [0]
  indexVectorDim := 1
  sliceSizes := ![1, 256]
  wf := gather_S50000x256_S50000x1_S50000x256_1_0_n_n_0_1_1256_wf
def scatter_S12500x256_S50000x1_S50000x256_1_0_0_1 : ScatterDims S12500x256 S50000x1 S50000x256 where
  updateWindowDims := [1]
  insertedWindowDims := [0]
  scatterDimsToOperandDims := [0]
  indexVectorDim := 1
  wf := scatter_S12500x256_S50000x1_S50000x256_1_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2x50000x128_S128x128_S2x50000x128_2_0_01_1_n_n : DotDims S2x50000x128 S128x128 S2x50000x128 where
  lhsContracting := [2]
  rhsContracting := [0]
  lhsNonContracting := [0, 1]
  rhsNonContracting := [1]
  lhsBatch := []
  rhsBatch := []
  wf := dot_S2x50000x128_S128x128_S2x50000x128_2_0_01_1_n_n_wf

class Facts : Prop extends Facts₀ where

variable [Facts]
-- ==== Proof.KernelRun.lean ====
/-
  The idealized kernel program's run, with the result named.

  The program is six device launches among seven stretches of host operations.  Its memory at each boundary is a fold
  from the launch memory: a host stretch applies its operations, a launch replaces its arrays by what its write-backs
  leave.  Every weakly fair execution terminates without a fault in a state whose unscoped buffers hold the last
  boundary's contents; read at the result buffer this names the program's result, and read at the argument buffers
  it gives back the launch contents.
-/
import proofs.«123810_j60627758350827_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_value : θ_run defs (onTc (τ := τ) (main (F := F))) ⟨m, fun _ => 0, ρ⟩ (fun r => ∀ c : Dev nD,
      r.2.mem ((c.tc : Thread nD τ).loc main_v116) = W13 m ρ c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v116 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c)⟩)

end Cert.KernelIdeal.Net

end
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.Kept.lean ====
/-
  Which buffers keep their contents across which stretches of the program: an argument array is written by no host
  operation and by no device launch, so at every boundary it holds its launch contents; a computed array holds, until a
  later operation reads it, what the operation that wrote it left.
-/
import proofs.«123810_j60627758350827_1_alg».proof.Proof.Gen.KernelIdeal.Frame
import proofs.«123810_j60627758350827_1_alg».proof.Proof.LibHostKept
import Idealize.ShloMosaic.PureOps.Ideal

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem arg7_at_1 : W1 m ρ c (Proc.devRef .tc main_arg7) = m ((c : Thread nD τ).loc main_arg7) :=
  (show StableHlo.after hostOps0 (W0 m ρ c) (Proc.devRef .tc main_arg7) = W0 m ρ c (Proc.devRef .tc main_arg7) from by host_kept hostOps0)

theorem arg5_at_2 : W2 m ρ c (Proc.devRef .tc main_arg5) = m ((c : Thread nD τ).loc main_arg5) :=
  ((W2_of_ne m ρ c main_arg5 (by decide)).trans (show StableHlo.after hostOps0 (W0 m ρ c) (Proc.devRef .tc main_arg5) = W0 m ρ c (Proc.devRef .tc main_arg5) from by host_kept hostOps0))

theorem arg6_at_2 : W2 m ρ c (Proc.devRef .tc main_arg6) = m ((c : Thread nD τ).loc main_arg6) :=
  ((W2_of_ne m ρ c main_arg6 (by decide)).trans (show StableHlo.after hostOps0 (W0 m ρ c) (Proc.devRef .tc main_arg6) = W0 m ρ c (Proc.devRef .tc main_arg6) from by host_kept hostOps0))

theorem arg9_at_2 : W2 m ρ c (Proc.devRef .tc main_arg9) = m ((c : Thread nD τ).loc main_arg9) :=
  ((W2_of_ne m ρ c main_arg9 (by decide)).trans (show StableHlo.after hostOps0 (W0 m ρ c) (Proc.devRef .tc main_arg9) = W0 m ρ c (Proc.devRef .tc main_arg9) from by host_kept hostOps0))

theorem arg10_at_2 : W2 m ρ c (Proc.devRef .tc main_arg10) = m ((c : Thread nD τ).loc main_arg10) :=
  ((W2_of_ne m ρ c main_arg10 (by decide)).trans (show StableHlo.after hostOps0 (W0 m ρ c) (Proc.devRef .tc main_arg10) = W0 m ρ c (Proc.devRef .tc main_arg10) from by host_kept hostOps0))

theorem arg1_at_4 : W4 m ρ c (Proc.devRef .tc main_arg1) = m ((c : Thread nD τ).loc main_arg1) :=
  ((((W4_of_ne m ρ c main_arg1 (by decide)).trans (show StableHlo.after hostOps1 (W2 m ρ c) (Proc.devRef .tc main_arg1) = W2 m ρ c (Proc.devRef .tc main_arg1) from by host_kept hostOps1)).trans (W2_of_ne m ρ c main_arg1 (by decide))).trans (show StableHlo.after hostOps0 (W0 m ρ c) (Proc.devRef .tc main_arg1) = W0 m ρ c (Proc.devRef .tc main_arg1) from by host_kept hostOps0))

theorem arg3_at_4 : W4 m ρ c (Proc.devRef .tc main_arg3) = m ((c : Thread nD τ).loc main_arg3) :=
  ((((W4_of_ne m ρ c main_arg3 (by decide)).trans (show StableHlo.after hostOps1 (W2 m ρ c) (Proc.devRef .tc main_arg3) = W2 m ρ c (Proc.devRef .tc main_arg3) from by host_kept hostOps1)).trans (W2_of_ne m ρ c main_arg3 (by decide))).trans (show StableHlo.after hostOps0 (W0 m ρ c) (Proc.devRef .tc main_arg3) = W0 m ρ c (Proc.devRef .tc main_arg3) from by host_kept hostOps0))

theorem arg4_at_4 : W4 m ρ c (Proc.devRef .tc main_arg4) = m ((c : Thread nD τ).loc main_arg4) :=
  ((((W4_of_ne m ρ c main_arg4 (by decide)).trans (show StableHlo.after hostOps1 (W2 m ρ c) (Proc.devRef .tc main_arg4) = W2 m ρ c (Proc.devRef .tc main_arg4) from by host_kept hostOps1)).trans (W2_of_ne m ρ c main_arg4 (by decide))).trans (show StableHlo.after hostOps0 (W0 m ρ c) (Proc.devRef .tc main_arg4) = W0 m ρ c (Proc.devRef .tc main_arg4) from by host_kept hostOps0))

theorem arg11_at_4 : W4 m ρ c (Proc.devRef .tc main_arg11) = m ((c : Thread nD τ).loc main_arg11) :=
  ((((W4_of_ne m ρ c main_arg11 (by decide)).trans (show StableHlo.after hostOps1 (W2 m ρ c) (Proc.devRef .tc main_arg11) = W2 m ρ c (Proc.devRef .tc main_arg11) from by host_kept hostOps1)).trans (W2_of_ne m ρ c main_arg11 (by decide))).trans (show StableHlo.after hostOps0 (W0 m ρ c) (Proc.devRef .tc main_arg11) = W0 m ρ c (Proc.devRef .tc main_arg11) from by host_kept hostOps0))

theorem arg12_at_6 : W6 m ρ c (Proc.devRef .tc main_arg12) = m ((c : Thread nD τ).loc main_arg12) :=
  ((((((W6_of_ne m ρ c main_arg12 (by decide)).trans (show StableHlo.after hostOps2 (W4 m ρ c) (Proc.devRef .tc main_arg12) = W4 m ρ c (Proc.devRef .tc main_arg12) from by host_kept hostOps2)).trans (W4_of_ne m ρ c main_arg12 (by decide))).trans (show StableHlo.after hostOps1 (W2 m ρ c) (Proc.devRef .tc main_arg12) = W2 m ρ c (Proc.devRef .tc main_arg12) from by host_kept hostOps1)).trans (W2_of_ne m ρ c main_arg12 (by decide))).trans (show StableHlo.after hostOps0 (W0 m ρ c) (Proc.devRef .tc main_arg12) = W0 m ρ c (Proc.devRef .tc main_arg12) from by host_kept hostOps0))

theorem arg13_at_6 : W6 m ρ c (Proc.devRef .tc main_arg13) = m ((c : Thread nD τ).loc main_arg13) :=
  ((((((W6_of_ne m ρ c main_arg13 (by decide)).trans (show StableHlo.after hostOps2 (W4 m ρ c) (Proc.devRef .tc main_arg13) = W4 m ρ c (Proc.devRef .tc main_arg13) from by host_kept hostOps2)).trans (W4_of_ne m ρ c main_arg13 (by decide))).trans (show StableHlo.after hostOps1 (W2 m ρ c) (Proc.devRef .tc main_arg13) = W2 m ρ c (Proc.devRef .tc main_arg13) from by host_kept hostOps1)).trans (W2_of_ne m ρ c main_arg13 (by decide))).trans (show StableHlo.after hostOps0 (W0 m ρ c) (Proc.devRef .tc main_arg13) = W0 m ρ c (Proc.devRef .tc main_arg13) from by host_kept hostOps0))

theorem arg1_at_8 : W8 m ρ c (Proc.devRef .tc main_arg1) = m ((c : Thread nD τ).loc main_arg1) :=
  ((((((((W8_of_ne m ρ c main_arg1 (by decide)).trans (show StableHlo.after hostOps3 (W6 m ρ c) (Proc.devRef .tc main_arg1) = W6 m ρ c (Proc.devRef .tc main_arg1) from by host_kept hostOps3)).trans (W6_of_ne m ρ c main_arg1 (by decide))).trans (show StableHlo.after hostOps2 (W4 m ρ c) (Proc.devRef .tc main_arg1) = W4 m ρ c (Proc.devRef .tc main_arg1) from by host_kept hostOps2)).trans (W4_of_ne m ρ c main_arg1 (by decide))).trans (show StableHlo.after hostOps1 (W2 m ρ c) (Proc.devRef .tc main_arg1) = W2 m ρ c (Proc.devRef .tc main_arg1) from by host_kept hostOps1)).trans (W2_of_ne m ρ c main_arg1 (by decide))).trans (show StableHlo.after hostOps0 (W0 m ρ c) (Proc.devRef .tc main_arg1) = W0 m ρ c (Proc.devRef .tc main_arg1) from by host_kept hostOps0))

theorem arg3_at_8 : W8 m ρ c (Proc.devRef .tc main_arg3) = m ((c : Thread nD τ).loc main_arg3) :=
  ((((((((W8_of_ne m ρ c main_arg3 (by decide)).trans (show StableHlo.after hostOps3 (W6 m ρ c) (Proc.devRef .tc main_arg3) = W6 m ρ c (Proc.devRef .tc main_arg3) from by host_kept hostOps3)).trans (W6_of_ne m ρ c main_arg3 (by decide))).trans (show StableHlo.after hostOps2 (W4 m ρ c) (Proc.devRef .tc main_arg3) = W4 m ρ c (Proc.devRef .tc main_arg3) from by host_kept hostOps2)).trans (W4_of_ne m ρ c main_arg3 (by decide))).trans (show StableHlo.after hostOps1 (W2 m ρ c) (Proc.devRef .tc main_arg3) = W2 m ρ c (Proc.devRef .tc main_arg3) from by host_kept hostOps1)).trans (W2_of_ne m ρ c main_arg3 (by decide))).trans (show StableHlo.after hostOps0 (W0 m ρ c) (Proc.devRef .tc main_arg3) = W0 m ρ c (Proc.devRef .tc main_arg3) from by host_kept hostOps0))

theorem arg4_at_8 : W8 m ρ c (Proc.devRef .tc main_arg4) = m ((c : Thread nD τ).loc main_arg4) :=
  ((((((((W8_of_ne m ρ c main_arg4 (by decide)).trans (show StableHlo.after hostOps3 (W6 m ρ c) (Proc.devRef .tc main_arg4) = W6 m ρ c (Proc.devRef .tc main_arg4) from by host_kept hostOps3)).trans (W6_of_ne m ρ c main_arg4 (by decide))).trans (show StableHlo.after hostOps2 (W4 m ρ c) (Proc.devRef .tc main_arg4) = W4 m ρ c (Proc.devRef .tc main_arg4) from by host_kept hostOps2)).trans (W4_of_ne m ρ c main_arg4 (by decide))).trans (show StableHlo.after hostOps1 (W2 m ρ c) (Proc.devRef .tc main_arg4) = W2 m ρ c (Proc.devRef .tc main_arg4) from by host_kept hostOps1)).trans (W2_of_ne m ρ c main_arg4 (by decide))).trans (show StableHlo.after hostOps0 (W0 m ρ c) (Proc.devRef .tc main_arg4) = W0 m ρ c (Proc.devRef .tc main_arg4) from by host_kept hostOps0))

theorem arg14_at_8 : W8 m ρ c (Proc.devRef .tc main_arg14) = m ((c : Thread nD τ).loc main_arg14) :=
  ((((((((W8_of_ne m ρ c main_arg14 (by decide)).trans (show StableHlo.after hostOps3 (W6 m ρ c) (Proc.devRef .tc main_arg14) = W6 m ρ c (Proc.devRef .tc main_arg14) from by host_kept hostOps3)).trans (W6_of_ne m ρ c main_arg14 (by decide))).trans (show StableHlo.after hostOps2 (W4 m ρ c) (Proc.devRef .tc main_arg14) = W4 m ρ c (Proc.devRef .tc main_arg14) from by host_kept hostOps2)).trans (W4_of_ne m ρ c main_arg14 (by decide))).trans (show StableHlo.after hostOps1 (W2 m ρ c) (Proc.devRef .tc main_arg14) = W2 m ρ c (Proc.devRef .tc main_arg14) from by host_kept hostOps1)).trans (W2_of_ne m ρ c main_arg14 (by decide))).trans (show StableHlo.after hostOps0 (W0 m ρ c) (Proc.devRef .tc main_arg14) = W0 m ρ c (Proc.devRef .tc main_arg14) from by host_kept hostOps0))

theorem arg5_at_10 : W10 m ρ c (Proc.devRef .tc main_arg5) = m ((c : Thread nD τ).loc main_arg5) :=
  ((((((((((W10_of_ne m ρ c main_arg5 (by decide)).trans (show StableHlo.after hostOps4 (W8 m ρ c) (Proc.devRef .tc main_arg5) = W8 m ρ c (Proc.devRef .tc main_arg5) from by host_kept hostOps4)).trans (W8_of_ne m ρ c main_arg5 (by decide))).trans (show StableHlo.after hostOps3 (W6 m ρ c) (Proc.devRef .tc main_arg5) = W6 m ρ c (Proc.devRef .tc main_arg5) from by host_kept hostOps3)).trans (W6_of_ne m ρ c main_arg5 (by decide))).trans (show StableHlo.after hostOps2 (W4 m ρ c) (Proc.devRef .tc main_arg5) = W4 m ρ c (Proc.devRef .tc main_arg5) from by host_kept hostOps2)).trans (W4_of_ne m ρ c main_arg5 (by decide))).trans (show StableHlo.after hostOps1 (W2 m ρ c) (Proc.devRef .tc main_arg5) = W2 m ρ c (Proc.devRef .tc main_arg5) from by host_kept hostOps1)).trans (W2_of_ne m ρ c main_arg5 (by decide))).trans (show StableHlo.after hostOps0 (W0 m ρ c) (Proc.devRef .tc main_arg5) = W0 m ρ c (Proc.devRef .tc main_arg5) from by host_kept hostOps0))

theorem arg6_at_10 : W10 m ρ c (Proc.devRef .tc main_arg6) = m ((c : Thread nD τ).loc main_arg6) :=
  ((((((((((W10_of_ne m ρ c main_arg6 (by decide)).trans (show StableHlo.after hostOps4 (W8 m ρ c) (Proc.devRef .tc main_arg6) = W8 m ρ c (Proc.devRef .tc main_arg6) from by host_kept hostOps4)).trans (W8_of_ne m ρ c main_arg6 (by decide))).trans (show StableHlo.after hostOps3 (W6 m ρ c) (Proc.devRef .tc main_arg6) = W6 m ρ c (Proc.devRef .tc main_arg6) from by host_kept hostOps3)).trans (W6_of_ne m ρ c main_arg6 (by decide))).trans (show StableHlo.after hostOps2 (W4 m ρ c) (Proc.devRef .tc main_arg6) = W4 m ρ c (Proc.devRef .tc main_arg6) from by host_kept hostOps2)).trans (W4_of_ne m ρ c main_arg6 (by decide))).trans (show StableHlo.after hostOps1 (W2 m ρ c) (Proc.devRef .tc main_arg6) = W2 m ρ c (Proc.devRef .tc main_arg6) from by host_kept hostOps1)).trans (W2_of_ne m ρ c main_arg6 (by decide))).trans (show StableHlo.after hostOps0 (W0 m ρ c) (Proc.devRef .tc main_arg6) = W0 m ρ c (Proc.devRef .tc main_arg6) from by host_kept hostOps0))

theorem keep_v7_1_3 : W3 m ρ c (Proc.devRef .tc main_v7) = W1 m ρ c (Proc.devRef .tc main_v7) :=
  ((show StableHlo.after hostOps1 (W2 m ρ c) (Proc.devRef .tc main_v7) = W2 m ρ c (Proc.devRef .tc main_v7) from by host_kept hostOps1).trans (show W2 m ρ c (Proc.devRef .tc main_v7) = W1 m ρ c (Proc.devRef .tc main_v7) from (W2_arr m ρ c 0).trans (((dat0 (V1 m ρ) c).arrAt_in 0 rfl _).trans (A_eq0 (V1 m ρ) c 0))))

theorem keep_v6_1_4 : W4 m ρ c (Proc.devRef .tc main_v6) = W1 m ρ c (Proc.devRef .tc main_v6) :=
  (((W4_of_ne m ρ c main_v6 (by decide)).trans (show StableHlo.after hostOps1 (W2 m ρ c) (Proc.devRef .tc main_v6) = W2 m ρ c (Proc.devRef .tc main_v6) from by host_kept hostOps1)).trans (W2_of_ne m ρ c main_v6 (by decide)))

theorem keep_v6_1_8 : W8 m ρ c (Proc.devRef .tc main_v6) = W1 m ρ c (Proc.devRef .tc main_v6) :=
  (((((((W8_of_ne m ρ c main_v6 (by decide)).trans (show StableHlo.after hostOps3 (W6 m ρ c) (Proc.devRef .tc main_v6) = W6 m ρ c (Proc.devRef .tc main_v6) from by host_kept hostOps3)).trans (W6_of_ne m ρ c main_v6 (by decide))).trans (show StableHlo.after hostOps2 (W4 m ρ c) (Proc.devRef .tc main_v6) = W4 m ρ c (Proc.devRef .tc main_v6) from by host_kept hostOps2)).trans (W4_of_ne m ρ c main_v6 (by decide))).trans (show StableHlo.after hostOps1 (W2 m ρ c) (Proc.devRef .tc main_v6) = W2 m ρ c (Proc.devRef .tc main_v6) from by host_kept hostOps1)).trans (W2_of_ne m ρ c main_v6 (by decide)))

theorem keep_v32_3_6 : W6 m ρ c (Proc.devRef .tc main_v32) = W3 m ρ c (Proc.devRef .tc main_v32) :=
  (((W6_of_ne m ρ c main_v32 (by decide)).trans (show StableHlo.after hostOps2 (W4 m ρ c) (Proc.devRef .tc main_v32) = W4 m ρ c (Proc.devRef .tc main_v32) from by host_kept hostOps2)).trans (W4_of_ne m ρ c main_v32 (by decide)))

theorem keep_v31_3_10 : W10 m ρ c (Proc.devRef .tc main_v31) = W3 m ρ c (Proc.devRef .tc main_v31) :=
  (((((((W10_of_ne m ρ c main_v31 (by decide)).trans (show StableHlo.after hostOps4 (W8 m ρ c) (Proc.devRef .tc main_v31) = W8 m ρ c (Proc.devRef .tc main_v31) from by host_kept hostOps4)).trans (W8_of_ne m ρ c main_v31 (by decide))).trans (show StableHlo.after hostOps3 (W6 m ρ c) (Proc.devRef .tc main_v31) = W6 m ρ c (Proc.devRef .tc main_v31) from by host_kept hostOps3)).trans (W6_of_ne m ρ c main_v31 (by decide))).trans (show StableHlo.after hostOps2 (W4 m ρ c) (Proc.devRef .tc main_v31) = W4 m ρ c (Proc.devRef .tc main_v31) from by host_kept hostOps2)).trans (W4_of_ne m ρ c main_v31 (by decide)))

theorem keep_v61_6_7 : W7 m ρ c (Proc.devRef .tc main_v61) = W6 m ρ c (Proc.devRef .tc main_v61) :=
  (show StableHlo.after hostOps3 (W6 m ρ c) (Proc.devRef .tc main_v61) = W6 m ρ c (Proc.devRef .tc main_v61) from by host_kept hostOps3)

end Cert.KernelIdeal.Net

end
-- ==== Proof.Spec.lean ====
/-
  The six device stages of the network as whole-array functions over the extended reals.

  A linear stage sends row r of x to (sum over k of x(r,k) · w(k,q)) + b(0,q) in column q.  A combine stage adds the
  self term, the aggregated neighbour term and the bias row's entry of the column; the first combine stage is followed
  by the leaky cut y ↦ y if y ≥ 0 else 0.2 · y (the word 0x3E4CCCCD).  The last stage adds two arrays entry by entry.
  Each output row depends on the same row of the inputs only, which is why a row-blocked launch computes them
  block by block.
-/
import proofs.«123810_j60627758350827_1_alg».proof.KernelIdeal
import Idealize.ShloMosaic.Lib.ValueIdx
import Idealize.ShloMosaic.PureOps.Ideal

noncomputable section

namespace Cert.KernelIdeal.Net

open Idealize.ShloMosaic Idealize.ShloMosaic.ValueIdx Cert.KernelIdeal

/-- Row `i 0` of `x` against column `i 1` of `w`, plus the bias row's entry of that column: 64 → 128 features. -/
def lin0 (x : S100000x64.Idx → EReal) (w : S64x128.Idx → EReal) (b : S1x128.Idx → EReal) : S100000x128.Idx → EReal :=
  fun i => (∑ k : Fin 64, x (ix2 (i 0) k) * w (ix2 k (i 1))) + b (ix2 (0 : Fin 1) (i 1))

/-- The same map, 64 → 256 features (two weight matrices side by side). -/
def lin1 (x : S100000x64.Idx → EReal) (w : S64x256.Idx → EReal) (b : S1x256.Idx → EReal) : S100000x256.Idx → EReal :=
  fun i => (∑ k : Fin 64, x (ix2 (i 0) k) * w (ix2 k (i 1))) + b (ix2 (0 : Fin 1) (i 1))

/-- The same map, 128 → 256 features. -/
def lin3 (x : S100000x128.Idx → EReal) (w : S128x256.Idx → EReal) (b : S1x256.Idx → EReal) : S100000x256.Idx → EReal :=
  fun i => (∑ k : Fin 128, x (ix2 (i 0) k) * w (ix2 k (i 1))) + b (ix2 (0 : Fin 1) (i 1))

/-- Self term plus aggregated neighbour term plus the bias of the column. -/
def comb (h a : S100000x128.Idx → EReal) (b : S1x128.Idx → EReal) : S100000x128.Idx → EReal :=
  fun i => (h i + a i) + b (ix2 (0 : Fin 1) (i 1))

/-- The leaky cut with slope 0.2 (as the f32 word 0x3E4CCCCD) below zero. -/
def leaky (y : EReal) : EReal :=
  Scalar.select (FloatOps.cmpf (F := Ideal) (φ := .f32) .oge y (FloatOps.ofBits (F := Ideal) .f32 0x00000000#32)) y
    ((FloatOps.ofBits (F := Ideal) .f32 0x3E4CCCCD#32 : EReal) * y)

/-- The combine stage followed by the leaky cut. -/
def combLeaky (h a : S100000x128.Idx → EReal) (b : S1x128.Idx → EReal) : S100000x128.Idx → EReal :=
  fun i => leaky (comb h a b i)

/-- Two pooled arrays added entry by entry. -/
def sum5 (u v : S25000x128.Idx → EReal) : S25000x128.Idx → EReal := fun i => u i + v i

end Cert.KernelIdeal.Net

end
-- ==== Proof.Stages.lean ====
/-
  The two host stretches the two programs share, as functions of what they read.

  Pooling: the [2, V, 128] features are laid node-major as [V, 256]; the rows named by the assignment's second row
  (a negative number counted from the end) are gathered, scaled by the assignment weights, and added into the rows of
  a zero [12500, 256] table named by the assignment's first row; the table is laid back as [2, 12500, 128].
  Aggregation: the node-major features are gathered at the edges' end nodes, scaled by the edge weights, added into
  the rows of a zero [V, 256] table at the edges' start nodes, scaled by the inverse degrees, and laid back as
  [2, V, 128].  Both programs apply exactly these operations, so each side's stage is the same function of its input.
-/
import proofs.«123810_j60627758350827_1_alg».proof.Proof.Gen.ReferenceIdeal.Read
import proofs.«123810_j60627758350827_1_alg».proof.Proof.Spec
import proofs.«123810_j60627758350827_1_alg».proof.Proof.Gen.KernelIdeal

set_option maxRecDepth 16384

noncomputable section

namespace Cert.KernelIdeal.Net

open Cert.KernelIdeal Cert.KernelIdeal.Facts₀ Cert.ReferenceIdeal.Read Idealize.ShloMosaic

/-- Pooling of [2, 50000, 128] features by the assignment (two rows of node numbers, one weight per fine node). -/
def pool (h : (⟨S2x50000x128, .f32⟩ : BufTy).Contents (Elt Ideal)) (x5 : (⟨S2x50000, .i32⟩ : BufTy).Contents (Elt Ideal))
    (x6 : (⟨S50000, .f32⟩ : BufTy).Contents (Elt Ideal)) : (⟨S2x12500x128, .f32⟩ : BufTy).Contents (Elt Ideal) :=
  have v11 := transpose S50000x2x128 [1, 0, 2] h transposes_S2x50000x128_S50000x2x128_1_0_2
  have v12 := shapeCast S50000x256 v11 shapeCasts_S50000x2x128_S50000x256
  have v14 := shapeCast S50000 (extractStridedSlice S1x50000 ![1, 0] x5 slices_S2x50000_S1x50000_1_0) shapeCasts_S1x50000_S50000
  have v16 := cmpi .slt v14 (broadcastInDim S50000 ![] bcast_S_S50000 (constantI S_ 32 0#32))
  have v18 := addi v14 (broadcastInDim S50000 ![] bcast_S_S50000 (constantI S_ 32 50000#32))
  have v20 := broadcastInDim S50000x1 ![0] bcast_S50000_S50000x1_0 (select v16 v18 v14)
  have v21 := Host.gather gather_S50000x256_S50000x1_S50000x256_1_0_n_n_0_1_1256 v12 v20
  have v23 := broadcastInDim S50000x256 ![0, 1] bcast_S50000x1_S50000x256_0_1 (broadcastInDim S50000x1 ![0] bcast_S50000_S50000x1_0 x6)
  have v24 := mulf v21 v23
  have v26 := shapeCast S50000 (extractStridedSlice S1x50000 ![0, 0] x5 slices_S2x50000_S1x50000_0_0) shapeCasts_S1x50000_S50000
  have v27 := broadcastInDim S12500x256 ![] bcast_S_S12500x256 (constant (F := Ideal) S_ .f32 0x00000000#32)
  have v28 := broadcastInDim S50000x1 ![0] bcast_S50000_S50000x1_0 v26
  have v29 := Host.scatterAdd (F := Ideal) scatter_S12500x256_S50000x1_S50000x256_1_0_0_1 v27 v28 v24
  transpose S2x12500x128 [1, 0, 2] (shapeCast S12500x2x128 v29 shapeCasts_S12500x256_S12500x2x128) transposes_S12500x2x128_S2x12500x128_1_0_2

/-- Edge aggregation of [2, 50000, 128] features: gather at the end nodes, weigh, add at the start nodes, scale by the
    inverse degrees. -/
def agg (h : (⟨S2x50000x128, .f32⟩ : BufTy).Contents (Elt Ideal)) (x1 : (⟨S400000, .f32⟩ : BufTy).Contents (Elt Ideal))
    (x3 x4 : (⟨S400000, .i32⟩ : BufTy).Contents (Elt Ideal)) (dinv : (⟨S50000, .f32⟩ : BufTy).Contents (Elt Ideal)) :
    (⟨S2x50000x128, .f32⟩ : BufTy).Contents (Elt Ideal) :=
  have v40 := shapeCast S50000x256 (transpose S50000x2x128 [1, 0, 2] h transposes_S2x50000x128_S50000x2x128_1_0_2) shapeCasts_S50000x2x128_S50000x256
  have v42 := cmpi .slt x4 (broadcastInDim S400000 ![] bcast_S_S400000 (constantI S_ 32 0#32))
  have v44 := addi x4 (broadcastInDim S400000 ![] bcast_S_S400000 (constantI S_ 32 50000#32))
  have v46 := broadcastInDim S400000x1 ![0] bcast_S400000_S400000x1_0 (select v42 v44 x4)
  have v47 := Host.gather gather_S50000x256_S400000x1_S400000x256_1_0_n_n_0_1_1256 v40 v46
  have v49 := broadcastInDim S400000x256 ![0, 1] bcast_S400000x1_S400000x256_0_1 (broadcastInDim S400000x1 ![0] bcast_S400000_S400000x1_0 x1)
  have v50 := mulf v47 v49
  have v51 := broadcastInDim S50000x256 ![] bcast_S_S50000x256 (constant (F := Ideal) S_ .f32 0x00000000#32)
  have v52 := broadcastInDim S400000x1 ![0] bcast_S400000_S400000x1_0 x3
  have v53 := Host.scatterAdd (F := Ideal) scatter_S50000x256_S400000x1_S400000x256_1_0_0_1 v51 v52 v50
  have v55 := broadcastInDim S50000x256 ![0, 1] bcast_S50000x1_S50000x256_0_1 (broadcastInDim S50000x1 ![0] bcast_S50000_S50000x1_0 dinv)
  have v56 := mulf v53 v55
  transpose S2x50000x128 [1, 0, 2] (shapeCast S50000x2x128 v56 shapeCasts_S50000x256_S50000x2x128) transposes_S50000x2x128_S2x50000x128_1_0_2

section Reference

variable (x0 : (⟨S2x50000x64, .f32⟩ : BufTy).Contents (Elt Ideal)) (x1 x2 : (⟨S400000, .f32⟩ : BufTy).Contents (Elt Ideal))
  (x3 x4 : (⟨S400000, .i32⟩ : BufTy).Contents (Elt Ideal)) (x5 : (⟨S2x50000, .i32⟩ : BufTy).Contents (Elt Ideal))
  (x6 : (⟨S50000, .f32⟩ : BufTy).Contents (Elt Ideal)) (x7 x9 x10 : (⟨S64x128, .f32⟩ : BufTy).Contents (Elt Ideal))
  (x8 x11 x14 : (⟨S128, .f32⟩ : BufTy).Contents (Elt Ideal)) (x12 x13 : (⟨S128x128, .f32⟩ : BufTy).Contents (Elt Ideal))

/-- The reference's pooled residual is the pooling of its residual stage. -/
theorem ref_pool_res : val_main_v31 (F := Ideal) x0 x5 x6 x7 x8 = pool (val_main_v10 (F := Ideal) x0 x7 x8) x5 x6 := rfl

/-- The reference's pooled main path is the pooling of its second layer's output. -/
theorem ref_pool_out : val_main_v109 (F := Ideal) x0 x1 x2 x3 x4 x5 x6 x9 x10 x11 x12 x13 x14
    = pool (val_main_v88 (F := Ideal) x0 x1 x2 x3 x4 x9 x10 x11 x12 x13 x14) x5 x6 := rfl

/-- The reference's first aggregated neighbour term. -/
theorem ref_agg0 : val_main_v52 (F := Ideal) x0 x1 x2 x3 x4 x10
    = agg (val_main_v32 (F := Ideal) x0 x10) x1 x3 x4 (val_main_v6 (F := Ideal) x2 x3) := rfl

/-- The reference's second aggregated neighbour term. -/
theorem ref_agg1 : val_main_v83 (F := Ideal) x0 x1 x2 x3 x4 x9 x10 x11 x13
    = agg (val_main_v63 (F := Ideal) x0 x1 x2 x3 x4 x9 x10 x11 x13) x1 x3 x4 (val_main_v6 (F := Ideal) x2 x3) := rfl

end Reference

end Cert.KernelIdeal.Net

end
-- ==== Proof.Net.lean ====
/-
  The idealized kernel program's result as a function of the fifteen argument arrays, stage by stage.

  x0 node features [2, V, 64]; x1 edge weights; x2 edge ones; x3, x4 the edges' start and end nodes; x5, x6 the pooling
  assignment (two rows of node numbers, one weight per fine node); x7, x8 the residual weights and bias; x9 .. x11 and
  x12 .. x14 the two layers' self weights, neighbour weights and biases.  The device stages are the functions of the
  specification; between them the host re-lays arrays, cuts the two halves of a fused projection apart, aggregates along
  the edges and pools.
-/
import proofs.«123810_j60627758350827_1_alg».proof.Proof.Stages

set_option maxRecDepth 16384

noncomputable section

namespace Cert.KernelIdeal.Net

open Cert.KernelIdeal Cert.KernelIdeal.Facts₀ Cert.ReferenceIdeal.Read Idealize.ShloMosaic

/-- The fifteen argument arrays. -/
structure Args where
  x0 : (⟨S2x50000x64, .f32⟩ : BufTy).Contents (Elt Ideal)
  x1 : (⟨S400000, .f32⟩ : BufTy).Contents (Elt Ideal)
  x2 : (⟨S400000, .f32⟩ : BufTy).Contents (Elt Ideal)
  x3 : (⟨S400000, .i32⟩ : BufTy).Contents (Elt Ideal)
  x4 : (⟨S400000, .i32⟩ : BufTy).Contents (Elt Ideal)
  x5 : (⟨S2x50000, .i32⟩ : BufTy).Contents (Elt Ideal)
  x6 : (⟨S50000, .f32⟩ : BufTy).Contents (Elt Ideal)
  x7 : (⟨S64x128, .f32⟩ : BufTy).Contents (Elt Ideal)
  x8 : (⟨S128, .f32⟩ : BufTy).Contents (Elt Ideal)
  x9 : (⟨S64x128, .f32⟩ : BufTy).Contents (Elt Ideal)
  x10 : (⟨S64x128, .f32⟩ : BufTy).Contents (Elt Ideal)
  x11 : (⟨S128, .f32⟩ : BufTy).Contents (Elt Ideal)
  x12 : (⟨S128x128, .f32⟩ : BufTy).Contents (Elt Ideal)
  x13 : (⟨S128x128, .f32⟩ : BufTy).Contents (Elt Ideal)
  x14 : (⟨S128, .f32⟩ : BufTy).Contents (Elt Ideal)

variable (a : Args)

/-- The node features with the batch and node axes merged: [100000, 64]. -/
def X7 : (⟨S100000x64, .f32⟩ : BufTy).Contents (Elt Ideal) := shapeCast S100000x64 a.x0 shapeCasts_S2x50000x64_S100000x64
/-- The residual bias as a row. -/
def B8 : (⟨S1x128, .f32⟩ : BufTy).Contents (Elt Ideal) := shapeCast S1x128 a.x8 shapeCasts_S128_S1x128
/-- The inverse degrees 1 / max(deg, 1). -/
def DI : (⟨S50000, .f32⟩ : BufTy).Contents (Elt Ideal) := val_main_v6 (F := Ideal) a.x2 a.x3
/-- The residual projection, rows merged. -/
def Y9 : (⟨S100000x128, .f32⟩ : BufTy).Contents (Elt Ideal) := lin0 (X7 a) a.x7 (B8 a)
/-- The pooled residual. -/
def P31 : (⟨S2x12500x128, .f32⟩ : BufTy).Contents (Elt Ideal) :=
  pool (shapeCast S2x50000x128 (Y9 a) shapeCasts_S100000x128_S2x50000x128) a.x5 a.x6
/-- The zero bias of the fused projections, as a vector and as a row. -/
def Z32 : (⟨S256, .f32⟩ : BufTy).Contents (Elt Ideal) := broadcastInDim S256 ![] bcast_S_S256 (constant (F := Ideal) S_ .f32 0x00000000#32)
def B34 : (⟨S1x256, .f32⟩ : BufTy).Contents (Elt Ideal) := shapeCast S1x256 Z32 shapeCasts_S256_S1x256
/-- The first layer's self and neighbour weights side by side. -/
def WC0 : (⟨S64x256, .f32⟩ : BufTy).Contents (Elt Ideal) :=
  concatenate S64x256 1 [⟨S64x128, a.x9⟩, ⟨S64x128, a.x10⟩] concatenates_S64x128_S64x128_S64x256_d1
/-- The first fused projection and its two halves. -/
def Y35 : (⟨S100000x256, .f32⟩ : BufTy).Contents (Elt Ideal) := lin1 (X7 a) (WC0 a) B34
def HS0 : (⟨S100000x128, .f32⟩ : BufTy).Contents (Elt Ideal) := extractStridedSlice S100000x128 ![0, 0] (Y35 a) slices_S100000x256_S100000x128_0_0
def HN0 : (⟨S100000x128, .f32⟩ : BufTy).Contents (Elt Ideal) := extractStridedSlice S100000x128 ![0, 128] (Y35 a) slices_S100000x256_S100000x128_0_128
/-- The first aggregated neighbour term. -/
def AG0 : (⟨S2x50000x128, .f32⟩ : BufTy).Contents (Elt Ideal) :=
  agg (shapeCast S2x50000x128 (HN0 a) shapeCasts_S100000x128_S2x50000x128) a.x1 a.x3 a.x4 (DI a)
/-- The first layer's output after the leaky cut, rows merged. -/
def Y61 : (⟨S100000x128, .f32⟩ : BufTy).Contents (Elt Ideal) :=
  combLeaky (HS0 a) (shapeCast S100000x128 (AG0 a) shapeCasts_S2x50000x128_S100000x128) (shapeCast S1x128 a.x11 shapeCasts_S128_S1x128)
/-- The second layer's weights side by side, its fused projection and the two halves. -/
def WC1 : (⟨S128x256, .f32⟩ : BufTy).Contents (Elt Ideal) :=
  concatenate S128x256 1 [⟨S128x128, a.x12⟩, ⟨S128x128, a.x13⟩] concatenates_S128x128_S128x128_S128x256_d1
def Y64 : (⟨S100000x256, .f32⟩ : BufTy).Contents (Elt Ideal) := lin3 (Y61 a) (WC1 a) B34
def HS1 : (⟨S100000x128, .f32⟩ : BufTy).Contents (Elt Ideal) := extractStridedSlice S100000x128 ![0, 0] (Y64 a) slices_S100000x256_S100000x128_0_0
def HN1 : (⟨S100000x128, .f32⟩ : BufTy).Contents (Elt Ideal) := extractStridedSlice S100000x128 ![0, 128] (Y64 a) slices_S100000x256_S100000x128_0_128
/-- The second aggregated neighbour term. -/
def AG1 : (⟨S2x50000x128, .f32⟩ : BufTy).Contents (Elt Ideal) :=
  agg (shapeCast S2x50000x128 (HN1 a) shapeCasts_S100000x128_S2x50000x128) a.x1 a.x3 a.x4 (DI a)
/-- The second layer's output, rows merged. -/
def Y90 : (⟨S100000x128, .f32⟩ : BufTy).Contents (Elt Ideal) :=
  comb (HS1 a) (shapeCast S100000x128 (AG1 a) shapeCasts_S2x50000x128_S100000x128) (shapeCast S1x128 a.x14 shapeCasts_S128_S1x128)
/-- The pooled main path. -/
def P109 : (⟨S2x12500x128, .f32⟩ : BufTy).Contents (Elt Ideal) :=
  pool (shapeCast S2x50000x128 (Y90 a) shapeCasts_S100000x128_S2x50000x128) a.x5 a.x6
/-- The sum of the two pooled paths, rows merged, and the program's result. -/
def Y115 : (⟨S25000x128, .f32⟩ : BufTy).Contents (Elt Ideal) :=
  sum5 (shapeCast S25000x128 (P109 a) shapeCasts_S2x12500x128_S25000x128) (shapeCast S25000x128 (P31 a) shapeCasts_S2x12500x128_S25000x128)
def result : (⟨S2x12500x128, .f32⟩ : BufTy).Contents (Elt Ideal) := shapeCast S2x12500x128 (Y115 a) shapeCasts_S25000x128_S2x12500x128

end Cert.KernelIdeal.Net

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibDenseLayer.lean ====
/-
  A dense layer at one entry, and how the device's and the host's vector operations compute it, at the ideal
  values where a float is an extended real and every operation is exact.

  An affine map sends a row z to (sum over c of z c · w (c, q)) + b q; followed by the positive part max(·, 0) it is
  a dense layer.  On the device, a tile product [m, k]·[k, n] into a zero accumulator plus a [1, n] bias row
  repeated down the m rows, read at (p, q), is the affine map of row p; followed by the maximum with the zero
  splat it is the dense layer of row p.  On the host, the product plus a length-n bias vector placed as a row and
  repeated down the rows is the same affine map, and the maximum with the repeated scalar zero the same dense
  layer.  Any extents m, k, n and any operand formats (a change of format is the identity at the ideal values).
-/
import Idealize.ShloMosaic.Lib.Pipeline.Value
import Idealize.ShloMosaic.Lib.ValueIdx
import Idealize.ShloMosaic.PureOps.Ideal.Laws
import proofs.«123810_j60627758350827_1_alg».proof.Proof.LibPlainProduct
import proofs.«123810_j60627758350827_1_alg».proof.Proof.LibHostProduct
import proofs.«123810_j60627758350827_1_alg».proof.Proof.LibRowsProduct
import proofs.«123810_j60627758350827_1_alg».proof.Proof.LibHostBroadcast

noncomputable section

namespace Cert.DenseLayer

open Idealize.ShloMosaic Idealize.ShloMosaic.ValueIdx

/-- The value of the float zero word. -/
abbrev Z : EReal := Ideal.ofBits .f32 0x00000000#32

/-- An affine map at output coordinate q: the row z against column q of w, plus the bias. -/
def affine {k n : ℕ} (z : Fin k → EReal) (w : (⟨2, ![k, n]⟩ : Shape).Idx → EReal) (b : Fin n → EReal) (q : Fin n) : EReal :=
  (∑ c : Fin k, z c * w (ix2 c q)) + b q

/-- A dense layer at output coordinate q: the affine map followed by the positive part. -/
def dense {k n : ℕ} (z : Fin k → EReal) (w : (⟨2, ![k, n]⟩ : Shape).Idx → EReal) (b : Fin n → EReal) (q : Fin n) : EReal :=
  max (affine z w b q) Z

section Device

variable {m k n : ℕ} {φ₁ φ₂ : FTy}

/-- The tile product into a zero accumulator plus a bias row repeated down the rows, at (p, q). -/
theorem tpu_affine_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    addf (matmul (⟨[1], [0], [0], [1], [], [], w⟩ : DotDims _ _ _) none A W (constant _ .f32 0x00000000#32))
      (broadcastTo ⟨2, ![m, n]⟩ b hb) (ix2 p q)
    = affine (fun c => A (ix2 p c)) W (fun q => b (ix2 (0 : Fin 1) q)) q := by
  rw [addf_apply]
  show FloatOps.matmul _ none A W (constant _ .f32 0x00000000#32) (ix2 p q) + _ = _
  rw [Cert.PlainProduct.matmul_nn_apply, Cert.RowsProduct.broadcastTo_1n_an_apply]
  rfl

/-- The same followed by the maximum with the zero splat: a dense layer of row p. -/
theorem tpu_dense_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    maximumf (addf (matmul (⟨[1], [0], [0], [1], [], [], w⟩ : DotDims _ _ _) none A W (constant _ .f32 0x00000000#32))
      (broadcastTo ⟨2, ![m, n]⟩ b hb)) (broadcast ⟨2, ![m, n]⟩ (Scalar.ofBits .f32 0x00000000#32)) (ix2 p q)
    = dense (fun c => A (ix2 p c)) W (fun q => b (ix2 (0 : Fin 1) q)) q := by
  rw [maximumf_apply, tpu_affine_apply]
  rfl

end Device

section Host

variable {m k n : ℕ} {φ₁ φ₂ : FTy}

/-- The host's product plus a bias vector repeated down the rows, at (p, q). -/
theorem host_affine_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (A : FVec Ideal ⟨2, ![m, k]⟩ φ₁) (W : FVec Ideal ⟨2, ![k, n]⟩ φ₂) (v : FVec Ideal ⟨1, ![n]⟩ .f32)
    (p : Fin m) (q : Fin n) :
    addf (Host.dotGeneral (⟨[1], [0], [0], [1], [], [], w⟩ : DotDims _ _ _) none A W)
      (broadcastInDim ⟨2, ![m, n]⟩ ![0, 1] h2 (broadcastInDim ⟨2, ![1, n]⟩ ![1] h1 v)) (ix2 p q)
    = affine (fun c => A (ix2 p c)) W (fun q => v (ix1 q)) q := by
  rw [addf_apply, Cert.HostProduct.dotGeneral_nn_apply, Cert.HostBroadcast.row_apply]
  rfl

/-- The same followed by the maximum with the repeated scalar zero: a dense layer of row p. -/
theorem host_dense_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![])
    (A : FVec Ideal ⟨2, ![m, k]⟩ φ₁) (W : FVec Ideal ⟨2, ![k, n]⟩ φ₂) (v : FVec Ideal ⟨1, ![n]⟩ .f32)
    (p : Fin m) (q : Fin n) :
    maximumf (addf (Host.dotGeneral (⟨[1], [0], [0], [1], [], [], w⟩ : DotDims _ _ _) none A W)
      (broadcastInDim ⟨2, ![m, n]⟩ ![0, 1] h2 (broadcastInDim ⟨2, ![1, n]⟩ ![1] h1 v)))
      (broadcastInDim ⟨2, ![m, n]⟩ ![] h0 (constant (F := Ideal) ⟨0, ![]⟩ .f32 0x00000000#32)) (ix2 p q)
    = dense (fun c => A (ix2 p c)) W (fun q => v (ix1 q)) q := by
  rw [maximumf_apply, host_affine_apply, Cert.HostBroadcast.scalar_apply]
  rfl

end Host

end Cert.DenseLayer

end
-- ==== Proof.Region0.lean ====
/-
  The first linear stage (64 → 128 features) as the device computes it, row block by row block.

  The launch walks 20 row blocks of 5000 rows.  At block t the body reads rows t·5000 … t·5000 + 4999 of x, the
  whole weight matrix and the whole bias row, and stores (block of x)·w + b, the bias row repeated down the rows.
  Entry (p, q) of that stored block is (sum over k of x(t·5000 + p, k) · w(k, q)) + b(0, q), which is entry
  (t·5000 + p, q) of the whole-array linear stage.  The 20 blocks tile the 100000 rows, so the result array ends
  holding the whole-array linear stage of the arrays the region was entered with.
-/
import proofs.«123810_j60627758350827_1_alg».proof.Proof.Gen.KernelIdeal.Frame
import proofs.«123810_j60627758350827_1_alg».proof.Proof.Spec
import proofs.«123810_j60627758350827_1_alg».proof.Proof.LibDenseLayer
import Idealize.ShloMosaic.Lib.Pipeline.Value
import Idealize.ShloMosaic.Lib.ValueIdx
import Idealize.ShloMosaic.PureOps.Ideal.Laws

set_option maxRecDepth 16384

noncomputable section

namespace Cert.KernelIdeal.Net

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offset vector of a whole-block access. -/
theorem hz0 : (![0, 0] : Fin 2 → Nat) = fun _ => 0 := funext fun a => by fin_cases a <;> rfl

/-- The printed index maps over the 20 grid points: the row operand and the result move to row block t, the
    weight and the bias stay at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The stored value at (p, q): row p of the first block against column q of the second, plus the bias row's
    entry of column q (the casts to the narrow format are the identity on the extended reals). -/
theorem pay0_apply (x0 : Vec Ideal S5000x64 .f32) (x1 : Vec Ideal S64x128 .f32) (x2 : Vec Ideal S1x128 .f32)
    (p : Fin 5000) (q : Fin 128) :
    Gen.k0_pay1 x0 x1 x2 (ix2 p q) = (∑ k : Fin 64, x0 (ix2 p k) * x1 (ix2 k q)) + x2 (ix2 (0 : Fin 1) q) := by
  unfold Gen.k0_pay1
  simp only [shapeCast_self]
  exact Cert.DenseLayer.tpu_affine_apply _ _ _ _ _ p q

/-- One entry of a row block: if row p of the first block is row r of x, and the other two blocks are the whole
    of w and the whole of b, the stored value at (p, q) is the linear stage's entry (r, q). -/
theorem point0 (X : S100000x64.Idx → EReal) (W : S64x128.Idx → EReal) (B : S1x128.Idx → EReal)
    (x0 : Vec Ideal S5000x64 .f32) (x1 : Vec Ideal S64x128 .f32) (x2 : Vec Ideal S1x128 .f32)
    (p : Fin 5000) (q : Fin 128) (r : Fin 100000)
    (h0 : ∀ k : Fin 64, x0 (ix2 p k) = X (ix2 r k))
    (h1 : ∀ (k : Fin 64), x1 (ix2 k q) = W (ix2 k q))
    (h2 : x2 (ix2 (0 : Fin 1) q) = B (ix2 (0 : Fin 1) q)) :
    Gen.k0_pay1 x0 x1 x2 (ix2 p q) = lin0 X W B (ix2 r q) := by
  rw [pay0_apply]
  show _ = (∑ k : Fin 64, X (ix2 r k) * W (ix2 k q)) + B (ix2 (0 : Fin 1) q)
  rw [h2]
  refine congrArg (· + _) ?_
  exact Finset.sum_congr rfl fun k _ => by rw [h0 k, h1 k]

/-- The same at indices given by their coordinates: entry j of block n against entry i of the array, where i is
    j moved down n·5000 rows. -/
theorem point0_at (X : S100000x64.Idx → EReal) (W : S64x128.Idx → EReal) (B : S1x128.Idx → EReal)
    (x0 : Vec Ideal S5000x64 .f32) (x1 : Vec Ideal S64x128 .f32) (x2 : Vec Ideal S1x128 .f32)
    (n : ℕ) (j : S5000x128.Idx) (i : S100000x128.Idx)
    (hi0 : (i 0).val = n * 5000 + (j 0).val) (hi1 : (i 1).val = (j 1).val)
    (h0 : ∀ (p : Fin 5000) (k : Fin 64) (r : Fin 100000), r.val = n * 5000 + p.val → x0 (ix2 p k) = X (ix2 r k))
    (h1 : ∀ y, x1 y = W y) (h2 : ∀ y, x2 y = B y) :
    Gen.k0_pay1 x0 x1 x2 j = lin0 X W B i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  exact point0 X W B x0 x1 x2 p s r (fun k => h0 p k r hi0) (fun k => h1 _) (h2 _)

/-- The row operand's block at point t is rows t·5000 … of the array. -/
theorem iblk0_0_apply (c : Dev nD) (t : Fin cfg0.N) (p : Fin 5000) (k : Fin 64) (r : Fin 100000)
    (hr : r.val = t.val * 5000 + p.val) :
    (Gen.iblk0 (F := Ideal) V c 0 t : Vec Ideal S5000x64 .f32) (ix2 p k) = (V c main_v7 : S100000x64.Idx → EReal) (ix2 r k) := by
  obtain ⟨e0, e1, -⟩ := idx_facts0 t
  unfold Gen.iblk0
  rw [View.read_apply]
  show V c main_v7 (((cfg0.win 0).blk t).view.emb (ix2 p k)) = V c main_v7 (ix2 r k)
  refine congrArg _ ?_
  funext a
  apply Fin.ext
  match a with
  | ⟨0, _⟩ => show win0_0.index t (0 : Fin 2) * 5000 + 1 * p.val = r.val; omega
  | ⟨1, _⟩ => show win0_0.index t (1 : Fin 2) * 64 + 1 * k.val = k.val; omega

/-- The weight's block at every point is the whole array. -/
theorem iblk0_1_apply (c : Dev nD) (t : Fin cfg0.N) (y : S64x128.Idx) :
    (Gen.iblk0 (F := Ideal) V c 1 t : Vec Ideal S64x128 .f32) y = (V c main_arg7 : S64x128.Idx → EReal) y := by
  obtain ⟨-, -, e0, e1, -⟩ := idx_facts0 t
  unfold Gen.iblk0
  rw [View.read_apply]
  show V c main_arg7 (((cfg0.win 1).blk t).view.emb y) = V c main_arg7 y
  refine congrArg _ ?_
  funext a
  apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- The bias row's block at every point is the whole array. -/
theorem iblk0_2_apply (c : Dev nD) (t : Fin cfg0.N) (y : S1x128.Idx) :
    (Gen.iblk0 (F := Ideal) V c 2 t : Vec Ideal S1x128 .f32) y = (V c main_v8 : S1x128.Idx → EReal) y := by
  obtain ⟨-, -, -, -, e0, e1, -⟩ := idx_facts0 t
  unfold Gen.iblk0
  rw [View.read_apply]
  show V c main_v8 (((cfg0.win 2).blk t).view.emb y) = V c main_v8 y
  refine congrArg _ ?_
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point t writes back is block t of the linear stage of the arrays as the region finds them. -/
theorem flushed0_eq (c : Dev nD) (t : Fin cfg0.N) :
    (Gen.dat0 (F := Ideal) V c).flushed 3 t
      = ((cfg0.win 3).blk t).view.read (Elt Ideal) (lin0 (V c main_v7) (V c main_arg7) (V c main_v8)) := by
  show (cfg0.win 3).cut (grid0.coords t) ((Gen.dat0 (F := Ideal) V c).after 3 t) = _
  rw [Gen.after0_3]
  unfold Gen.out0_3
  rw [View.canon_unit_zero hz0]
  simp only [View.ld_unit_zero (S := S5000x64) hz0, View.ld_unit_zero (S := S64x128) hz0, View.ld_unit_zero (S := S1x128) hz0]
  obtain ⟨-, -, -, -, -, -, e0, e1⟩ := idx_facts0 t
  funext j
  show Gen.k0_pay1 (Gen.iblk0 V c 0 t) (Gen.iblk0 V c 1 t) (Gen.iblk0 V c 2 t) j
    = lin0 (V c main_v7) (V c main_arg7) (V c main_v8) (((cfg0.win 3).blk t).view.emb j)
  refine point0_at _ _ _ _ _ _ t.val j _ ?_ ?_ (fun p k r hr => iblk0_0_apply V c t p k r hr)
    (fun y => iblk0_1_apply V c t y) (fun y => iblk0_2_apply V c t y)
  · show win0_3.index t (0 : Fin 2) * 5000 + 1 * (j 0).val = t.val * 5000 + (j 0).val
    omega
  · show win0_3.index t (1 : Fin 2) * 128 + 1 * (j 1).val = (j 1).val
    omega

/-- An index of the array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v9).slice (win0_3.rect t)).set ↔ _
  rw [View.set_slice_whole, Rect.mem_set_unit]
  exact Iff.rfl

/-- Every index of the array lies in the block of the point its row falls in. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := Gen.N_0
  let t : Fin cfg0.N := ⟨(i 0).val / 5000, by rw [hN]; omega⟩
  obtain ⟨-, -, -, -, -, -, e0, e1⟩ := idx_facts0 t
  have ht : t.val = (i 0).val / 5000 := rfl
  refine ⟨t, Gen.flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the region is the linear stage of the arrays the region was entered with. -/
theorem final0 (c : Dev nD) :
    (Gen.dat0 (F := Ideal) V c).arrAt 3 cfg0.N = lin0 (V c main_v7) (V c main_arg7) (V c main_v8) :=
  (Gen.dat0 (F := Ideal) V c).arrAt_eq_of_cover 3 (lin0 (V c main_v7) (V c main_arg7) (V c main_v8))
    (fun t _ => flushed0_eq V c t) cover0

end Cert.KernelIdeal.Net

end
-- ==== Proof.Region1.lean ====
/-
  The second linear stage (64 → 256 features) as the device computes it, row block by row block.

  The launch walks 20 row blocks of 5000 rows.  At block t the body reads rows t·5000 … t·5000 + 4999 of x, the
  whole weight matrix and the whole bias row, and stores (block of x)·w + b, the bias row repeated down the rows.
  Entry (p, q) of that stored block is (sum over k of x(t·5000 + p, k) · w(k, q)) + b(0, q), which is entry
  (t·5000 + p, q) of the whole-array linear stage.  The 20 blocks tile the 100000 rows, so the result array ends
  holding the whole-array linear stage of the arrays the region was entered with.
-/
import proofs.«123810_j60627758350827_1_alg».proof.Proof.Gen.KernelIdeal.Frame
import proofs.«123810_j60627758350827_1_alg».proof.Proof.Spec
import proofs.«123810_j60627758350827_1_alg».proof.Proof.LibDenseLayer
import Idealize.ShloMosaic.Lib.Pipeline.Value
import Idealize.ShloMosaic.Lib.ValueIdx
import Idealize.ShloMosaic.PureOps.Ideal.Laws

set_option maxRecDepth 16384

noncomputable section

namespace Cert.KernelIdeal.Net

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offset vector of a whole-block access. -/
theorem hz1 : (![0, 0] : Fin 2 → Nat) = fun _ => 0 := funext fun a => by fin_cases a <;> rfl

/-- The printed index maps over the 20 grid points: the row operand and the result move to row block t, the
    weight and the bias stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The stored value at (p, q): row p of the first block against column q of the second, plus the bias row's
    entry of column q (the casts to the narrow format are the identity on the extended reals). -/
theorem pay1_apply (x0 : Vec Ideal S5000x64 .f32) (x1 : Vec Ideal S64x256 .f32) (x2 : Vec Ideal S1x256 .f32)
    (p : Fin 5000) (q : Fin 256) :
    Gen.k1_pay1 x0 x1 x2 (ix2 p q) = (∑ k : Fin 64, x0 (ix2 p k) * x1 (ix2 k q)) + x2 (ix2 (0 : Fin 1) q) := by
  unfold Gen.k1_pay1
  simp only [shapeCast_self]
  exact Cert.DenseLayer.tpu_affine_apply _ _ _ _ _ p q

/-- One entry of a row block: if row p of the first block is row r of x, and the other two blocks are the whole
    of w and the whole of b, the stored value at (p, q) is the linear stage's entry (r, q). -/
theorem point1 (X : S100000x64.Idx → EReal) (W : S64x256.Idx → EReal) (B : S1x256.Idx → EReal)
    (x0 : Vec Ideal S5000x64 .f32) (x1 : Vec Ideal S64x256 .f32) (x2 : Vec Ideal S1x256 .f32)
    (p : Fin 5000) (q : Fin 256) (r : Fin 100000)
    (h0 : ∀ k : Fin 64, x0 (ix2 p k) = X (ix2 r k))
    (h1 : ∀ (k : Fin 64), x1 (ix2 k q) = W (ix2 k q))
    (h2 : x2 (ix2 (0 : Fin 1) q) = B (ix2 (0 : Fin 1) q)) :
    Gen.k1_pay1 x0 x1 x2 (ix2 p q) = lin1 X W B (ix2 r q) := by
  rw [pay1_apply]
  show _ = (∑ k : Fin 64, X (ix2 r k) * W (ix2 k q)) + B (ix2 (0 : Fin 1) q)
  rw [h2]
  refine congrArg (· + _) ?_
  exact Finset.sum_congr rfl fun k _ => by rw [h0 k, h1 k]

/-- The same at indices given by their coordinates: entry j of block n against entry i of the array, where i is
    j moved down n·5000 rows. -/
theorem point1_at (X : S100000x64.Idx → EReal) (W : S64x256.Idx → EReal) (B : S1x256.Idx → EReal)
    (x0 : Vec Ideal S5000x64 .f32) (x1 : Vec Ideal S64x256 .f32) (x2 : Vec Ideal S1x256 .f32)
    (n : ℕ) (j : S5000x256.Idx) (i : S100000x256.Idx)
    (hi0 : (i 0).val = n * 5000 + (j 0).val) (hi1 : (i 1).val = (j 1).val)
    (h0 : ∀ (p : Fin 5000) (k : Fin 64) (r : Fin 100000), r.val = n * 5000 + p.val → x0 (ix2 p k) = X (ix2 r k))
    (h1 : ∀ y, x1 y = W y) (h2 : ∀ y, x2 y = B y) :
    Gen.k1_pay1 x0 x1 x2 j = lin1 X W B i := by
  obtain ⟨p, q, rfl⟩ : ∃ (p : Fin 5000) (q : Fin 256), j = ix2 p q := ⟨j 0, j 1, eq_ix2 j⟩
  obtain ⟨r, s, rfl⟩ : ∃ (r : Fin 100000) (s : Fin 256), i = ix2 r s := ⟨i 0, i 1, eq_ix2 i⟩
  have hs : s = q := Fin.ext hi1
  subst hs
  exact point1 X W B x0 x1 x2 p s r (fun k => h0 p k r hi0) (fun k => h1 _) (h2 _)

/-- The row operand's block at point t is rows t·5000 … of the array. -/
theorem iblk1_0_apply (c : Dev nD) (t : Fin cfg1.N) (p : Fin 5000) (k : Fin 64) (r : Fin 100000)
    (hr : r.val = t.val * 5000 + p.val) :
    (Gen.iblk1 (F := Ideal) V c 0 t : Vec Ideal S5000x64 .f32) (ix2 p k) = (V c main_v7 : S100000x64.Idx → EReal) (ix2 r k) := by
  obtain ⟨e0, e1, -⟩ := idx_facts1 t
  unfold Gen.iblk1
  rw [View.read_apply]
  show V c main_v7 (((cfg1.win 0).blk t).view.emb (ix2 p k)) = V c main_v7 (ix2 r k)
  refine congrArg _ ?_
  funext a
  apply Fin.ext
  match a with
  | ⟨0, _⟩ => show win1_0.index t (0 : Fin 2) * 5000 + 1 * p.val = r.val; omega
  | ⟨1, _⟩ => show win1_0.index t (1 : Fin 2) * 64 + 1 * k.val = k.val; omega

/-- The weight's block at every point is the whole array. -/
theorem iblk1_1_apply (c : Dev nD) (t : Fin cfg1.N) (y : S64x256.Idx) :
    (Gen.iblk1 (F := Ideal) V c 1 t : Vec Ideal S64x256 .f32) y = (V c main_v33 : S64x256.Idx → EReal) y := by
  obtain ⟨-, -, e0, e1, -⟩ := idx_facts1 t
  unfold Gen.iblk1
  rw [View.read_apply]
  show V c main_v33 (((cfg1.win 1).blk t).view.emb y) = V c main_v33 y
  refine congrArg _ ?_
  funext a
  apply Fin.ext
  match a with
  | ⟨0, _⟩ => show win1_1.index t (0 : Fin 2) * 64 + 1 * (y 0).val = (y 0).val; omega
  | ⟨1, _⟩ => show win1_1.index t (1 : Fin 2) * 256 + 1 * (y 1).val = (y 1).val; omega

/-- The bias row's block at every point is the whole array. -/
theorem iblk1_2_apply (c : Dev nD) (t : Fin cfg1.N) (y : S1x256.Idx) :
    (Gen.iblk1 (F := Ideal) V c 2 t : Vec Ideal S1x256 .f32) y = (V c main_v34 : S1x256.Idx → EReal) y := by
  obtain ⟨-, -, -, -, e0, e1, -⟩ := idx_facts1 t
  unfold Gen.iblk1
  rw [View.read_apply]
  show V c main_v34 (((cfg1.win 2).blk t).view.emb y) = V c main_v34 y
  refine congrArg _ ?_
  funext a
  apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- What point t writes back is block t of the linear stage of the arrays as the region finds them. -/
theorem flushed1_eq (c : Dev nD) (t : Fin cfg1.N) :
    (Gen.dat1 (F := Ideal) V c).flushed 3 t
      = ((cfg1.win 3).blk t).view.read (Elt Ideal) (lin1 (V c main_v7) (V c main_v33) (V c main_v34)) := by
  show (cfg1.win 3).cut (grid1.coords t) ((Gen.dat1 (F := Ideal) V c).after 3 t) = _
  rw [Gen.after1_3]
  unfold Gen.out1_3
  rw [View.canon_unit_zero hz1]
  simp only [View.ld_unit_zero (S := S5000x64) hz1, View.ld_unit_zero (S := S64x256) hz1, View.ld_unit_zero (S := S1x256) hz1]
  obtain ⟨-, -, -, -, -, -, e0, e1⟩ := idx_facts1 t
  funext j
  show Gen.k1_pay1 (Gen.iblk1 V c 0 t) (Gen.iblk1 V c 1 t) (Gen.iblk1 V c 2 t) j
    = lin1 (V c main_v7) (V c main_v33) (V c main_v34) (((cfg1.win 3).blk t).view.emb j)
  refine point1_at _ _ _ _ _ _ t.val j _ ?_ ?_ (fun p k r hr => iblk1_0_apply V c t p k r hr)
    (fun y => iblk1_1_apply V c t y) (fun y => iblk1_2_apply V c t y)
  · show win1_3.index t (0 : Fin 2) * 5000 + 1 * (j 0).val = t.val * 5000 + (j 0).val
    omega
  · show win1_3.index t (1 : Fin 2) * 256 + 1 * (j 1).val = (j 1).val
    omega

/-- An index of the array is in point t's block iff each coordinate is in the block's range on its axis. -/
theorem mem_blk1 (t : Fin cfg1.N) (i : S100000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v35).slice (win1_3.rect t)).set ↔ _
  rw [View.set_slice_whole, Rect.mem_set_unit]
  exact Iff.rfl

/-- Every index of the array lies in the block of the point its row falls in. -/
theorem cover1 (i : S100000x256.Idx) :
    ∃ t : Fin cfg1.N, (cfg1.win 3).flush t = true ∧ i ∈ ((cfg1.win 3).blk t).view.set := by
  have hi0 : (i 0).val < 100000 := (i 0).isLt
  have hi1 : (i 1).val < 256 := (i 1).isLt
  have hN : cfg1.N = 20 := Gen.N_1
  let t : Fin cfg1.N := ⟨(i 0).val / 5000, by rw [hN]; omega⟩
  obtain ⟨-, -, -, -, -, -, e0, e1⟩ := idx_facts1 t
  have ht : t.val = (i 0).val / 5000 := rfl
  refine ⟨t, Gen.flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- The result array after the region is the linear stage of the arrays the region was entered with. -/
theorem final1 (c : Dev nD) :
    (Gen.dat1 (F := Ideal) V c).arrAt 3 cfg1.N = lin1 (V c main_v7) (V c main_v33) (V c main_v34) :=
  (Gen.dat1 (F := Ideal) V c).arrAt_eq_of_cover 3 (lin1 (V c main_v7) (V c main_v33) (V c main_v34))
    (fun t _ => flushed1_eq V c t) cover1

end Cert.KernelIdeal.Net

end
-- ==== Proof.Region2.lean ====
/-
  The first combine stage, followed by the leaky cut.

  The launch walks the 100000 rows in twenty blocks of 5000 rows.  At block t the two row-blocked inputs and the output
  sit at block index (t, 0), so element (y0, y1) of each block is the array's element (5000 t + y0, y1); the bias row
  is read whole at every point.  The body adds its two blocks entry by entry, then the bias row broadcast down the
  rows, and applies the leaky cut y ↦ y if y ≥ 0 else 0.2 · y to every entry.  Hence block t of the output array is
  block t of the whole-array function, and since the twenty blocks tile the 100000 rows, the output array is that
  function.
-/
import proofs.«123810_j60627758350827_1_alg».proof.Proof.Gen.KernelIdeal.Frame
import proofs.«123810_j60627758350827_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Net

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The windows' arrays are the self term, the aggregated term, the bias row and the stage's result. -/
example : Pipeline.arrRef spec2 0 = main_v36 := rfl
example : Pipeline.arrRef spec2 1 = main_v59 := rfl
example : Pipeline.arrRef spec2 2 = main_v60 := rfl
example : Pipeline.arrRef spec2 3 = main_v61 := rfl

/-- The zero offsets of a whole-block access. -/
theorem zero_offsets2 : (![0, 0] : Fin 2 → Nat) = fun _ => 0 := funext fun a => by fin_cases a <;> rfl

/-- The bias row broadcast down the 5000 rows of a block reads, in column j 1, the row's entry of that column. -/
theorem bias_rows2 (x2 : S1x128.Idx → EReal) (j : S5000x128.Idx) :
    broadcastTo S5000x128 x2 broadcasts_S1x128_S5000x128 j = x2 (ix2 (0 : Fin 1) (j 1)) := by
  refine broadcastTo_apply x2 broadcasts_S1x128_S5000x128 j (ix2 (0 : Fin 1) (j 1)) fun ax => ?_
  match ax with
  | ⟨0, _⟩ => rfl
  | ⟨1, _⟩ => rfl

/-- The body's stored value at one entry: the two blocks' entries added, plus the bias of the column, through the
    leaky cut; it is the whole-array function's value at i as soon as the three entries read are the arrays' at i. -/
theorem stored2_at (x0 x1 : S5000x128.Idx → EReal) (x2 : S1x128.Idx → EReal)
    (h a : S100000x128.Idx → EReal) (b : S1x128.Idx → EReal) (j : S5000x128.Idx) (i : S100000x128.Idx)
    (h0 : x0 j = h i) (h1 : x1 j = a i)
    (h2 : x2 (ix2 (0 : Fin 1) (j 1)) = b (ix2 (0 : Fin 1) (i 1))) :
    k2_pay1 (F := Ideal) x0 x1 x2 j = combLeaky h a b i := by
  have hy : (x0 j + x1 j) + broadcastTo S5000x128 x2 broadcasts_S1x128_S5000x128 j = comb h a b i := by
    show _ = (h i + a i) + b (ix2 (0 : Fin 1) (i 1))
    rw [bias_rows2, h0, h1, h2]
  unfold k2_pay1
  simp only [shapeCast_self]
  show leaky ((x0 j + x1 j) + broadcastTo S5000x128 x2 broadcasts_S1x128_S5000x128 j) = leaky (comb h a b i)
  rw [hy]

/-- The block indices, decided over the twenty points: the two row-blocked inputs move with the output, which sits at
    (t, 0) with t below 20; the bias row's one block is at (0, 0). -/
theorem block_indices2 : ∀ t : Fin cfg2.N, win2_0.index t (0 : Fin 2) = win2_3.index t (0 : Fin 2)
    ∧ win2_0.index t (1 : Fin 2) = win2_3.index t (1 : Fin 2)
    ∧ win2_1.index t (0 : Fin 2) = win2_3.index t (0 : Fin 2)
    ∧ win2_1.index t (1 : Fin 2) = win2_3.index t (1 : Fin 2)
    ∧ win2_2.index t (0 : Fin 2) = 0
    ∧ win2_2.index t (1 : Fin 2) = 0
    ∧ win2_3.index t (0 : Fin 2) ≤ 19
    ∧ win2_3.index t (1 : Fin 2) = 0 :=
  (by decide +kernel : ∀ t : Fin grid2.N, _)

/-- Every row block is some point's. -/
theorem block_onto2 : ∀ q0 : Fin 20, ∃ t : Fin cfg2.N, win2_3.index t = ![q0.val, 0] :=
  (by decide +kernel : ∀ q0 : Fin 20, ∃ t : Fin grid2.N, win2_3.index t = ![q0.val, 0])

/-- The body's stored value on block t of the three arrays is block t of the stage's whole-array function: element
    (y0, y1) of a row block is the arrays' element (5000 t + y0, y1), and the bias row is read whole. -/
theorem block2 (h a : S100000x128.Idx → EReal) (b : S1x128.Idx → EReal) (t : Fin cfg2.N)
    (x0 x1 : S5000x128.Idx → EReal) (x2 : S1x128.Idx → EReal)
    (hx0 : x0 = ((cfg2.win 0).blk t).view.read (Elt Ideal) h)
    (hx1 : x1 = ((cfg2.win 1).blk t).view.read (Elt Ideal) a)
    (hx2 : x2 = ((cfg2.win 2).blk t).view.read (Elt Ideal) b) :
    (cfg2.win 3).cut (grid2.coords t) (k2_pay1 (F := Ideal) x0 x1 x2)
      = ((cfg2.win 3).blk t).view.read (Elt Ideal) (combLeaky h a b) := by
  obtain ⟨e00, e01, e10, e11, e20, e21, e30, e31⟩ := block_indices2 t
  funext j
  show k2_pay1 (F := Ideal) x0 x1 x2 j = combLeaky h a b (((cfg2.win 3).blk t).view.emb j)
  refine stored2_at x0 x1 x2 h a b j (((cfg2.win 3).blk t).view.emb j) ?_ ?_ ?_
  · rw [hx0]
    show h (((cfg2.win 0).blk t).view.emb j) = h (((cfg2.win 3).blk t).view.emb j)
    refine congrArg h ?_
    funext ax; apply Fin.ext
    match ax with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * (j 1).val = win2_3.index t (1 : Fin 2) * 128 + 1 * (j 1).val; omega
  · rw [hx1]
    show a (((cfg2.win 1).blk t).view.emb j) = a (((cfg2.win 3).blk t).view.emb j)
    refine congrArg a ?_
    funext ax; apply Fin.ext
    match ax with
    | ⟨0, _⟩ => show win2_1.index t (0 : Fin 2) * 5000 + 1 * (j 0).val = win2_3.index t (0 : Fin 2) * 5000 + 1 * (j 0).val; omega
    | ⟨1, _⟩ => show win2_1.index t (1 : Fin 2) * 128 + 1 * (j 1).val = win2_3.index t (1 : Fin 2) * 128 + 1 * (j 1).val; omega
  · rw [hx2]
    show b (((cfg2.win 2).blk t).view.emb (ix2 (0 : Fin 1) (j 1)))
      = b (ix2 (0 : Fin 1) ((((cfg2.win 3).blk t).view.emb j) 1))
    refine congrArg b ?_
    funext ax; apply Fin.ext
    match ax with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega

/-- What point t writes back is block t of the stage's whole-array function of the three arrays. -/
theorem flushed2_eq (c : Dev nD) (t : Fin cfg2.N) :
    (dat2 (F := Ideal) V c).flushed 3 t
      = ((cfg2.win 3).blk t).view.read (Elt Ideal) (combLeaky (V c main_v36) (V c main_v59) (V c main_v60)) := by
  show (cfg2.win 3).cut (grid2.coords t) ((dat2 (F := Ideal) V c).after 3 t) = _
  rw [after2_3]
  unfold out2_3
  rw [View.canon_unit_zero zero_offsets2]
  simp only [View.ld_unit_zero (S := S5000x128) zero_offsets2, View.ld_unit_zero (S := S1x128) zero_offsets2]
  exact block2 (V c main_v36) (V c main_v59) (V c main_v60) t _ _ _ rfl rfl rfl

/-- An index of the array is in point t's block iff each coordinate is in the block's range on its axis. -/
theorem mem_block2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v61).slice (win2_3.rect t)).set ↔ _
  rw [View.set_slice_whole, Rect.mem_set_unit]
  exact Iff.rfl

/-- The twenty row blocks cover the array: row r is in block r / 5000. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := block_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The stage's result array after the launch is the stage's whole-array function of the three arrays. -/
theorem final2 (c : Dev nD) :
    (Gen.dat2 (F := Ideal) V c).arrAt 3 cfg2.N = combLeaky (V c main_v36) (V c main_v59) (V c main_v60) :=
  (dat2 (F := Ideal) V c).arrAt_eq_of_cover 3 (combLeaky (V c main_v36) (V c main_v59) (V c main_v60))
    (fun t _ => flushed2_eq V c t) cover2

end Cert.KernelIdeal.Net

end
-- ==== Proof.Region3.lean ====
/-
  The third linear stage (128 → 256 features) as the device computes it, row block by row block.

  The launch walks 20 row blocks of 5000 rows.  At block t the body reads rows t·5000 … t·5000 + 4999 of x, the
  whole weight matrix and the whole bias row, and stores (block of x)·w + b, the bias row repeated down the rows.
  Entry (p, q) of that stored block is (sum over k of x(t·5000 + p, k) · w(k, q)) + b(0, q), which is entry
  (t·5000 + p, q) of the whole-array linear stage.  The 20 blocks tile the 100000 rows, so the result array ends
  holding the whole-array linear stage of the arrays the region was entered with.
-/
import proofs.«123810_j60627758350827_1_alg».proof.Proof.Gen.KernelIdeal.Frame
import proofs.«123810_j60627758350827_1_alg».proof.Proof.Spec
import proofs.«123810_j60627758350827_1_alg».proof.Proof.LibDenseLayer
import Idealize.ShloMosaic.Lib.Pipeline.Value
import Idealize.ShloMosaic.Lib.ValueIdx
import Idealize.ShloMosaic.PureOps.Ideal.Laws

set_option maxRecDepth 16384

noncomputable section

namespace Cert.KernelIdeal.Net

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offset vector of a whole-block access. -/
theorem hz3 : (![0, 0] : Fin 2 → Nat) = fun _ => 0 := funext fun a => by fin_cases a <;> rfl

/-- The printed index maps over the 20 grid points: the row operand and the result move to row block t, the
    weight and the bias stay at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The stored value at (p, q): row p of the first block against column q of the second, plus the bias row's
    entry of column q (the casts to the narrow format are the identity on the extended reals). -/
theorem pay3_apply (x0 : Vec Ideal S5000x128 .f32) (x1 : Vec Ideal S128x256 .f32) (x2 : Vec Ideal S1x256 .f32)
    (p : Fin 5000) (q : Fin 256) :
    Gen.k3_pay1 x0 x1 x2 (ix2 p q) = (∑ k : Fin 128, x0 (ix2 p k) * x1 (ix2 k q)) + x2 (ix2 (0 : Fin 1) q) := by
  unfold Gen.k3_pay1
  simp only [shapeCast_self]
  exact Cert.DenseLayer.tpu_affine_apply _ _ _ _ _ p q

/-- One entry of a row block: if row p of the first block is row r of x, and the other two blocks are the whole
    of w and the whole of b, the stored value at (p, q) is the linear stage's entry (r, q). -/
theorem point3 (X : S100000x128.Idx → EReal) (W : S128x256.Idx → EReal) (B : S1x256.Idx → EReal)
    (x0 : Vec Ideal S5000x128 .f32) (x1 : Vec Ideal S128x256 .f32) (x2 : Vec Ideal S1x256 .f32)
    (p : Fin 5000) (q : Fin 256) (r : Fin 100000)
    (h0 : ∀ k : Fin 128, x0 (ix2 p k) = X (ix2 r k))
    (h1 : ∀ (k : Fin 128), x1 (ix2 k q) = W (ix2 k q))
    (h2 : x2 (ix2 (0 : Fin 1) q) = B (ix2 (0 : Fin 1) q)) :
    Gen.k3_pay1 x0 x1 x2 (ix2 p q) = lin3 X W B (ix2 r q) := by
  rw [pay3_apply]
  show _ = (∑ k : Fin 128, X (ix2 r k) * W (ix2 k q)) + B (ix2 (0 : Fin 1) q)
  rw [h2]
  refine congrArg (· + _) ?_
  exact Finset.sum_congr rfl fun k _ => by rw [h0 k, h1 k]

/-- The same at indices given by their coordinates: entry j of block n against entry i of the array, where i is
    j moved down n·5000 rows. -/
theorem point3_at (X : S100000x128.Idx → EReal) (W : S128x256.Idx → EReal) (B : S1x256.Idx → EReal)
    (x0 : Vec Ideal S5000x128 .f32) (x1 : Vec Ideal S128x256 .f32) (x2 : Vec Ideal S1x256 .f32)
    (n : ℕ) (j : S5000x256.Idx) (i : S100000x256.Idx)
    (hi0 : (i 0).val = n * 5000 + (j 0).val) (hi1 : (i 1).val = (j 1).val)
    (h0 : ∀ (p : Fin 5000) (k : Fin 128) (r : Fin 100000), r.val = n * 5000 + p.val → x0 (ix2 p k) = X (ix2 r k))
    (h1 : ∀ y, x1 y = W y) (h2 : ∀ y, x2 y = B y) :
    Gen.k3_pay1 x0 x1 x2 j = lin3 X W B i := by
  obtain ⟨p, q, rfl⟩ : ∃ (p : Fin 5000) (q : Fin 256), j = ix2 p q := ⟨j 0, j 1, eq_ix2 j⟩
  obtain ⟨r, s, rfl⟩ : ∃ (r : Fin 100000) (s : Fin 256), i = ix2 r s := ⟨i 0, i 1, eq_ix2 i⟩
  have hs : s = q := Fin.ext hi1
  subst hs
  exact point3 X W B x0 x1 x2 p s r (fun k => h0 p k r hi0) (fun k => h1 _) (h2 _)

/-- The row operand's block at point t is rows t·5000 … of the array. -/
theorem iblk3_0_apply (c : Dev nD) (t : Fin cfg3.N) (p : Fin 5000) (k : Fin 128) (r : Fin 100000)
    (hr : r.val = t.val * 5000 + p.val) :
    (Gen.iblk3 (F := Ideal) V c 0 t : Vec Ideal S5000x128 .f32) (ix2 p k) = (V c main_v61 : S100000x128.Idx → EReal) (ix2 r k) := by
  obtain ⟨e0, e1, -⟩ := idx_facts3 t
  unfold Gen.iblk3
  rw [View.read_apply]
  show V c main_v61 (((cfg3.win 0).blk t).view.emb (ix2 p k)) = V c main_v61 (ix2 r k)
  refine congrArg _ ?_
  funext a
  apply Fin.ext
  match a with
  | ⟨0, _⟩ => show win3_0.index t (0 : Fin 2) * 5000 + 1 * p.val = r.val; omega
  | ⟨1, _⟩ => show win3_0.index t (1 : Fin 2) * 128 + 1 * k.val = k.val; omega

/-- The weight's block at every point is the whole array. -/
theorem iblk3_1_apply (c : Dev nD) (t : Fin cfg3.N) (y : S128x256.Idx) :
    (Gen.iblk3 (F := Ideal) V c 1 t : Vec Ideal S128x256 .f32) y = (V c main_v62 : S128x256.Idx → EReal) y := by
  obtain ⟨-, -, e0, e1, -⟩ := idx_facts3 t
  unfold Gen.iblk3
  rw [View.read_apply]
  show V c main_v62 (((cfg3.win 1).blk t).view.emb y) = V c main_v62 y
  refine congrArg _ ?_
  funext a
  apply Fin.ext
  match a with
  | ⟨0, _⟩ => show win3_1.index t (0 : Fin 2) * 128 + 1 * (y 0).val = (y 0).val; omega
  | ⟨1, _⟩ => show win3_1.index t (1 : Fin 2) * 256 + 1 * (y 1).val = (y 1).val; omega

/-- The bias row's block at every point is the whole array. -/
theorem iblk3_2_apply (c : Dev nD) (t : Fin cfg3.N) (y : S1x256.Idx) :
    (Gen.iblk3 (F := Ideal) V c 2 t : Vec Ideal S1x256 .f32) y = (V c main_v63 : S1x256.Idx → EReal) y := by
  obtain ⟨-, -, -, -, e0, e1, -⟩ := idx_facts3 t
  unfold Gen.iblk3
  rw [View.read_apply]
  show V c main_v63 (((cfg3.win 2).blk t).view.emb y) = V c main_v63 y
  refine congrArg _ ?_
  funext a
  apply Fin.ext
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- What point t writes back is block t of the linear stage of the arrays as the region finds them. -/
theorem flushed3_eq (c : Dev nD) (t : Fin cfg3.N) :
    (Gen.dat3 (F := Ideal) V c).flushed 3 t
      = ((cfg3.win 3).blk t).view.read (Elt Ideal) (lin3 (V c main_v61) (V c main_v62) (V c main_v63)) := by
  show (cfg3.win 3).cut (grid3.coords t) ((Gen.dat3 (F := Ideal) V c).after 3 t) = _
  rw [Gen.after3_3]
  unfold Gen.out3_3
  rw [View.canon_unit_zero hz3]
  simp only [View.ld_unit_zero (S := S5000x128) hz3, View.ld_unit_zero (S := S128x256) hz3, View.ld_unit_zero (S := S1x256) hz3]
  obtain ⟨-, -, -, -, -, -, e0, e1⟩ := idx_facts3 t
  funext j
  show Gen.k3_pay1 (Gen.iblk3 V c 0 t) (Gen.iblk3 V c 1 t) (Gen.iblk3 V c 2 t) j
    = lin3 (V c main_v61) (V c main_v62) (V c main_v63) (((cfg3.win 3).blk t).view.emb j)
  refine point3_at _ _ _ _ _ _ t.val j _ ?_ ?_ (fun p k r hr => iblk3_0_apply V c t p k r hr)
    (fun y => iblk3_1_apply V c t y) (fun y => iblk3_2_apply V c t y)
  · show win3_3.index t (0 : Fin 2) * 5000 + 1 * (j 0).val = t.val * 5000 + (j 0).val
    omega
  · show win3_3.index t (1 : Fin 2) * 256 + 1 * (j 1).val = (j 1).val
    omega

/-- An index of the array is in point t's block iff each coordinate is in the block's range on its axis. -/
theorem mem_blk3 (t : Fin cfg3.N) (i : S100000x256.Idx) :
    i ∈ ((cfg3.win 3).blk t).view.set ↔ ∀ a : Fin 2, win3_3.index t a * S5000x256.size a ≤ (i a).val ∧ (i a).val < win3_3.index t a * S5000x256.size a + S5000x256.size a := by
  show i ∈ ((View.whole main_v64).slice (win3_3.rect t)).set ↔ _
  rw [View.set_slice_whole, Rect.mem_set_unit]
  exact Iff.rfl

/-- Every index of the array lies in the block of the point its row falls in. -/
theorem cover3 (i : S100000x256.Idx) :
    ∃ t : Fin cfg3.N, (cfg3.win 3).flush t = true ∧ i ∈ ((cfg3.win 3).blk t).view.set := by
  have hi0 : (i 0).val < 100000 := (i 0).isLt
  have hi1 : (i 1).val < 256 := (i 1).isLt
  have hN : cfg3.N = 20 := Gen.N_3
  let t : Fin cfg3.N := ⟨(i 0).val / 5000, by rw [hN]; omega⟩
  obtain ⟨-, -, -, -, -, -, e0, e1⟩ := idx_facts3 t
  have ht : t.val = (i 0).val / 5000 := rfl
  refine ⟨t, Gen.flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 256 ≤ (i 1).val ∧ (i 1).val < win3_3.index t (1 : Fin 2) * 256 + 256; omega

/-- The result array after the region is the linear stage of the arrays the region was entered with. -/
theorem final3 (c : Dev nD) :
    (Gen.dat3 (F := Ideal) V c).arrAt 3 cfg3.N = lin3 (V c main_v61) (V c main_v62) (V c main_v63) :=
  (Gen.dat3 (F := Ideal) V c).arrAt_eq_of_cover 3 (lin3 (V c main_v61) (V c main_v62) (V c main_v63))
    (fun t _ => flushed3_eq V c t) cover3

end Cert.KernelIdeal.Net

end
-- ==== Proof.Region4.lean ====
/-
  The second combine stage: self term plus aggregated neighbour term plus the bias of the column.

  The launch walks the 100000 rows in twenty blocks of 5000 rows.  At block t the two row-blocked inputs and the output
  sit at block index (t, 0), so element (y0, y1) of each block is the array's element (5000 t + y0, y1); the bias row
  is read whole at every point.  The body adds its two blocks entry by entry and then the bias row broadcast down the
  rows.  Hence block t of the output array is block t of the whole-array function, and since the twenty blocks tile
  the 100000 rows, the output array is that function.
-/
import proofs.«123810_j60627758350827_1_alg».proof.Proof.Gen.KernelIdeal.Frame
import proofs.«123810_j60627758350827_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Net

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The windows' arrays are the self term, the aggregated term, the bias row and the stage's result. -/
example : Pipeline.arrRef spec4 0 = main_v65 := rfl
example : Pipeline.arrRef spec4 1 = main_v88 := rfl
example : Pipeline.arrRef spec4 2 = main_v89 := rfl
example : Pipeline.arrRef spec4 3 = main_v90 := rfl

/-- The zero offsets of a whole-block access. -/
theorem zero_offsets4 : (![0, 0] : Fin 2 → Nat) = fun _ => 0 := funext fun a => by fin_cases a <;> rfl

/-- The bias row broadcast down the 5000 rows of a block reads, in column j 1, the row's entry of that column. -/
theorem bias_rows4 (x2 : S1x128.Idx → EReal) (j : S5000x128.Idx) :
    broadcastTo S5000x128 x2 broadcasts_S1x128_S5000x128 j = x2 (ix2 (0 : Fin 1) (j 1)) := by
  refine broadcastTo_apply x2 broadcasts_S1x128_S5000x128 j (ix2 (0 : Fin 1) (j 1)) fun ax => ?_
  match ax with
  | ⟨0, _⟩ => rfl
  | ⟨1, _⟩ => rfl

/-- The body's stored value at one entry: the two blocks' entries added, plus the bias of the column; it is the
    whole-array function's value at i as soon as the three entries read are the arrays' at i. -/
theorem stored4_at (x0 x1 : S5000x128.Idx → EReal) (x2 : S1x128.Idx → EReal)
    (h a : S100000x128.Idx → EReal) (b : S1x128.Idx → EReal) (j : S5000x128.Idx) (i : S100000x128.Idx)
    (h0 : x0 j = h i) (h1 : x1 j = a i)
    (h2 : x2 (ix2 (0 : Fin 1) (j 1)) = b (ix2 (0 : Fin 1) (i 1))) :
    k4_pay1 (F := Ideal) x0 x1 x2 j = comb h a b i := by
  unfold k4_pay1
  simp only [shapeCast_self]
  show (x0 j + x1 j) + broadcastTo S5000x128 x2 broadcasts_S1x128_S5000x128 j
    = (h i + a i) + b (ix2 (0 : Fin 1) (i 1))
  rw [bias_rows4, h0, h1, h2]

/-- The block indices, decided over the twenty points: the two row-blocked inputs move with the output, which sits at
    (t, 0) with t below 20; the bias row's one block is at (0, 0). -/
theorem block_indices4 : ∀ t : Fin cfg4.N, win4_0.index t (0 : Fin 2) = win4_3.index t (0 : Fin 2)
    ∧ win4_0.index t (1 : Fin 2) = win4_3.index t (1 : Fin 2)
    ∧ win4_1.index t (0 : Fin 2) = win4_3.index t (0 : Fin 2)
    ∧ win4_1.index t (1 : Fin 2) = win4_3.index t (1 : Fin 2)
    ∧ win4_2.index t (0 : Fin 2) = 0
    ∧ win4_2.index t (1 : Fin 2) = 0
    ∧ win4_3.index t (0 : Fin 2) ≤ 19
    ∧ win4_3.index t (1 : Fin 2) = 0 :=
  (by decide +kernel : ∀ t : Fin grid4.N, _)

/-- Every row block is some point's. -/
theorem block_onto4 : ∀ q0 : Fin 20, ∃ t : Fin cfg4.N, win4_3.index t = ![q0.val, 0] :=
  (by decide +kernel : ∀ q0 : Fin 20, ∃ t : Fin grid4.N, win4_3.index t = ![q0.val, 0])

/-- The body's stored value on block t of the three arrays is block t of the stage's whole-array function: element
    (y0, y1) of a row block is the arrays' element (5000 t + y0, y1), and the bias row is read whole. -/
theorem block4 (h a : S100000x128.Idx → EReal) (b : S1x128.Idx → EReal) (t : Fin cfg4.N)
    (x0 x1 : S5000x128.Idx → EReal) (x2 : S1x128.Idx → EReal)
    (hx0 : x0 = ((cfg4.win 0).blk t).view.read (Elt Ideal) h)
    (hx1 : x1 = ((cfg4.win 1).blk t).view.read (Elt Ideal) a)
    (hx2 : x2 = ((cfg4.win 2).blk t).view.read (Elt Ideal) b) :
    (cfg4.win 3).cut (grid4.coords t) (k4_pay1 (F := Ideal) x0 x1 x2)
      = ((cfg4.win 3).blk t).view.read (Elt Ideal) (comb h a b) := by
  obtain ⟨e00, e01, e10, e11, e20, e21, e30, e31⟩ := block_indices4 t
  funext j
  show k4_pay1 (F := Ideal) x0 x1 x2 j = comb h a b (((cfg4.win 3).blk t).view.emb j)
  refine stored4_at x0 x1 x2 h a b j (((cfg4.win 3).blk t).view.emb j) ?_ ?_ ?_
  · rw [hx0]
    show h (((cfg4.win 0).blk t).view.emb j) = h (((cfg4.win 3).blk t).view.emb j)
    refine congrArg h ?_
    funext ax; apply Fin.ext
    match ax with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * (j 1).val = win4_3.index t (1 : Fin 2) * 128 + 1 * (j 1).val; omega
  · rw [hx1]
    show a (((cfg4.win 1).blk t).view.emb j) = a (((cfg4.win 3).blk t).view.emb j)
    refine congrArg a ?_
    funext ax; apply Fin.ext
    match ax with
    | ⟨0, _⟩ => show win4_1.index t (0 : Fin 2) * 5000 + 1 * (j 0).val = win4_3.index t (0 : Fin 2) * 5000 + 1 * (j 0).val; omega
    | ⟨1, _⟩ => show win4_1.index t (1 : Fin 2) * 128 + 1 * (j 1).val = win4_3.index t (1 : Fin 2) * 128 + 1 * (j 1).val; omega
  · rw [hx2]
    show b (((cfg4.win 2).blk t).view.emb (ix2 (0 : Fin 1) (j 1)))
      = b (ix2 (0 : Fin 1) ((((cfg4.win 3).blk t).view.emb j) 1))
    refine congrArg b ?_
    funext ax; apply Fin.ext
    match ax with
    | ⟨0, _⟩ => show win4_2.index t (0 : Fin 2) * 1 + 1 * 0 = 0; omega
    | ⟨1, _⟩ => show win4_2.index t (1 : Fin 2) * 128 + 1 * (j 1).val = win4_3.index t (1 : Fin 2) * 128 + 1 * (j 1).val; omega

/-- What point t writes back is block t of the stage's whole-array function of the three arrays. -/
theorem flushed4_eq (c : Dev nD) (t : Fin cfg4.N) :
    (dat4 (F := Ideal) V c).flushed 3 t
      = ((cfg4.win 3).blk t).view.read (Elt Ideal) (comb (V c main_v65) (V c main_v88) (V c main_v89)) := by
  show (cfg4.win 3).cut (grid4.coords t) ((dat4 (F := Ideal) V c).after 3 t) = _
  rw [after4_3]
  unfold out4_3
  rw [View.canon_unit_zero zero_offsets4]
  simp only [View.ld_unit_zero (S := S5000x128) zero_offsets4, View.ld_unit_zero (S := S1x128) zero_offsets4]
  exact block4 (V c main_v65) (V c main_v88) (V c main_v89) t _ _ _ rfl rfl rfl

/-- An index of the array is in point t's block iff each coordinate is in the block's range on its axis. -/
theorem mem_block4 (t : Fin cfg4.N) (i : S100000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v90).slice (win4_3.rect t)).set ↔ _
  rw [View.set_slice_whole, Rect.mem_set_unit]
  exact Iff.rfl

/-- The twenty row blocks cover the array: row r is in block r / 5000. -/
theorem cover4 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ := block_onto4 ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_block4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The stage's result array after the launch is the stage's whole-array function of the three arrays. -/
theorem final4 (c : Dev nD) :
    (Gen.dat4 (F := Ideal) V c).arrAt 3 cfg4.N = comb (V c main_v65) (V c main_v88) (V c main_v89) :=
  (dat4 (F := Ideal) V c).arrAt_eq_of_cover 3 (comb (V c main_v65) (V c main_v88) (V c main_v89))
    (fun t _ => flushed4_eq V c t) cover4

end Cert.KernelIdeal.Net

end
-- ==== Proof.Region5.lean ====
/-
  The last device stage: two pooled arrays added entry by entry.

  The launch walks the 25000 rows in five blocks of 5000 rows.  At block t both inputs and the output sit at block
  index (t, 0), so the element (y0, y1) of each block is the array's element (5000 t + y0, y1); the stage's body adds
  its two blocks entry by entry and stores the sum.  Hence block t of the output array is block t of the entrywise sum
  of the two input arrays, and since the five blocks tile the 25000 rows, the output array is that sum.
-/
import proofs.«123810_j60627758350827_1_alg».proof.Proof.Gen.KernelIdeal.Frame
import proofs.«123810_j60627758350827_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Net

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The windows' arrays are the two pooled inputs and the stage's result. -/
example : Pipeline.arrRef spec5 0 = main_v113 := rfl
example : Pipeline.arrRef spec5 1 = main_v114 := rfl
example : Pipeline.arrRef spec5 2 = main_v115 := rfl

/-- The zero offsets of a whole-block access. -/
theorem zero_offsets5 : (![0, 0] : Fin 2 → Nat) = fun _ => 0 := funext fun a => by fin_cases a <;> rfl

/-- The body's stored value is the entrywise sum of its two loaded blocks (the casts are of a shape to itself). -/
theorem stored5_eq (x0 x1 : Vec Ideal S5000x128 .f32) : k5_pay1 x0 x1 = addf x0 x1 := by
  unfold k5_pay1
  simp only [shapeCast_self]

/-- The block indices, decided over the five points: both inputs move with the output, which sits at (t, 0). -/
theorem block_indices5 : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) ≤ 4
    ∧ win5_2.index t (1 : Fin 2) ≤ 0 :=
  (by decide +kernel : ∀ t : Fin grid5.N, _)

/-- Every row block is some point's. -/
theorem block_onto5 : ∀ q0 : Fin 5, ∃ t : Fin cfg5.N, win5_2.index t = ![q0.val, 0] :=
  (by decide +kernel : ∀ q0 : Fin 5, ∃ t : Fin grid5.N, win5_2.index t = ![q0.val, 0])

/-- Block t of the two arrays, added entry by entry, is block t of their entrywise sum: the three windows sit at the
    same block index, so element (y0, y1) of each block is the arrays' element (5000 t + y0, y1). -/
theorem block5 (u v : S25000x128.Idx → EReal) (t : Fin cfg5.N) (x0 x1 : Vec Ideal S5000x128 .f32)
    (hx0 : x0 = ((cfg5.win 0).blk t).view.read (Elt Ideal) u)
    (hx1 : x1 = ((cfg5.win 1).blk t).view.read (Elt Ideal) v) :
    (cfg5.win 2).cut (grid5.coords t) (addf (F := Ideal) (φ := .f32) x0 x1)
      = ((cfg5.win 2).blk t).view.read (Elt Ideal) (sum5 u v) := by
  subst hx0 hx1
  obtain ⟨e0, e1, e2, e3, e4, e5⟩ := block_indices5 t
  funext j
  show u (((cfg5.win 0).blk t).view.emb j) + v (((cfg5.win 1).blk t).view.emb j)
    = u (((cfg5.win 2).blk t).view.emb j) + v (((cfg5.win 2).blk t).view.emb j)
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 5000 + 1 * (j 0).val = win5_2.index t (0 : Fin 2) * 5000 + 1 * (j 0).val; omega
    | ⟨1, _⟩ => show win5_1.index t (1 : Fin 2) * 128 + 1 * (j 1).val = win5_2.index t (1 : Fin 2) * 128 + 1 * (j 1).val; omega
  rw [h0, h1]

/-- What point t writes back is block t of the entrywise sum of the two input arrays. -/
theorem flushed5_eq (c : Dev nD) (t : Fin cfg5.N) :
    (dat5 (F := Ideal) V c).flushed 2 t
      = ((cfg5.win 2).blk t).view.read (Elt Ideal) (sum5 (V c main_v113) (V c main_v114)) := by
  show (cfg5.win 2).cut (grid5.coords t) ((dat5 (F := Ideal) V c).after 2 t) = _
  rw [after5_2]
  unfold out5_2
  rw [View.canon_unit_zero zero_offsets5]
  simp only [View.ld_unit_zero (S := S5000x128) zero_offsets5]
  rw [stored5_eq]
  exact block5 (V c main_v113) (V c main_v114) t _ _ rfl rfl

/-- An index of the array is in point t's block iff each coordinate is in the block's range on its axis. -/
theorem mem_block5 (t : Fin cfg5.N) (i : S25000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v115).slice (win5_2.rect t)).set ↔ _
  rw [View.set_slice_whole, Rect.mem_set_unit]
  exact Iff.rfl

/-- The five row blocks cover the array: row r is in block r / 5000. -/
theorem cover5 (i : S25000x128.Idx) :
    ∃ t : Fin cfg5.N, (cfg5.win 2).flush t = true ∧ i ∈ ((cfg5.win 2).blk t).view.set := by
  have hi0 : (i 0).val < 25000 := (i 0).isLt
  have hi1 : (i 1).val < 128 := (i 1).isLt
  obtain ⟨t, ht⟩ := block_onto5 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The stage's result array after the launch is the entrywise sum of the two pooled arrays. -/
theorem final5 (c : Dev nD) :
    (Gen.dat5 (F := Ideal) V c).arrAt 2 cfg5.N = sum5 (V c main_v113) (V c main_v114) :=
  (dat5 (F := Ideal) V c).arrAt_eq_of_cover 2 (sum5 (V c main_v113) (V c main_v114))
    (fun t _ => flushed5_eq V c t) cover5

end Cert.KernelIdeal.Net

end
-- ==== Proof.Chain.lean ====
/-
  The kernel program's result, read off its run.

  The memory at each boundary of the program is a fold from the launch memory.  Read boundary by boundary: a host
  stretch's result is its operations applied to what the stretch finds; a launch's output array is the stage function of
  the specification applied to the launch's input arrays (the blocks written back at the grid points tile the array);
  everything else is carried unchanged.  At the last boundary the result buffer holds the stage-by-stage value `result`
  of the launch contents of the fifteen argument arrays.
-/
import proofs.«123810_j60627758350827_1_alg».proof.Proof.Kept
import proofs.«123810_j60627758350827_1_alg».proof.Proof.Net
import proofs.«123810_j60627758350827_1_alg».proof.Proof.Region0
import proofs.«123810_j60627758350827_1_alg».proof.Proof.Region1
import proofs.«123810_j60627758350827_1_alg».proof.Proof.Region2
import proofs.«123810_j60627758350827_1_alg».proof.Proof.Region3
import proofs.«123810_j60627758350827_1_alg».proof.Proof.Region4
import proofs.«123810_j60627758350827_1_alg».proof.Proof.Region5
import Idealize.ShloMosaic.Lib.StableHlo.Run

set_option maxRecDepth 16384

noncomputable section

namespace Cert.KernelIdeal.Net

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The launch contents of the fifteen argument arrays on core `c`. -/
def argsOf : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14)⟩

/-! ## Before the first launch -/

theorem w1_v7 : W1 m ρ c (Proc.devRef .tc main_v7) = X7 (argsOf m c) := by
  have e : StableHlo.after hostOps0 (W0 m ρ c) (Proc.devRef .tc main_v7) = shapeCast S100000x64 (W0 m ρ c (Proc.devRef .tc main_arg0)) shapeCasts_S2x50000x64_S100000x64 := by
    after_results
    first | done | rfl
  refine e.trans ?_
  first | done | rfl

theorem w1_v8 : W1 m ρ c (Proc.devRef .tc main_v8) = B8 (argsOf m c) := by
  have e : StableHlo.after hostOps0 (W0 m ρ c) (Proc.devRef .tc main_v8) = shapeCast S1x128 (W0 m ρ c (Proc.devRef .tc main_arg8)) shapeCasts_S128_S1x128 := by
    after_results
    first | done | rfl
  refine e.trans ?_
  first | done | rfl

theorem w1_v6 : W1 m ρ c (Proc.devRef .tc main_v6) = DI (argsOf m c) := by
  show StableHlo.after hostOps0 (W0 m ρ c) (Proc.devRef .tc main_v6) = _
  after_results
  first | done | rfl

/-! ## The residual projection and its pooling -/

theorem w2_v9 : W2 m ρ c (Proc.devRef .tc main_v9) = Y9 (argsOf m c) := by
  refine (W2_arr m ρ c 3).trans ?_
  refine (final0 (V1 m ρ) c).trans ?_
  show lin0 (W1 m ρ c (Proc.devRef .tc main_v7)) (W1 m ρ c (Proc.devRef .tc main_arg7)) (W1 m ρ c (Proc.devRef .tc main_v8)) = _
  rw [w1_v7 m ρ c, arg7_at_1 m ρ c, w1_v8 m ρ c]
  first | done | rfl

theorem w3_v31 : W3 m ρ c (Proc.devRef .tc main_v31) = P31 (argsOf m c) := by
  have e : StableHlo.after hostOps1 (W2 m ρ c) (Proc.devRef .tc main_v31) = pool (shapeCast S2x50000x128 (W2 m ρ c (Proc.devRef .tc main_v9)) shapeCasts_S100000x128_S2x50000x128) (W2 m ρ c (Proc.devRef .tc main_arg5)) (W2 m ρ c (Proc.devRef .tc main_arg6)) := by
    after_results_simp
    first | done | rfl
  refine e.trans ?_
  rw [w2_v9 m ρ c, arg5_at_2 m ρ c, arg6_at_2 m ρ c]
  first | done | rfl

theorem w3_v33 : W3 m ρ c (Proc.devRef .tc main_v33) = WC0 (argsOf m c) := by
  have e : StableHlo.after hostOps1 (W2 m ρ c) (Proc.devRef .tc main_v33) = concatenate S64x256 1 [⟨S64x128, (W2 m ρ c (Proc.devRef .tc main_arg9))⟩, ⟨S64x128, (W2 m ρ c (Proc.devRef .tc main_arg10))⟩] concatenates_S64x128_S64x128_S64x256_d1 := by
    after_results_simp
    first | done | rfl
  refine e.trans ?_
  rw [arg9_at_2 m ρ c, arg10_at_2 m ρ c]
  first | done | rfl

theorem w3_v32 : W3 m ρ c (Proc.devRef .tc main_v32) = Z32 := by
  show StableHlo.after hostOps1 (W2 m ρ c) (Proc.devRef .tc main_v32) = _
  after_results_simp
  first | done | rfl
theorem w3_v34 : W3 m ρ c (Proc.devRef .tc main_v34) = B34 := by
  show StableHlo.after hostOps1 (W2 m ρ c) (Proc.devRef .tc main_v34) = _
  after_results_simp
  first | done | rfl
theorem w3_v7 : W3 m ρ c (Proc.devRef .tc main_v7) = X7 (argsOf m c) := (keep_v7_1_3 m ρ c).trans (w1_v7 m ρ c)

/-! ## The first layer -/

theorem w4_v35 : W4 m ρ c (Proc.devRef .tc main_v35) = Y35 (argsOf m c) := by
  refine (W4_arr m ρ c 3).trans ?_
  refine (final1 (V3 m ρ) c).trans ?_
  show lin1 (W3 m ρ c (Proc.devRef .tc main_v7)) (W3 m ρ c (Proc.devRef .tc main_v33)) (W3 m ρ c (Proc.devRef .tc main_v34)) = _
  rw [w3_v7 m ρ c, w3_v33 m ρ c, w3_v34 m ρ c]
  first | done | rfl

theorem w4_v6 : W4 m ρ c (Proc.devRef .tc main_v6) = DI (argsOf m c) := (keep_v6_1_4 m ρ c).trans (w1_v6 m ρ c)
theorem w5_v36 : W5 m ρ c (Proc.devRef .tc main_v36) = HS0 (argsOf m c) := by
  have e : StableHlo.after hostOps2 (W4 m ρ c) (Proc.devRef .tc main_v36) = extractStridedSlice S100000x128 ![0, 0] (W4 m ρ c (Proc.devRef .tc main_v35)) slices_S100000x256_S100000x128_0_0 := by
    after_results_simp
    first | done | rfl
  refine e.trans ?_
  rw [w4_v35 m ρ c]
  first | done | rfl

theorem w5_v59 : W5 m ρ c (Proc.devRef .tc main_v59) = shapeCast S100000x128 (AG0 (argsOf m c)) shapeCasts_S2x50000x128_S100000x128 := by
  have e : StableHlo.after hostOps2 (W4 m ρ c) (Proc.devRef .tc main_v59) = shapeCast S100000x128 (agg (shapeCast S2x50000x128 (extractStridedSlice S100000x128 ![0, 128] (W4 m ρ c (Proc.devRef .tc main_v35)) slices_S100000x256_S100000x128_0_128) shapeCasts_S100000x128_S2x50000x128) (W4 m ρ c (Proc.devRef .tc main_arg1)) (W4 m ρ c (Proc.devRef .tc main_arg3)) (W4 m ρ c (Proc.devRef .tc main_arg4)) (W4 m ρ c (Proc.devRef .tc main_v6))) shapeCasts_S2x50000x128_S100000x128 := by
    after_results_simp
    first | done | rfl
  refine e.trans ?_
  rw [w4_v35 m ρ c, arg1_at_4 m ρ c, arg3_at_4 m ρ c, arg4_at_4 m ρ c, w4_v6 m ρ c]
  first | done | rfl

theorem w5_v60 : W5 m ρ c (Proc.devRef .tc main_v60) = shapeCast S1x128 (argsOf m c).x11 shapeCasts_S128_S1x128 := by
  have e : StableHlo.after hostOps2 (W4 m ρ c) (Proc.devRef .tc main_v60) = shapeCast S1x128 (W4 m ρ c (Proc.devRef .tc main_arg11)) shapeCasts_S128_S1x128 := by
    after_results_simp
    first | done | rfl
  refine e.trans ?_
  rw [arg11_at_4 m ρ c]
  first | done | rfl

theorem w6_v61 : W6 m ρ c (Proc.devRef .tc main_v61) = Y61 (argsOf m c) := by
  refine (W6_arr m ρ c 3).trans ?_
  refine (final2 (V5 m ρ) c).trans ?_
  show combLeaky (W5 m ρ c (Proc.devRef .tc main_v36)) (W5 m ρ c (Proc.devRef .tc main_v59)) (W5 m ρ c (Proc.devRef .tc main_v60)) = _
  rw [w5_v36 m ρ c, w5_v59 m ρ c, w5_v60 m ρ c]
  first | done | rfl

/-! ## The second layer -/

theorem w7_v62 : W7 m ρ c (Proc.devRef .tc main_v62) = WC1 (argsOf m c) := by
  have e : StableHlo.after hostOps3 (W6 m ρ c) (Proc.devRef .tc main_v62) = concatenate S128x256 1 [⟨S128x128, (W6 m ρ c (Proc.devRef .tc main_arg12))⟩, ⟨S128x128, (W6 m ρ c (Proc.devRef .tc main_arg13))⟩] concatenates_S128x128_S128x128_S128x256_d1 := by
    after_results
    first | done | rfl
  refine e.trans ?_
  rw [arg12_at_6 m ρ c, arg13_at_6 m ρ c]
  first | done | rfl

theorem w6_v32 : W6 m ρ c (Proc.devRef .tc main_v32) = Z32 := (keep_v32_3_6 m ρ c).trans (w3_v32 m ρ c)
theorem w7_v63 : W7 m ρ c (Proc.devRef .tc main_v63) = B34 := by
  have e : StableHlo.after hostOps3 (W6 m ρ c) (Proc.devRef .tc main_v63) = shapeCast S1x256 (W6 m ρ c (Proc.devRef .tc main_v32)) shapeCasts_S256_S1x256 := by
    after_results
    first | done | rfl
  refine e.trans ?_
  rw [w6_v32 m ρ c]
  first | done | rfl

theorem w7_v61 : W7 m ρ c (Proc.devRef .tc main_v61) = Y61 (argsOf m c) := (keep_v61_6_7 m ρ c).trans (w6_v61 m ρ c)
theorem w8_v64 : W8 m ρ c (Proc.devRef .tc main_v64) = Y64 (argsOf m c) := by
  refine (W8_arr m ρ c 3).trans ?_
  refine (final3 (V7 m ρ) c).trans ?_
  show lin3 (W7 m ρ c (Proc.devRef .tc main_v61)) (W7 m ρ c (Proc.devRef .tc main_v62)) (W7 m ρ c (Proc.devRef .tc main_v63)) = _
  rw [w7_v61 m ρ c, w7_v62 m ρ c, w7_v63 m ρ c]
  first | done | rfl

theorem w8_v6 : W8 m ρ c (Proc.devRef .tc main_v6) = DI (argsOf m c) := (keep_v6_1_8 m ρ c).trans (w1_v6 m ρ c)
theorem w9_v65 : W9 m ρ c (Proc.devRef .tc main_v65) = HS1 (argsOf m c) := by
  have e : StableHlo.after hostOps4 (W8 m ρ c) (Proc.devRef .tc main_v65) = extractStridedSlice S100000x128 ![0, 0] (W8 m ρ c (Proc.devRef .tc main_v64)) slices_S100000x256_S100000x128_0_0 := by
    after_results_simp
    first | done | rfl
  refine e.trans ?_
  rw [w8_v64 m ρ c]
  first | done | rfl

theorem w9_v88 : W9 m ρ c (Proc.devRef .tc main_v88) = shapeCast S100000x128 (AG1 (argsOf m c)) shapeCasts_S2x50000x128_S100000x128 := by
  have e : StableHlo.after hostOps4 (W8 m ρ c) (Proc.devRef .tc main_v88) = shapeCast S100000x128 (agg (shapeCast S2x50000x128 (extractStridedSlice S100000x128 ![0, 128] (W8 m ρ c (Proc.devRef .tc main_v64)) slices_S100000x256_S100000x128_0_128) shapeCasts_S100000x128_S2x50000x128) (W8 m ρ c (Proc.devRef .tc main_arg1)) (W8 m ρ c (Proc.devRef .tc main_arg3)) (W8 m ρ c (Proc.devRef .tc main_arg4)) (W8 m ρ c (Proc.devRef .tc main_v6))) shapeCasts_S2x50000x128_S100000x128 := by
    after_results_simp
    first | done | rfl
  refine e.trans ?_
  rw [w8_v64 m ρ c, arg1_at_8 m ρ c, arg3_at_8 m ρ c, arg4_at_8 m ρ c, w8_v6 m ρ c]
  first | done | rfl

theorem w9_v89 : W9 m ρ c (Proc.devRef .tc main_v89) = shapeCast S1x128 (argsOf m c).x14 shapeCasts_S128_S1x128 := by
  have e : StableHlo.after hostOps4 (W8 m ρ c) (Proc.devRef .tc main_v89) = shapeCast S1x128 (W8 m ρ c (Proc.devRef .tc main_arg14)) shapeCasts_S128_S1x128 := by
    after_results_simp
    first | done | rfl
  refine e.trans ?_
  rw [arg14_at_8 m ρ c]
  first | done | rfl

theorem w10_v90 : W10 m ρ c (Proc.devRef .tc main_v90) = Y90 (argsOf m c) := by
  refine (W10_arr m ρ c 3).trans ?_
  refine (final4 (V9 m ρ) c).trans ?_
  show comb (W9 m ρ c (Proc.devRef .tc main_v65)) (W9 m ρ c (Proc.devRef .tc main_v88)) (W9 m ρ c (Proc.devRef .tc main_v89)) = _
  rw [w9_v65 m ρ c, w9_v88 m ρ c, w9_v89 m ρ c]
  first | done | rfl

/-! ## Pooling the main path and the final sum -/

theorem w10_v31 : W10 m ρ c (Proc.devRef .tc main_v31) = P31 (argsOf m c) := (keep_v31_3_10 m ρ c).trans (w3_v31 m ρ c)
theorem w11_v113 : W11 m ρ c (Proc.devRef .tc main_v113) = shapeCast S25000x128 (P109 (argsOf m c)) shapeCasts_S2x12500x128_S25000x128 := by
  have e : StableHlo.after hostOps5 (W10 m ρ c) (Proc.devRef .tc main_v113) = shapeCast S25000x128 (pool (shapeCast S2x50000x128 (W10 m ρ c (Proc.devRef .tc main_v90)) shapeCasts_S100000x128_S2x50000x128) (W10 m ρ c (Proc.devRef .tc main_arg5)) (W10 m ρ c (Proc.devRef .tc main_arg6))) shapeCasts_S2x12500x128_S25000x128 := by
    after_results_simp
    first | done | rfl
  refine e.trans ?_
  rw [w10_v90 m ρ c, arg5_at_10 m ρ c, arg6_at_10 m ρ c]
  first | done | rfl

theorem w11_v114 : W11 m ρ c (Proc.devRef .tc main_v114) = shapeCast S25000x128 (P31 (argsOf m c)) shapeCasts_S2x12500x128_S25000x128 := by
  have e : StableHlo.after hostOps5 (W10 m ρ c) (Proc.devRef .tc main_v114) = shapeCast S25000x128 (W10 m ρ c (Proc.devRef .tc main_v31)) shapeCasts_S2x12500x128_S25000x128 := by
    after_results_simp
    first | done | rfl
  refine e.trans ?_
  rw [w10_v31 m ρ c]
  first | done | rfl

theorem w12_v115 : W12 m ρ c (Proc.devRef .tc main_v115) = Y115 (argsOf m c) := by
  refine (W12_arr m ρ c 2).trans ?_
  refine (final5 (V11 m ρ) c).trans ?_
  show sum5 (W11 m ρ c (Proc.devRef .tc main_v113)) (W11 m ρ c (Proc.devRef .tc main_v114)) = _
  rw [w11_v113 m ρ c, w11_v114 m ρ c]
  first | done | rfl

/-- THE RESULT BUFFER at the last boundary: the stage-by-stage value of the launch contents of the arguments. -/
theorem kernel_value : W13 m ρ c (Proc.devRef .tc main_v116) = result (argsOf m c) := by
  have e : StableHlo.after hostOps6 (W12 m ρ c) (Proc.devRef .tc main_v116) = shapeCast S2x12500x128 (W12 m ρ c (Proc.devRef .tc main_v115)) shapeCasts_S25000x128_S2x12500x128 := by
    after_results
    first | done | rfl
  refine e.trans ?_
  rw [w12_v115 m ρ c]
  first | done | rfl

end Cert.KernelIdeal.Net

end
-- ==== Proof.LibMergeAxes.lean ====
/-
  Row-major re-layouts and broadcasts of small-rank arrays, each read at an index written by coordinates.

  * Two leading axes merged: an `[a, b, c]` array seen as `[n, c]` with `n = a · b` has row `p · b + u` equal to the
    operand's `(p, u, ·)`; and the same the other way round, one leading axis of extent `n` split as `(a, b)`.
  * A unit axis put in the middle: `[a, c]` seen as `[a, 1, c]`.
  * A rank-3 array with a unit axis broadcast along it: `[a, 1, c]` to `[a, b, c]` repeats every `(p, ·)` over `u`;
    `[1, b, c]` to `[a, b, c]` repeats the one slab over `p`.
-/
import Idealize.ShloMosaic.Lib.Pipeline.Value
import Idealize.ShloMosaic.Lib.ValueLayout
import Idealize.ShloMosaic.Lib.ValueIdx

noncomputable section

namespace Cert.MergeAxes

open Idealize.ShloMosaic Idealize.ShloMosaic.ValueIdx

variable {α : Type}

/-- An `[a, b, c]` array re-laid as `[n, c]` reads, at row `r = p · b + u` and column `j`, the operand at `(p, u, j)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (j : Fin c) (p : Fin a) (u : Fin b)
    (hr : r.val = p.val * b + u.val) :
    shapeCast ⟨2, ![n, c]⟩ x h (ix2 r j) = x (ix3 p u j) :=
  shapeCast_apply x h _ _ (by
    rw [Shape.rowMajor_val_three, Shape.rowMajor_val_two]
    show (p.val * b + u.val) * c + j.val = r.val * c + j.val
    rw [hr])

/-- An `[n, c]` array re-laid as `[a, b, c]` reads, at `(p, u, j)`, the operand's row `r = p · b + u` at column `j`. -/
theorem shapeCast_nc_abc_apply {a b c n : ℕ} (x : (⟨2, ![n, c]⟩ : Shape).Idx → α)
    (h : (⟨2, ![n, c]⟩ : Shape).ShapeCasts ⟨3, ![a, b, c]⟩) (p : Fin a) (u : Fin b) (j : Fin c) (r : Fin n)
    (hr : r.val = p.val * b + u.val) :
    shapeCast ⟨3, ![a, b, c]⟩ x h (ix3 p u j) = x (ix2 r j) :=
  shapeCast_apply x h _ _ (by
    rw [Shape.rowMajor_val_three, Shape.rowMajor_val_two]
    show r.val * c + j.val = (p.val * b + u.val) * c + j.val
    rw [hr])

/-- An `[a, c]` array re-laid as `[a, 1, c]` reads, at `(p, z, j)`, the operand at `(p, j)`, whatever the unit coordinate. -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (j : Fin c) :
    shapeCast ⟨3, ![a, 1, c]⟩ x h (ix3 p z j) = x (ix2 p j) :=
  shapeCast_apply x h _ _ (by
    have hz : z.val = 0 := by omega
    rw [Shape.rowMajor_val_three, Shape.rowMajor_val_two]
    show p.val * c + j.val = (p.val * 1 + z.val) * c + j.val
    rw [hz, Nat.mul_one, Nat.add_zero])

/-- An `[a, 1, c]` array broadcast to `[a, b, c]` reads, at `(p, u, j)`, the operand at `(p, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (u : Fin b) (j : Fin c) :
    broadcastTo ⟨3, ![a, b, c]⟩ v h (ix3 p u j) = v (ix3 p (0 : Fin 1) j) := by
  refine broadcastTo_apply v h (ix3 p u j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(p, u, j)`, the operand at `(0, u, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (u : Fin b) (j : Fin c) :
    broadcastTo ⟨3, ![a, b, c]⟩ v h (ix3 p u j) = v (ix3 (0 : Fin 1) u j) := by
  refine broadcastTo_apply v h (ix3 p u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

end Cert.MergeAxes

end
-- ==== Proof.LibSideBySide.lean ====
/-
  Two [n, w] matrices laid side by side as an [n, w + w] matrix, read at an index: column u is the left matrix's column
  u when u < w and the right matrix's column u - w otherwise.
-/
import Idealize.ShloMosaic.Lib.Pipeline.Value
import Idealize.ShloMosaic.Lib.ValueIdx

noncomputable section

namespace Cert.SideBySide

open Idealize.ShloMosaic Idealize.ShloMosaic.ValueIdx

variable {α : Type} {n w : ℕ}

/-- A column of the left half. -/
theorem left_apply (x y : (⟨2, ![n, w]⟩ : Shape).Idx → α)
    (h : Shape.Concatenates [(⟨2, ![n, w]⟩ : Shape), ⟨2, ![n, w]⟩] ⟨2, ![n, w + w]⟩ (1 : Fin 2))
    (p : Fin n) (u : Fin (w + w)) (hu : u.val < w) :
    concatenate ⟨2, ![n, w + w]⟩ (1 : Fin 2) [⟨⟨2, ![n, w]⟩, x⟩, ⟨⟨2, ![n, w]⟩, y⟩] h (ix2 p u) = x (ix2 p ⟨u.val, hu⟩) :=
  concatenate_pair_apply_left (1 : Fin 2) x y h (ix2 p u) rfl (ix2 p ⟨u.val, hu⟩)
    (fun b => by match b with | ⟨0, _⟩ => rfl | ⟨1, _⟩ => rfl)

/-- A column of the right half. -/
theorem right_apply (x y : (⟨2, ![n, w]⟩ : Shape).Idx → α)
    (h : Shape.Concatenates [(⟨2, ![n, w]⟩ : Shape), ⟨2, ![n, w]⟩] ⟨2, ![n, w + w]⟩ (1 : Fin 2))
    (p : Fin n) (u : Fin (w + w)) (hu : ¬ u.val < w) :
    concatenate ⟨2, ![n, w + w]⟩ (1 : Fin 2) [⟨⟨2, ![n, w]⟩, x⟩, ⟨⟨2, ![n, w]⟩, y⟩] h (ix2 p u)
      = y (ix2 p ⟨u.val - w, by have := u.isLt; omega⟩) :=
  concatenate_pair_apply_right (1 : Fin 2) x y h (ix2 p u) rfl rfl (ix2 p ⟨u.val - w, by have := u.isLt; omega⟩)
    (fun b hb => by match b with | ⟨0, _⟩ => rfl | ⟨1, _⟩ => exact absurd rfl hb)
    (by show u.val - w + w = u.val; omega)

end Cert.SideBySide

end
-- ==== Proof.BridgeLinear.lean ====
/-
  The three linear stages of Spec.lean against the reference's stages, as whole-array equations.

  The device works on the two graphs' rows merged into one axis (row p · 50000 + u is row u of graph p); the
  reference keeps the graph axis.  Splitting the merged axis back, a linear stage's row (p, u) is the sum over the
  contraction coordinate of the operand's row (p, u) times the weight's column, plus the bias of the column, which is
  the reference's rank-3 product (plus its broadcast bias).  The second and third stages multiply by two weight
  matrices laid side by side and add a zero bias; the left half of the columns is the product with the first matrix,
  the right half the product with the second.
-/
import proofs.«123810_j60627758350827_1_alg».proof.Proof.Spec
import proofs.«123810_j60627758350827_1_alg».proof.Proof.Gen.ReferenceIdeal.Read
import proofs.«123810_j60627758350827_1_alg».proof.Proof.LibMergeAxes
import proofs.«123810_j60627758350827_1_alg».proof.Proof.LibSideBySide
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Net

open Cert.KernelIdeal Idealize.ShloMosaic Idealize.ShloMosaic.ValueIdx

/-! ## The first stage: 64 → 128 features with a bias row -/

/-- The reference's product reads its left operand, at result index `(p, u, j)` and contraction coordinate `k`, at `(p, u, k)`. -/
theorem lidx7_ix3 (p : Fin 2) (u : Fin 50000) (j : Fin 128) (k : Fin 64) :
    Cert.ReferenceIdeal.Read.lidx_main_v7 (ix3 p u j) k = ix3 p u k := by
  funext a; match a with | ⟨0, _⟩ => rfl | ⟨1, _⟩ => rfl | ⟨2, _⟩ => rfl

/-- … and its right operand at `(k, j)`. -/
theorem ridx7_ix3 (p : Fin 2) (u : Fin 50000) (j : Fin 128) (k : Fin 64) :
    Cert.ReferenceIdeal.Read.ridx_main_v7 (ix3 p u j) k = ix2 k j := by
  funext a; match a with | ⟨0, _⟩ => rfl | ⟨1, _⟩ => rfl

/-- The first linear stage on the merged rows, split back into the two graphs, is the reference's product plus its
    broadcast bias. -/
theorem lin0_bridge (x0 : S2x50000x64.Idx → EReal) (x7 : S64x128.Idx → EReal) (x8 : S128.Idx → EReal)
    (h1 : S2x50000x64.ShapeCasts S100000x64) (h2 : S128.ShapeCasts S1x128)
    (h3 : S100000x128.ShapeCasts S2x50000x128) :
    shapeCast S2x50000x128 (lin0 (shapeCast S100000x64 x0 h1) x7 (shapeCast S1x128 x8 h2)) h3
      = Cert.ReferenceIdeal.Read.val_main_v10 (F := Ideal) x0 x7 x8 := by
  funext i
  obtain ⟨p, u, j, rfl⟩ : ∃ (p : Fin 2) (u : Fin 50000) (j : Fin 128), i = ix3 p u j := ⟨i 0, i 1, i 2, eq_ix3 i⟩
  have hr : p.val * 50000 + u.val < 100000 := by have := p.isLt; have := u.isLt; omega
  refine (Cert.MergeAxes.shapeCast_nc_abc_apply (a := 2) (b := 50000) (c := 128) (n := 100000) _ h3 p u j
    ⟨p.val * 50000 + u.val, hr⟩ rfl).trans ?_
  rw [Cert.ReferenceIdeal.Read.val_main_v10_apply, Cert.ReferenceIdeal.Read.val_main_v7_apply,
    Cert.ReferenceIdeal.Read.val_main_v9_apply, Cert.ReferenceIdeal.Read.val_main_v8_apply]
  show (∑ k : Fin 64, shapeCast S100000x64 x0 h1 (ix2 (⟨p.val * 50000 + u.val, hr⟩ : Fin 100000) k) * x7 (ix2 k j))
      + shapeCast S1x128 x8 h2 (ix2 (0 : Fin 1) j) = _ + _
  congr 1
  · refine Finset.sum_congr rfl fun k _ => ?_
    rw [lidx7_ix3, ridx7_ix3,
      Cert.MergeAxes.shapeCast_abc_nc_apply (a := 2) (b := 50000) (c := 64) (n := 100000) x0 h1
        ⟨p.val * 50000 + u.val, hr⟩ k p u rfl]
  · refine (shapeCast_a_1a_apply (a := 128) x8 h2 (0 : Fin 1) j).trans ?_
    refine congrArg x8 ?_
    funext a; match a with | ⟨0, _⟩ => rfl

/-! ## A zero bias row, and the columns of two weight matrices side by side -/

/-- The bias row made of the zero word is zero in every column. -/
theorem zeroBias_apply (hb : S_.BroadcastsInDim S256 (![] : Fin 0 → Fin S256.rank)) (h4 : S256.ShapeCasts S1x256)
    (j : Fin 256) :
    shapeCast S1x256 (broadcastInDim S256 ![] hb (constant (F := Ideal) S_ .f32 0x00000000#32)) h4 (ix2 (0 : Fin 1) j)
      = (0 : EReal) := by
  refine (shapeCast_a_1a_apply (a := 256) _ h4 (0 : Fin 1) j).trans ?_
  refine (broadcastInDim_apply _ hb _ (ix1 j) ix0 (fun a => a.elim0)).trans ?_
  exact Ideal.ofBits_zero_f32

/-- Column `j` of the left half of two `[n, 128]` matrices side by side is the first matrix's column `j`. -/
theorem catLeft {n : ℕ} (x y : (⟨2, ![n, 128]⟩ : Shape).Idx → EReal)
    (hc : Shape.Concatenates [(⟨2, ![n, 128]⟩ : Shape), ⟨2, ![n, 128]⟩] ⟨2, ![n, 256]⟩ (1 : Fin 2))
    (k : Fin n) (j : Fin 128) (hj : j.val < 256) :
    concatenate ⟨2, ![n, 256]⟩ (1 : Fin 2) [⟨⟨2, ![n, 128]⟩, x⟩, ⟨⟨2, ![n, 128]⟩, y⟩] hc (ix2 k (⟨j.val, hj⟩ : Fin 256))
      = x (ix2 k j) :=
  Cert.SideBySide.left_apply (n := n) (w := 128) x y hc k ⟨j.val, hj⟩ j.isLt

/-- Column `128 + j`, in the right half, is the second matrix's column `j`. -/
theorem catRight {n : ℕ} (x y : (⟨2, ![n, 128]⟩ : Shape).Idx → EReal)
    (hc : Shape.Concatenates [(⟨2, ![n, 128]⟩ : Shape), ⟨2, ![n, 128]⟩] ⟨2, ![n, 256]⟩ (1 : Fin 2))
    (k : Fin n) (j : Fin 128) (hj : 128 + j.val < 256) :
    concatenate ⟨2, ![n, 256]⟩ (1 : Fin 2) [⟨⟨2, ![n, 128]⟩, x⟩, ⟨⟨2, ![n, 128]⟩, y⟩] hc (ix2 k (⟨128 + j.val, hj⟩ : Fin 256))
      = y (ix2 k j) := by
  refine (Cert.SideBySide.right_apply (n := n) (w := 128) x y hc k ⟨128 + j.val, hj⟩ (by show ¬ 128 + j.val < 128; omega)).trans ?_
  refine congrArg y ?_
  funext a
  match a with
  | ⟨0, _⟩ => rfl
  | ⟨1, _⟩ => exact Fin.ext (by show 128 + j.val - 128 = j.val; omega)

/-! ## The reference's rank-3 product with a 128-wide contraction, for any operands -/

/-- At result index `(p, u, j)` and contraction coordinate `k` the left operand is read at `(p, u, k)` … -/
theorem lidx84_ix3 (p : Fin 2) (u : Fin 50000) (j : Fin 128) (k : Fin 128) :
    Cert.ReferenceIdeal.Read.lidx_main_v84 (ix3 p u j) k = ix3 p u k := by
  funext a; match a with | ⟨0, _⟩ => rfl | ⟨1, _⟩ => rfl | ⟨2, _⟩ => rfl

/-- … and the right operand at `(k, j)`. -/
theorem ridx84_ix3 (p : Fin 2) (u : Fin 50000) (j : Fin 128) (k : Fin 128) :
    Cert.ReferenceIdeal.Read.ridx_main_v84 (ix3 p u j) k = ix2 k j := by
  funext a; match a with | ⟨0, _⟩ => rfl | ⟨1, _⟩ => rfl

/-- The product's element is the sum over the contraction coordinate of the operands' products, whatever the operands. -/
theorem dot128_apply (L : S2x50000x128.Idx → EReal) (R : S128x128.Idx → EReal) (i : S2x50000x128.Idx) :
    Host.dotGeneral (F := Ideal) (φ₁ := .f32) (φ₂ := .f32)
        Cert.ReferenceIdeal.dot_S2x50000x128_S128x128_S2x50000x128_2_0_01_1_n_n none L R i
      = ∑ k : Fin 128, L (Cert.ReferenceIdeal.Read.lidx_main_v84 i k) * R (Cert.ReferenceIdeal.Read.ridx_main_v84 i k) := by
  simp only [Host.dotGeneral]
  rw [Ideal.dotGeneral_apply, ← Equiv.sum_comp (ValueIdx.contrEquiv1 Cert.ReferenceIdeal.dot_S2x50000x128_S128x128_S2x50000x128_2_0_01_1_n_n 128 rfl rfl).symm]
  refine Finset.sum_congr rfl fun k _ => ?_
  have hk := ValueIdx.contrEquiv1_symm_val Cert.ReferenceIdeal.dot_S2x50000x128_S128x128_S2x50000x128_2_0_01_1_n_n 128 rfl rfl k
  have el : Cert.ReferenceIdeal.dot_S2x50000x128_S128x128_S2x50000x128_2_0_01_1_n_n.lhsIdx i ((ValueIdx.contrEquiv1 Cert.ReferenceIdeal.dot_S2x50000x128_S128x128_S2x50000x128_2_0_01_1_n_n 128 rfl rfl).symm k) = Cert.ReferenceIdeal.Read.lidx_main_v84 i k := funext fun a => Fin.ext (by
    match a with
    | ⟨0, _⟩ => exact Cert.ReferenceIdeal.Read.lhs_main_v84_0 _ _
    | ⟨1, _⟩ => exact Cert.ReferenceIdeal.Read.lhs_main_v84_1 _ _
    | ⟨2, _⟩ => exact (Cert.ReferenceIdeal.Read.lhs_main_v84_2 _ _).trans hk)
  have er : Cert.ReferenceIdeal.dot_S2x50000x128_S128x128_S2x50000x128_2_0_01_1_n_n.rhsIdx i ((ValueIdx.contrEquiv1 Cert.ReferenceIdeal.dot_S2x50000x128_S128x128_S2x50000x128_2_0_01_1_n_n 128 rfl rfl).symm k) = Cert.ReferenceIdeal.Read.ridx_main_v84 i k := funext fun a => Fin.ext (by
    match a with
    | ⟨0, _⟩ => exact (Cert.ReferenceIdeal.Read.rhs_main_v84_0 _ _).trans hk
    | ⟨1, _⟩ => exact Cert.ReferenceIdeal.Read.rhs_main_v84_1 _ _)
  rw [el, er]

/-! ## The third stage: 128 → 256 features, two weight matrices side by side, zero bias -/

/-- The left half of the third stage's columns, split back into the two graphs, is the reference's product of the
    split operand with the first weight matrix. -/
theorem lin3_self (Y0 : S100000x128.Idx → EReal) (x12 x13 : S128x128.Idx → EReal)
    (hc : Shape.Concatenates [S128x128, S128x128] S128x256 1)
    (hb : S_.BroadcastsInDim S256 (![] : Fin 0 → Fin S256.rank)) (h4 : S256.ShapeCasts S1x256)
    (hs : S100000x256.Slices ![0, 0] S100000x128) (h3 : S100000x128.ShapeCasts S2x50000x128) :
    shapeCast S2x50000x128 (extractStridedSlice S100000x128 ![0, 0]
        (lin3 Y0 (concatenate S128x256 1 [⟨S128x128, x12⟩, ⟨S128x128, x13⟩] hc)
          (shapeCast S1x256 (broadcastInDim S256 ![] hb (constant (F := Ideal) S_ .f32 0x00000000#32)) h4)) hs) h3
      = Host.dotGeneral (F := Ideal) (φ₁ := .f32) (φ₂ := .f32)
          Cert.ReferenceIdeal.dot_S2x50000x128_S128x128_S2x50000x128_2_0_01_1_n_n none (shapeCast S2x50000x128 Y0 h3) x12 := by
  funext i
  obtain ⟨p, u, j, rfl⟩ : ∃ (p : Fin 2) (u : Fin 50000) (j : Fin 128), i = ix3 p u j := ⟨i 0, i 1, i 2, eq_ix3 i⟩
  have hr : p.val * 50000 + u.val < 100000 := by have := p.isLt; have := u.isLt; omega
  have hj : j.val < 256 := by have := j.isLt; omega
  refine (Cert.MergeAxes.shapeCast_nc_abc_apply (a := 2) (b := 50000) (c := 128) (n := 100000) _ h3 p u j
    ⟨p.val * 50000 + u.val, hr⟩ rfl).trans ?_
  refine (extractStridedSlice_apply ![0, 0] _ hs (ix2 (⟨p.val * 50000 + u.val, hr⟩ : Fin 100000) j)
    (ix2 (⟨p.val * 50000 + u.val, hr⟩ : Fin 100000) (⟨j.val, hj⟩ : Fin 256)) (fun a => ?_)).trans ?_
  · match a with
    | ⟨0, _⟩ => show p.val * 50000 + u.val = 0 + (p.val * 50000 + u.val); omega
    | ⟨1, _⟩ => show j.val = 0 + j.val; omega
  rw [dot128_apply]
  show (∑ k : Fin 128, Y0 (ix2 (⟨p.val * 50000 + u.val, hr⟩ : Fin 100000) k)
        * concatenate S128x256 1 [⟨S128x128, x12⟩, ⟨S128x128, x13⟩] hc (ix2 k (⟨j.val, hj⟩ : Fin 256)))
      + shapeCast S1x256 (broadcastInDim S256 ![] hb (constant (F := Ideal) S_ .f32 0x00000000#32)) h4
          (ix2 (0 : Fin 1) (⟨j.val, hj⟩ : Fin 256)) = _
  rw [zeroBias_apply, add_zero]
  refine Finset.sum_congr rfl fun k _ => ?_
  rw [lidx84_ix3, ridx84_ix3,
    Cert.MergeAxes.shapeCast_nc_abc_apply (a := 2) (b := 50000) (c := 128) (n := 100000) Y0 h3 p u k
      ⟨p.val * 50000 + u.val, hr⟩ rfl]
  exact congrArg _ (catLeft (n := 128) x12 x13 hc k j hj)

/-- The right half of the third stage's columns is the product with the second weight matrix. -/
theorem lin3_nb (Y0 : S100000x128.Idx → EReal) (x12 x13 : S128x128.Idx → EReal)
    (hc : Shape.Concatenates [S128x128, S128x128] S128x256 1)
    (hb : S_.BroadcastsInDim S256 (![] : Fin 0 → Fin S256.rank)) (h4 : S256.ShapeCasts S1x256)
    (hs : S100000x256.Slices ![0, 128] S100000x128) (h3 : S100000x128.ShapeCasts S2x50000x128) :
    shapeCast S2x50000x128 (extractStridedSlice S100000x128 ![0, 128]
        (lin3 Y0 (concatenate S128x256 1 [⟨S128x128, x12⟩, ⟨S128x128, x13⟩] hc)
          (shapeCast S1x256 (broadcastInDim S256 ![] hb (constant (F := Ideal) S_ .f32 0x00000000#32)) h4)) hs) h3
      = Host.dotGeneral (F := Ideal) (φ₁ := .f32) (φ₂ := .f32)
          Cert.ReferenceIdeal.dot_S2x50000x128_S128x128_S2x50000x128_2_0_01_1_n_n none (shapeCast S2x50000x128 Y0 h3) x13 := by
  funext i
  obtain ⟨p, u, j, rfl⟩ : ∃ (p : Fin 2) (u : Fin 50000) (j : Fin 128), i = ix3 p u j := ⟨i 0, i 1, i 2, eq_ix3 i⟩
  have hr : p.val * 50000 + u.val < 100000 := by have := p.isLt; have := u.isLt; omega
  have hj : 128 + j.val < 256 := by have := j.isLt; omega
  refine (Cert.MergeAxes.shapeCast_nc_abc_apply (a := 2) (b := 50000) (c := 128) (n := 100000) _ h3 p u j
    ⟨p.val * 50000 + u.val, hr⟩ rfl).trans ?_
  refine (extractStridedSlice_apply ![0, 128] _ hs (ix2 (⟨p.val * 50000 + u.val, hr⟩ : Fin 100000) j)
    (ix2 (⟨p.val * 50000 + u.val, hr⟩ : Fin 100000) (⟨128 + j.val, hj⟩ : Fin 256)) (fun a => ?_)).trans ?_
  · match a with
    | ⟨0, _⟩ => show p.val * 50000 + u.val = 0 + (p.val * 50000 + u.val); omega
    | ⟨1, _⟩ => show 128 + j.val = 128 + j.val; rfl
  rw [dot128_apply]
  show (∑ k : Fin 128, Y0 (ix2 (⟨p.val * 50000 + u.val, hr⟩ : Fin 100000) k)
        * concatenate S128x256 1 [⟨S128x128, x12⟩, ⟨S128x128, x13⟩] hc (ix2 k (⟨128 + j.val, hj⟩ : Fin 256)))
      + shapeCast S1x256 (broadcastInDim S256 ![] hb (constant (F := Ideal) S_ .f32 0x00000000#32)) h4
          (ix2 (0 : Fin 1) (⟨128 + j.val, hj⟩ : Fin 256)) = _
  rw [zeroBias_apply, add_zero]
  refine Finset.sum_congr rfl fun k _ => ?_
  rw [lidx84_ix3, ridx84_ix3,
    Cert.MergeAxes.shapeCast_nc_abc_apply (a := 2) (b := 50000) (c := 128) (n := 100000) Y0 h3 p u k
      ⟨p.val * 50000 + u.val, hr⟩ rfl]
  exact congrArg _ (catRight (n := 128) x12 x13 hc k j hj)

/-! ## The second stage: 64 → 256 features, two weight matrices side by side, zero bias -/

/-- The reference's product reads its left operand, at result index `(p, u, j)` and contraction coordinate `k`, at `(p, u, k)` … -/
theorem lidx53_ix3 (p : Fin 2) (u : Fin 50000) (j : Fin 128) (k : Fin 64) :
    Cert.ReferenceIdeal.Read.lidx_main_v53 (ix3 p u j) k = ix3 p u k := by
  funext a; match a with | ⟨0, _⟩ => rfl | ⟨1, _⟩ => rfl | ⟨2, _⟩ => rfl

/-- … and its right operand at `(k, j)`. -/
theorem ridx53_ix3 (p : Fin 2) (u : Fin 50000) (j : Fin 128) (k : Fin 64) :
    Cert.ReferenceIdeal.Read.ridx_main_v53 (ix3 p u j) k = ix2 k j := by
  funext a; match a with | ⟨0, _⟩ => rfl | ⟨1, _⟩ => rfl

/-- The reference's product reads its left operand, at result index `(p, u, j)` and contraction coordinate `k`, at `(p, u, k)` … -/
theorem lidx32_ix3 (p : Fin 2) (u : Fin 50000) (j : Fin 128) (k : Fin 64) :
    Cert.ReferenceIdeal.Read.lidx_main_v32 (ix3 p u j) k = ix3 p u k := by
  funext a; match a with | ⟨0, _⟩ => rfl | ⟨1, _⟩ => rfl | ⟨2, _⟩ => rfl

/-- … and its right operand at `(k, j)`. -/
theorem ridx32_ix3 (p : Fin 2) (u : Fin 50000) (j : Fin 128) (k : Fin 64) :
    Cert.ReferenceIdeal.Read.ridx_main_v32 (ix3 p u j) k = ix2 k j := by
  funext a; match a with | ⟨0, _⟩ => rfl | ⟨1, _⟩ => rfl

/-- The left half of the second stage's columns, split back into the two graphs, is the reference's product of the
    input with the first weight matrix. -/
theorem lin1_self (x0 : S2x50000x64.Idx → EReal) (x9 x10 : S64x128.Idx → EReal)
    (h1 : S2x50000x64.ShapeCasts S100000x64)
    (hc : Shape.Concatenates [S64x128, S64x128] S64x256 1)
    (hb : S_.BroadcastsInDim S256 (![] : Fin 0 → Fin S256.rank)) (h4 : S256.ShapeCasts S1x256)
    (hs : S100000x256.Slices ![0, 0] S100000x128) (h3 : S100000x128.ShapeCasts S2x50000x128) :
    shapeCast S2x50000x128 (extractStridedSlice S100000x128 ![0, 0]
        (lin1 (shapeCast S100000x64 x0 h1) (concatenate S64x256 1 [⟨S64x128, x9⟩, ⟨S64x128, x10⟩] hc)
          (shapeCast S1x256 (broadcastInDim S256 ![] hb (constant (F := Ideal) S_ .f32 0x00000000#32)) h4)) hs) h3
      = Cert.ReferenceIdeal.Read.val_main_v53 (F := Ideal) x0 x9 := by
  funext i
  obtain ⟨p, u, j, rfl⟩ : ∃ (p : Fin 2) (u : Fin 50000) (j : Fin 128), i = ix3 p u j := ⟨i 0, i 1, i 2, eq_ix3 i⟩
  have hr : p.val * 50000 + u.val < 100000 := by have := p.isLt; have := u.isLt; omega
  have hj : j.val < 256 := by have := j.isLt; omega
  refine (Cert.MergeAxes.shapeCast_nc_abc_apply (a := 2) (b := 50000) (c := 128) (n := 100000) _ h3 p u j
    ⟨p.val * 50000 + u.val, hr⟩ rfl).trans ?_
  refine (extractStridedSlice_apply ![0, 0] _ hs (ix2 (⟨p.val * 50000 + u.val, hr⟩ : Fin 100000) j)
    (ix2 (⟨p.val * 50000 + u.val, hr⟩ : Fin 100000) (⟨j.val, hj⟩ : Fin 256)) (fun a => ?_)).trans ?_
  · match a with
    | ⟨0, _⟩ => show p.val * 50000 + u.val = 0 + (p.val * 50000 + u.val); omega
    | ⟨1, _⟩ => show j.val = 0 + j.val; omega
  rw [Cert.ReferenceIdeal.Read.val_main_v53_apply]
  show (∑ k : Fin 64, shapeCast S100000x64 x0 h1 (ix2 (⟨p.val * 50000 + u.val, hr⟩ : Fin 100000) k)
        * concatenate S64x256 1 [⟨S64x128, x9⟩, ⟨S64x128, x10⟩] hc (ix2 k (⟨j.val, hj⟩ : Fin 256)))
      + shapeCast S1x256 (broadcastInDim S256 ![] hb (constant (F := Ideal) S_ .f32 0x00000000#32)) h4
          (ix2 (0 : Fin 1) (⟨j.val, hj⟩ : Fin 256)) = _
  rw [zeroBias_apply, add_zero]
  refine Finset.sum_congr rfl fun k _ => ?_
  rw [lidx53_ix3, ridx53_ix3,
    Cert.MergeAxes.shapeCast_abc_nc_apply (a := 2) (b := 50000) (c := 64) (n := 100000) x0 h1
      ⟨p.val * 50000 + u.val, hr⟩ k p u rfl]
  exact congrArg _ (catLeft (n := 64) x9 x10 hc k j hj)

/-- The right half of the second stage's columns is the product with the second weight matrix. -/
theorem lin1_nb (x0 : S2x50000x64.Idx → EReal) (x9 x10 : S64x128.Idx → EReal)
    (h1 : S2x50000x64.ShapeCasts S100000x64)
    (hc : Shape.Concatenates [S64x128, S64x128] S64x256 1)
    (hb : S_.BroadcastsInDim S256 (![] : Fin 0 → Fin S256.rank)) (h4 : S256.ShapeCasts S1x256)
    (hs : S100000x256.Slices ![0, 128] S100000x128) (h3 : S100000x128.ShapeCasts S2x50000x128) :
    shapeCast S2x50000x128 (extractStridedSlice S100000x128 ![0, 128]
        (lin1 (shapeCast S100000x64 x0 h1) (concatenate S64x256 1 [⟨S64x128, x9⟩, ⟨S64x128, x10⟩] hc)
          (shapeCast S1x256 (broadcastInDim S256 ![] hb (constant (F := Ideal) S_ .f32 0x00000000#32)) h4)) hs) h3
      = Cert.ReferenceIdeal.Read.val_main_v32 (F := Ideal) x0 x10 := by
  funext i
  obtain ⟨p, u, j, rfl⟩ : ∃ (p : Fin 2) (u : Fin 50000) (j : Fin 128), i = ix3 p u j := ⟨i 0, i 1, i 2, eq_ix3 i⟩
  have hr : p.val * 50000 + u.val < 100000 := by have := p.isLt; have := u.isLt; omega
  have hj : 128 + j.val < 256 := by have := j.isLt; omega
  refine (Cert.MergeAxes.shapeCast_nc_abc_apply (a := 2) (b := 50000) (c := 128) (n := 100000) _ h3 p u j
    ⟨p.val * 50000 + u.val, hr⟩ rfl).trans ?_
  refine (extractStridedSlice_apply ![0, 128] _ hs (ix2 (⟨p.val * 50000 + u.val, hr⟩ : Fin 100000) j)
    (ix2 (⟨p.val * 50000 + u.val, hr⟩ : Fin 100000) (⟨128 + j.val, hj⟩ : Fin 256)) (fun a => ?_)).trans ?_
  · match a with
    | ⟨0, _⟩ => show p.val * 50000 + u.val = 0 + (p.val * 50000 + u.val); omega
    | ⟨1, _⟩ => show 128 + j.val = 128 + j.val; omega
  rw [Cert.ReferenceIdeal.Read.val_main_v32_apply]
  show (∑ k : Fin 64, shapeCast S100000x64 x0 h1 (ix2 (⟨p.val * 50000 + u.val, hr⟩ : Fin 100000) k)
        * concatenate S64x256 1 [⟨S64x128, x9⟩, ⟨S64x128, x10⟩] hc (ix2 k (⟨128 + j.val, hj⟩ : Fin 256)))
      + shapeCast S1x256 (broadcastInDim S256 ![] hb (constant (F := Ideal) S_ .f32 0x00000000#32)) h4
          (ix2 (0 : Fin 1) (⟨128 + j.val, hj⟩ : Fin 256)) = _
  rw [zeroBias_apply, add_zero]
  refine Finset.sum_congr rfl fun k _ => ?_
  rw [lidx32_ix3, ridx32_ix3,
    Cert.MergeAxes.shapeCast_abc_nc_apply (a := 2) (b := 50000) (c := 64) (n := 100000) x0 h1
      ⟨p.val * 50000 + u.val, hr⟩ k p u rfl]
  exact congrArg _ (catRight (n := 64) x9 x10 hc k j hj)

end Cert.KernelIdeal.Net

end
-- ==== Proof.BridgePointwise.lean ====
/-
  The three pointwise stages against the host's own spellings of them.

  The device stages work on [100000, 128] (and [25000, 128]) arrays; the host's versions of the same stages work on
  the re-laid [2, 50000, 128] (and [2, 12500, 128]) arrays, row p · 50000 + u of the flat array being (p, u, ·), with the
  bias given as a length-128 vector placed along the last axis and repeated over the two leading ones, and the two
  constants of the leaky cut given as scalars repeated over the whole shape.  Entry by entry the two spellings read
  the same operands: the re-layout there and back is the identity, the re-laid self term at (p, u, q) is the flat one
  at (p · 50000 + u, q), and every form of the bias reads the vector's entry q.
-/
import proofs.«123810_j60627758350827_1_alg».proof.Proof.Spec
import proofs.«123810_j60627758350827_1_alg».proof.Proof.Gen.ReferenceIdeal
import proofs.«123810_j60627758350827_1_alg».proof.Proof.LibMergeAxes
import Idealize.ShloMosaic.Lib.Pipeline.Value
import Idealize.ShloMosaic.Lib.ValueIdx
import Idealize.ShloMosaic.PureOps.Ideal.Laws

noncomputable section

namespace Cert.KernelIdeal.Net

open Cert.KernelIdeal Idealize.ShloMosaic Idealize.ShloMosaic.ValueIdx

/-- The length-128 vector placed along the last axis of [1, 1, 128] and repeated over [2, 50000, 128] reads, at
    (p, u, q), its entry q. -/
theorem bias_spread_apply (xb : S128.Idx → EReal)
    (hb1 : Cert.ReferenceIdeal.S128.BroadcastsInDim Cert.ReferenceIdeal.S1x1x128 (![2] : Fin 1 → Fin Cert.ReferenceIdeal.S1x1x128.rank))
    (hb2 : Cert.ReferenceIdeal.S1x1x128.BroadcastsInDim Cert.ReferenceIdeal.S2x50000x128 (![0, 1, 2] : Fin 3 → Fin Cert.ReferenceIdeal.S2x50000x128.rank))
    (p : Fin 2) (u : Fin 50000) (q : Fin 128) :
    broadcastInDim Cert.ReferenceIdeal.S2x50000x128 ![0, 1, 2] hb2
        (broadcastInDim Cert.ReferenceIdeal.S1x1x128 ![2] hb1 xb) (ix3 p u q) = xb (ix1 q) := by
  rw [broadcastInDim_apply ![0, 1, 2] hb2 _ (ix3 p u q) (ix3 (0 : Fin 1) (0 : Fin 1) q) (fun ax => by
    match ax with
    | ⟨0, _⟩ => rfl
    | ⟨1, _⟩ => rfl
    | ⟨2, _⟩ => rfl)]
  exact broadcastInDim_apply ![2] hb1 xb (ix3 (0 : Fin 1) (0 : Fin 1) q) (ix1 q) (fun ax => by
    match ax with
    | ⟨0, _⟩ => rfl)

/-- The length-128 vector re-laid as one row reads, at (0, q), its entry q. -/
theorem bias_row_apply (xb : S128.Idx → EReal) (h2 : S128.ShapeCasts S1x128) (q : Fin 128) :
    shapeCast S1x128 xb h2 (ix2 (0 : Fin 1) q) = xb (ix1 q) :=
  shapeCast_apply xb h2 _ _ (by
    rw [Shape.rowMajor_val_one, Shape.rowMajor_val_two]
    show q.val = 0 * 128 + q.val
    omega)

/-- (a) The combine stage on the flat arrays, re-laid, is the host's two additions on the re-laid arrays. -/
theorem comb_bridge (HS : S100000x128.Idx → EReal) (AG : S2x50000x128.Idx → EReal) (xb : S128.Idx → EReal)
    (h2 : S128.ShapeCasts S1x128) (h3 : S100000x128.ShapeCasts S2x50000x128) (h5 : S2x50000x128.ShapeCasts S100000x128)
    (hb1 : Cert.ReferenceIdeal.S128.BroadcastsInDim Cert.ReferenceIdeal.S1x1x128 (![2] : Fin 1 → Fin Cert.ReferenceIdeal.S1x1x128.rank))
    (hb2 : Cert.ReferenceIdeal.S1x1x128.BroadcastsInDim Cert.ReferenceIdeal.S2x50000x128 (![0, 1, 2] : Fin 3 → Fin Cert.ReferenceIdeal.S2x50000x128.rank)) :
    shapeCast S2x50000x128 (comb HS (shapeCast S100000x128 AG h5) (shapeCast S1x128 xb h2)) h3
      = addf (F := Ideal) (φ := .f32) (addf (F := Ideal) (φ := .f32) (shapeCast S2x50000x128 HS h3) AG)
          (broadcastInDim Cert.ReferenceIdeal.S2x50000x128 ![0, 1, 2] hb2
            (broadcastInDim Cert.ReferenceIdeal.S1x1x128 ![2] hb1 xb)) := by
  funext j
  obtain ⟨p, u, q, rfl⟩ : ∃ p u q, j = ix3 p u q := ⟨j 0, j 1, j 2, eq_ix3 j⟩
  have hp : p.val < 2 := p.isLt
  have hu : u.val < 50000 := u.isLt
  refine (Cert.MergeAxes.shapeCast_nc_abc_apply _ h3 p u q ⟨p.val * 50000 + u.val, by omega⟩ rfl).trans ?_
  show (HS (ix2 (⟨p.val * 50000 + u.val, by omega⟩ : Fin 100000) q)
        + shapeCast S100000x128 AG h5 (ix2 (⟨p.val * 50000 + u.val, by omega⟩ : Fin 100000) q))
      + shapeCast S1x128 xb h2 (ix2 (0 : Fin 1) q)
    = (shapeCast S2x50000x128 HS h3 (ix3 p u q) + AG (ix3 p u q))
      + broadcastInDim Cert.ReferenceIdeal.S2x50000x128 ![0, 1, 2] hb2
          (broadcastInDim Cert.ReferenceIdeal.S1x1x128 ![2] hb1 xb) (ix3 p u q)
  rw [Cert.MergeAxes.shapeCast_abc_nc_apply AG h5 ⟨p.val * 50000 + u.val, by omega⟩ q p u rfl, bias_row_apply,
    Cert.MergeAxes.shapeCast_nc_abc_apply HS h3 p u q ⟨p.val * 50000 + u.val, by omega⟩ rfl, bias_spread_apply]

/-- The leaky cut of an array, entry by entry, in the host's spelling: a comparison against a repeated zero, a product
    with a repeated slope, and a choice between the entry and the product. -/
theorem leaky_of_comb (HS A' : S100000x128.Idx → EReal) (B' : S1x128.Idx → EReal) (h3 : S100000x128.ShapeCasts S2x50000x128)
    (Y Z0 Z1 : S2x50000x128.Idx → EReal)
    (hY : shapeCast S2x50000x128 (comb HS A' B') h3 = Y)
    (h0 : ∀ j, Z0 j = FloatOps.ofBits (F := Ideal) .f32 0x00000000#32)
    (h1 : ∀ j, Z1 j = FloatOps.ofBits (F := Ideal) .f32 0x3E4CCCCD#32) :
    shapeCast S2x50000x128 (combLeaky HS A' B') h3
      = select (cmpf (F := Ideal) (φ := .f32) .oge Y Z0) Y (mulf (F := Ideal) (φ := .f32) Z1 Y) := by
  subst hY
  funext j
  show leaky (shapeCast S2x50000x128 (comb HS A' B') h3 j)
    = Scalar.select (FloatOps.cmpf (F := Ideal) (φ := .f32) .oge (shapeCast S2x50000x128 (comb HS A' B') h3 j) (Z0 j))
        (shapeCast S2x50000x128 (comb HS A' B') h3 j) (Z1 j * shapeCast S2x50000x128 (comb HS A' B') h3 j)
  rw [h0, h1]
  rfl

/-- A scalar repeated over [2, 50000, 128] is everywhere its one value. -/
theorem scalar_spread_apply (x : Cert.ReferenceIdeal.S_.Idx → EReal)
    (hb0 : Cert.ReferenceIdeal.S_.BroadcastsInDim Cert.ReferenceIdeal.S2x50000x128 (![] : Fin 0 → Fin Cert.ReferenceIdeal.S2x50000x128.rank))
    (j : S2x50000x128.Idx) :
    broadcastInDim Cert.ReferenceIdeal.S2x50000x128 ![] hb0 x j = x ix0 :=
  broadcastInDim_apply ![] hb0 x j ix0 (fun ax => ax.elim0)

/-- (b) The combine stage with the leaky cut on the flat arrays, re-laid, is the host's comparison, product and choice
    on its own sum of the re-laid arrays. -/
theorem leaky_bridge (HS : S100000x128.Idx → EReal) (AG : S2x50000x128.Idx → EReal) (xb : S128.Idx → EReal)
    (h2 : S128.ShapeCasts S1x128) (h3 : S100000x128.ShapeCasts S2x50000x128) (h5 : S2x50000x128.ShapeCasts S100000x128)
    (hb1 : Cert.ReferenceIdeal.S128.BroadcastsInDim Cert.ReferenceIdeal.S1x1x128 (![2] : Fin 1 → Fin Cert.ReferenceIdeal.S1x1x128.rank))
    (hb2 : Cert.ReferenceIdeal.S1x1x128.BroadcastsInDim Cert.ReferenceIdeal.S2x50000x128 (![0, 1, 2] : Fin 3 → Fin Cert.ReferenceIdeal.S2x50000x128.rank))
    (hb0 : Cert.ReferenceIdeal.S_.BroadcastsInDim Cert.ReferenceIdeal.S2x50000x128 (![] : Fin 0 → Fin Cert.ReferenceIdeal.S2x50000x128.rank)) :
    shapeCast S2x50000x128 (combLeaky HS (shapeCast S100000x128 AG h5) (shapeCast S1x128 xb h2)) h3
      = select
          (cmpf (F := Ideal) (φ := .f32) .oge
            (addf (F := Ideal) (φ := .f32) (addf (F := Ideal) (φ := .f32) (shapeCast S2x50000x128 HS h3) AG)
          (broadcastInDim Cert.ReferenceIdeal.S2x50000x128 ![0, 1, 2] hb2
            (broadcastInDim Cert.ReferenceIdeal.S1x1x128 ![2] hb1 xb)))
            (broadcastInDim Cert.ReferenceIdeal.S2x50000x128 ![] hb0 (constant (F := Ideal) Cert.ReferenceIdeal.S_ .f32 0x00000000#32)))
          (addf (F := Ideal) (φ := .f32) (addf (F := Ideal) (φ := .f32) (shapeCast S2x50000x128 HS h3) AG)
          (broadcastInDim Cert.ReferenceIdeal.S2x50000x128 ![0, 1, 2] hb2
            (broadcastInDim Cert.ReferenceIdeal.S1x1x128 ![2] hb1 xb)))
          (mulf (F := Ideal) (φ := .f32)
            (broadcastInDim Cert.ReferenceIdeal.S2x50000x128 ![] hb0 (constant (F := Ideal) Cert.ReferenceIdeal.S_ .f32 0x3E4CCCCD#32))
            (addf (F := Ideal) (φ := .f32) (addf (F := Ideal) (φ := .f32) (shapeCast S2x50000x128 HS h3) AG)
          (broadcastInDim Cert.ReferenceIdeal.S2x50000x128 ![0, 1, 2] hb2
            (broadcastInDim Cert.ReferenceIdeal.S1x1x128 ![2] hb1 xb)))) :=
  leaky_of_comb HS _ _ h3 _ _ _ (comb_bridge HS AG xb h2 h3 h5 hb1 hb2)
    (fun j => scalar_spread_apply _ hb0 j) (fun j => scalar_spread_apply _ hb0 j)

/-- (c) The entrywise sum of two flattened arrays, re-laid, is the entrywise sum of the arrays. -/
theorem sum5_bridge (P Q : S2x12500x128.Idx → EReal)
    (h6 : S2x12500x128.ShapeCasts S25000x128) (h7 : S25000x128.ShapeCasts S2x12500x128) :
    shapeCast S2x12500x128 (sum5 (shapeCast S25000x128 P h6) (shapeCast S25000x128 Q h6)) h7
      = addf (F := Ideal) (φ := .f32) P Q := by
  funext j
  show shapeCast S2x12500x128 (shapeCast S25000x128 P h6) h7 j + shapeCast S2x12500x128 (shapeCast S25000x128 Q h6) h7 j
    = P j + Q j
  rw [shapeCast_shapeCast, shapeCast_shapeCast]

end Cert.KernelIdeal.Net

end
-- ==== Proof.Equal.lean ====
/-
  The kernel program's stage-by-stage value is the reference's result.

  Each device stage, with its rows laid back as [2, V, 128], is the reference's stage: the residual projection its
  product plus bias; the two halves of a fused projection its two separate products (a column of the side-by-side
  weights is a column of one of them, and adding the zero bias changes nothing); the combine stages its two additions,
  the first followed by the same leaky selection; the last its final sum.  The host stretches between them
  (aggregation along the edges, pooling) are the same functions on both sides, so equal inputs give equal outputs.
-/
import proofs.«123810_j60627758350827_1_alg».proof.Proof.Net
import proofs.«123810_j60627758350827_1_alg».proof.Proof.BridgeLinear
import proofs.«123810_j60627758350827_1_alg».proof.Proof.BridgePointwise

set_option maxRecDepth 16384

noncomputable section

namespace Cert.KernelIdeal.Net

open Cert.KernelIdeal Cert.KernelIdeal.Facts₀ Cert.ReferenceIdeal.Read Idealize.ShloMosaic

variable (a : Args)

/-- The pooled residual. -/
theorem P31_eq : P31 a = val_main_v31 (F := Ideal) a.x0 a.x5 a.x6 a.x7 a.x8 := by
  rw [ref_pool_res]
  unfold P31 Y9 X7 B8
  rw [lin0_bridge]

/-- The first layer's neighbour and self projections. -/
theorem HN0_eq : shapeCast S2x50000x128 (HN0 a) shapeCasts_S100000x128_S2x50000x128 = val_main_v32 (F := Ideal) a.x0 a.x10 := by
  unfold HN0 Y35 X7 WC0 B34 Z32
  exact lin1_nb a.x0 a.x9 a.x10 _ _ _ _ _ _
theorem HS0_eq : shapeCast S2x50000x128 (HS0 a) shapeCasts_S100000x128_S2x50000x128 = val_main_v53 (F := Ideal) a.x0 a.x9 := by
  unfold HS0 Y35 X7 WC0 B34 Z32
  exact lin1_self a.x0 a.x9 a.x10 _ _ _ _ _ _

/-- The first aggregated neighbour term. -/
theorem AG0_eq : AG0 a = val_main_v52 (F := Ideal) a.x0 a.x1 a.x2 a.x3 a.x4 a.x10 := by
  rw [ref_agg0]
  unfold AG0 DI
  rw [HN0_eq]

/-- The first layer's output. -/
theorem Y61_eq : shapeCast S2x50000x128 (Y61 a) shapeCasts_S100000x128_S2x50000x128 = val_main_v62 (F := Ideal) a.x0 a.x1 a.x2 a.x3 a.x4 a.x9 a.x10 a.x11 := by
  unfold Y61
  rw [leaky_bridge (hb1 := Cert.ReferenceIdeal.Facts₀.bcast_S128_S1x1x128_2) (hb2 := Cert.ReferenceIdeal.Facts₀.bcast_S1x1x128_S2x50000x128_0_1_2) (hb0 := Cert.ReferenceIdeal.Facts₀.bcast_S_S2x50000x128), HS0_eq, AG0_eq]
  first | done | rfl

/-- The second layer's neighbour and self projections. -/
theorem HN1_eq : shapeCast S2x50000x128 (HN1 a) shapeCasts_S100000x128_S2x50000x128 = val_main_v63 (F := Ideal) a.x0 a.x1 a.x2 a.x3 a.x4 a.x9 a.x10 a.x11 a.x13 := by
  unfold HN1 Y64 WC1 B34 Z32
  rw [lin3_nb, Y61_eq]
  first | done | rfl
theorem HS1_eq : shapeCast S2x50000x128 (HS1 a) shapeCasts_S100000x128_S2x50000x128 = val_main_v84 (F := Ideal) a.x0 a.x1 a.x2 a.x3 a.x4 a.x9 a.x10 a.x11 a.x12 := by
  unfold HS1 Y64 WC1 B34 Z32
  rw [lin3_self, Y61_eq]
  first | done | rfl

/-- The second aggregated neighbour term. -/
theorem AG1_eq : AG1 a = val_main_v83 (F := Ideal) a.x0 a.x1 a.x2 a.x3 a.x4 a.x9 a.x10 a.x11 a.x13 := by
  rw [ref_agg1]
  unfold AG1 DI
  rw [HN1_eq]

/-- The second layer's output. -/
theorem Y90_eq : shapeCast S2x50000x128 (Y90 a) shapeCasts_S100000x128_S2x50000x128 = val_main_v88 (F := Ideal) a.x0 a.x1 a.x2 a.x3 a.x4 a.x9 a.x10 a.x11 a.x12 a.x13 a.x14 := by
  unfold Y90
  rw [comb_bridge (hb1 := Cert.ReferenceIdeal.Facts₀.bcast_S128_S1x1x128_2) (hb2 := Cert.ReferenceIdeal.Facts₀.bcast_S1x1x128_S2x50000x128_0_1_2), HS1_eq, AG1_eq]
  first | done | rfl

/-- The pooled main path. -/
theorem P109_eq : P109 a = val_main_v109 (F := Ideal) a.x0 a.x1 a.x2 a.x3 a.x4 a.x5 a.x6 a.x9 a.x10 a.x11 a.x12 a.x13 a.x14 := by
  rw [ref_pool_out]
  unfold P109
  rw [Y90_eq]

/-- THE RESULT: the kernel program's value is the reference's last stage of the same fifteen arrays. -/
theorem result_eq : result a = val_main_v110 (F := Ideal) a.x0 a.x1 a.x2 a.x3 a.x4 a.x5 a.x6 a.x7 a.x8 a.x9 a.x10 a.x11 a.x12 a.x13 a.x14 := by
  unfold result Y115
  rw [sum5_bridge, P109_eq, P31_eq]
  first | done | rfl

end Cert.KernelIdeal.Net

end
-- ==== Proof.lean ====
/-
  The certificate: the kernel program and its idealization run and keep their arguments; the idealization rewrote
  nothing; and at the ideal values the idealized kernel program and the idealized reference, from memories agreeing on
  the fifteen arguments, both run and end with the same [2, 12500, 128] result.

  The two programs are the same two-layer graph network.  The kernel program computes the residual projection, the two
  fused self/neighbour projections, the two combine stages and the final sum on the device, row block by row block,
  and aggregates along the edges and pools on the host; the reference does everything on the host.  The kernel
  program's result is read off its run as a stage-by-stage function of the arguments; each device stage, re-laid, is
  the reference's corresponding stage, and the host stretches are the same functions on both sides.  No step uses
  finiteness of the inputs: the only laws used are that a sum may be read through a re-layout or a concatenation and
  that adding the zero bias changes nothing.
-/
import proofs.«123810_j60627758350827_1_alg».proof.Defs
import proofs.«123810_j60627758350827_1_alg».proof.Proof.Gen.Kernel
import proofs.«123810_j60627758350827_1_alg».proof.Proof.Gen.Kernel.Frame
import proofs.«123810_j60627758350827_1_alg».proof.Proof.Gen.KernelIdeal
import proofs.«123810_j60627758350827_1_alg».proof.Proof.Gen.KernelIdeal.Frame
import proofs.«123810_j60627758350827_1_alg».proof.Proof.Gen.ReferenceIdeal
import proofs.«123810_j60627758350827_1_alg».proof.Proof.Gen.ReferenceIdeal.Run
import proofs.«123810_j60627758350827_1_alg».proof.Proof.Gen.ReferenceIdeal.Read
import proofs.«123810_j60627758350827_1_alg».proof.Proof.Gen.Pre_finite_inputs
import proofs.«123810_j60627758350827_1_alg».proof.Proof.KernelRun
import proofs.«123810_j60627758350827_1_alg».proof.Proof.Chain
import proofs.«123810_j60627758350827_1_alg».proof.Proof.Equal
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the reference's last stage of the (agreeing) argument arrays. -/
theorem algebraic : Cert.algebraic_KernelIdeal_ReferenceIdeal := by
  intro m ρ m' ρ' _ hagree
  refine ⟨fun c => Cert.KernelIdeal.Net.result (Cert.KernelIdeal.Net.argsOf m c), ?_, ?_⟩
  · exact (θ_run Cert.KernelIdeal.defs _ _).mono
      (fun r h c => ⟨(h c).1.trans (Cert.KernelIdeal.Net.kernel_value m ρ c), (h c).2⟩)
      (Cert.KernelIdeal.Net.run_value (F := Ideal) m ρ)
  · refine (θ_run Cert.ReferenceIdeal.defs _ _).mono (fun r h c => ⟨(h c).1.trans ?_, (h c).2⟩)
      (Cert.ReferenceIdeal.Value.run (F := Ideal) m' ρ')
    show Cert.ReferenceIdeal.Value.res_main_v110 m' c = Cert.KernelIdeal.Net.result (Cert.KernelIdeal.Net.argsOf m c)
    rw [Cert.KernelIdeal.Net.result_eq (Cert.KernelIdeal.Net.argsOf m c), Cert.ReferenceIdeal.Read.val_main_v110_eq m' c]
    obtain ⟨e0, e1, e2, e3, e4, e5, e6, e7, e8, e9, e10, e11, e12, e13, e14⟩ := hagree c
    rw [e0, e1, e2, e3, e4, e5, e6, e7, e8, e9, e10, e11, e12, e13, e14]
    first | done | rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
